-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x20000x128 : Shape := ⟨4, ![1, 2, 20000, 128]⟩
abbrev S2x320000 : Shape := ⟨2, ![2, 320000]⟩
abbrev S128x128 : Shape := ⟨2, ![128, 128]⟩
abbrev S128 : Shape := ⟨1, ![128]⟩
abbrev S256x128 : Shape := ⟨2, ![256, 128]⟩
abbrev S_ : Shape := ⟨0, ![]⟩
abbrev S1x320000 : Shape := ⟨2, ![1, 320000]⟩
abbrev S320000 : Shape := ⟨1, ![320000]⟩

class Facts : Prop where
  bcast_S_S1x2x20000x128 : S_.BroadcastsInDim S1x2x20000x128 (![] : Fin 0 → Fin S1x2x20000x128.rank)
  reducesTo_S1x2x20000x128_S_d0_1_2_3 : S1x2x20000x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part1 {F : FTy → Type} [FloatOps F] (main_arg1 : IVec S2x320000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x320000 32 := (extractStridedSlice S1x320000 ![1, 0] · slices_S2x320000_S1x320000_1_0) main_arg1
  let main_v25 : IVec S320000 32 := shapeCast S320000 main_v24 shapeCasts_S1x320000_S320000
  let main_c_8 : IVec S_ 32 := constantI S_ 32 0#32
  let main_v26 : IVec S320000 32 := broadcastInDim S320000 ![] bcast_S_S320000 main_c_8
  let main_v27 : IVec S320000 1 := cmpi .sge main_v25 main_v26
  let main_v28 : IVec S1x320000 32 := (extractStridedSlice S1x320000 ![1, 0] · slices_S2x320000_S1x320000_1_0) main_arg1
  let main_v29 : IVec S320000 32 := shapeCast S320000 main_v28 shapeCasts_S1x320000_S320000
  let main_c_9 : IVec S_ 32 := constantI S_ 32 20000#32
  let main_v30 : IVec S320000 32 := broadcastInDim S320000 ![] bcast_S_S320000 main_c_9
  let main_v31 : IVec S320000 1 := cmpi .slt main_v29 main_v30
  let main_v32 : IVec S320000 1 := andi main_v27 main_v31
  let main_c_10 : IVec S_ 1 := constantI S_ 1 1#1
  let main_v33 : IVec S_ 1 := (fun x v => Host.reduce IntOp.andi x v reducesTo_S320000_S_d0 h_S_) main_v32 main_c_10
  let main_v34 : IVec S_ 1 := andi main_v23 main_v33
  main_v34

def fn {F : FTy → Type} [FloatOps F] (main_arg0 : FVec F S1x2x20000x128 .f32) (main_arg1 : IVec S2x320000 32) (main_arg2 : FVec F S128x128 .f32) (main_arg3 : FVec F S128 .f32) (main_arg4 : FVec F S256x128 .f32) (main_arg5 : FVec F S128 .f32) : IVec S_ 1 :=
  let main_v0 : FVec F S1x2x20000x128 .f32 := Host.absf main_arg0
  let main_cst : FVec F S_ .f32 := constant S_ .f32 0x7F800000#32
  let main_v1 : FVec F S1x2x20000x128 .f32 := broadcastInDim S1x2x20000x128 ![] bcast_S_S1x2x20000x128 main_cst
  let main_v2 : IVec S1x2x20000x128 1 := cmpf .olt main_v0 main_v1
  let main_c : IVec S_ 1 := constantI S_ 1 1#1
  let main_v3 : IVec S_ 1 := (fun x v => Host.reduce IntOp.andi x v reducesTo_S1x2x20000x128_S_d0_1_2_3 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S1x2x20000x128 : Shape := ⟨4, ![1, 2, 20000, 128]⟩
abbrev S2x320000 : Shape := ⟨2, ![2, 320000]⟩
abbrev S128x128 : Shape := ⟨2, ![128, 128]⟩
abbrev S128 : Shape := ⟨1, ![128]⟩
abbrev S256x128 : Shape := ⟨2, ![256, 128]⟩
abbrev S40000x128 : Shape := ⟨2, ![40000, 128]⟩
abbrev S5000x128 : Shape := ⟨2, ![5000, 128]⟩
abbrev S1x128 : Shape := ⟨2, ![1, 128]⟩
abbrev S2x20000x128 : Shape := ⟨3, ![2, 20000, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S2x320000x128 : Shape := ⟨3, ![2, 320000, 128]⟩
abbrev S320000x2x128 : Shape := ⟨3, ![320000, 2, 128]⟩
abbrev S20000x2x128 : Shape := ⟨3, ![20000, 2, 128]⟩
abbrev S20000 : Shape := ⟨1, ![20000]⟩
abbrev S20000x1x1 : Shape := ⟨3, ![20000, 1, 1]⟩

abbrev nBuf : Space → Nat
  | .hbm => 59
  | .vmem => 15
  | .smem => 0
  | _ => 0

abbrev bufTy : (tb : Table) → Fin (tcTables nBuf tb) → BufTy
  | .hbm, ⟨0, _⟩ => ⟨S1x2x20000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S40000x128, .f32⟩
  | .hbm, ⟨7, _⟩ => ⟨S40000x128, .f32⟩
  | .hbm, ⟨8, _⟩ => ⟨S2x20000x128, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S1, .i32⟩
  | .hbm, ⟨22, _⟩ => ⟨S_, .i32⟩
  | .hbm, ⟨23, _⟩ => ⟨S320000x1, .i32⟩
  | .hbm, ⟨24, _⟩ => ⟨S320000x1, .i1⟩
  | .hbm, ⟨25, _⟩ => ⟨S1x1, .i32⟩
  | .hbm, ⟨26, _⟩ => ⟨S320000x1, .i32⟩
  | .hbm, ⟨27, _⟩ => ⟨S320000x1, .i1⟩
  | .hbm, ⟨28, _⟩ => ⟨S320000x1, .i1⟩
  | .hbm, ⟨29, _⟩ => ⟨S_, .i1⟩
  | .hbm, ⟨30, _⟩ => ⟨S320000, .i1⟩
  | .hbm, ⟨31, _⟩ => ⟨S2x320000x128, .f32⟩
  | .hbm, ⟨32, _⟩ => ⟨S2x320000x128, .i1⟩
  | .hbm, ⟨33, _⟩ => ⟨S_, .f32⟩
  | .hbm, ⟨34, _⟩ => ⟨S2x320000x128, .f32⟩
  | .hbm, ⟨35, _⟩ => ⟨S2x320000x128, .f32⟩
  | .hbm, ⟨36, _⟩ => ⟨S320000x2x128, .f32⟩
  | .hbm, ⟨37, _⟩ => ⟨S_, .f32⟩
  | .hbm, ⟨38, _⟩ => ⟨S20000x2x128, .f32⟩
  | .hbm, ⟨39, _⟩ => ⟨S320000x1, .i32⟩
  | .hbm, ⟨40, _⟩ => ⟨S20000x2x128, .f32⟩
  | .hbm, ⟨41, _⟩ => ⟨S_, .f32⟩
  | .hbm, ⟨42, _⟩ => ⟨S320000, .f32⟩
  | .hbm, ⟨43, _⟩ => ⟨S_, .f32⟩
  | .hbm, ⟨44, _⟩ => ⟨S20000, .f32⟩
  | .hbm, ⟨45, _⟩ => ⟨S320000x1, .i32⟩
  | .hbm, ⟨46, _⟩ => ⟨S20000, .f32⟩
  | .hbm, ⟨47, _⟩ => ⟨S_, .f32⟩
  | .hbm, ⟨48, _⟩ => ⟨S20000, .f32⟩
  | .hbm, ⟨49, _⟩ => ⟨S20000, .f32⟩
  | .hbm, ⟨50, _⟩ => ⟨S20000x1x1, .f32⟩
  | .hbm, ⟨51, _⟩ => ⟨S20000x2x128, .f32⟩
  | .hbm, ⟨52, _⟩ => ⟨S20000x2x128, .f32⟩
  | .hbm, ⟨53, _⟩ => ⟨S2x20000x128, .f32⟩
  | .hbm, ⟨54, _⟩ => ⟨S40000x128, .f32⟩
  | .hbm, ⟨55, _⟩ => ⟨S128x128, .f32⟩
  | .hbm, ⟨56, _⟩ => ⟨S128x128, .f32⟩
  | .hbm, ⟨57, _⟩ => ⟨S40000x128, .f32⟩
  | .hbm, ⟨58, _⟩ => ⟨S1x2x20000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | _, _ => ⟨S1x2x20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1x2x20000x128_S40000x128 : S1x2x20000x128.ShapeCasts S40000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S40000x128_S2x20000x128 : S40000x128.ShapeCasts S2x20000x128
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S2x320000x128_1 : S320000.BroadcastsInDim S2x320000x128 (![1] : Fin 1 → Fin S2x320000x128.rank)
  bcast_S_S2x320000x128 : S_.BroadcastsInDim S2x320000x128 (![] : Fin 0 → Fin S2x320000x128.rank)
  transposes_S2x320000x128_S320000x2x128_1_0_2 : S2x320000x128.Transposes [1, 0, 2] S320000x2x128
  bcast_S_S20000x2x128 : S_.BroadcastsInDim S20000x2x128 (![] : Fin 0 → Fin S20000x2x128.rank)
  bcast_S_S20000 : S_.BroadcastsInDim S20000 (![] : Fin 0 → Fin S20000.rank)
  bcast_S20000_S20000x1x1_0 : S20000.BroadcastsInDim S20000x1x1 (![0] : Fin 1 → Fin S20000x1x1.rank)
  bcast_S20000x1x1_S20000x2x128_0_1_2 : S20000x1x1.BroadcastsInDim S20000x2x128 (![0, 1, 2] : Fin 3 → Fin S20000x2x128.rank)
  transposes_S20000x2x128_S2x20000x128_1_0_2 : S20000x2x128.Transposes [1, 0, 2] S2x20000x128
  shapeCasts_S2x20000x128_S40000x128 : S2x20000x128.ShapeCasts S40000x128
  slices_S256x128_S128x128_0_0 : S256x128.Slices ![0, 0] S128x128
  slices_S256x128_S128x128_128_0 : S256x128.Slices ![128, 0] S128x128
  shapeCasts_S128x128_S128x128 : S128x128.ShapeCasts S128x128
  shapeCasts_S40000x128_S1x2x20000x128 : S40000x128.ShapeCasts S1x2x20000x128
  dot_S5000x128_S128x128_S5000x128_1_0_0_1_n_n_wf : DotDims.WF S5000x128 S128x128 S5000x128 [1] [0] [0] [1] [] []
  gather_S2x20000x128_S320000x1_S2x320000x128_02_1_n_n_1_1_21128_wf : GatherDims.WF S2x20000x128 S320000x1 S2x320000x128 [0, 2] [1] [] [1] [] 1 ![2, 1, 128]
  scatter_S20000x2x128_S320000x1_S320000x2x128_12_0_0_1_wf : ScatterDims.WF S20000x2x128 S320000x1 S320000x2x128 [1, 2] [0] [0] 1
  scatter_S20000_S320000x1_S320000_n_0_0_1_wf : ScatterDims.WF S20000 S320000x1 S320000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S2x20000x128_S320000x1_S2x320000x128_02_1_n_n_1_1_21128 : GatherDims S2x20000x128 S320000x1 S2x320000x128 where
  offsetDims := [0, 2]
  collapsedSliceDims := [1]
  operandBatchingDims := []
  startIndicesBatchingDims := []
  startIndexMap := [1]
  indexVectorDim := 1
  sliceSizes := ![2, 1, 128]
  wf := gather_S2x20000x128_S320000x1_S2x320000x128_02_1_n_n_1_1_21128_wf
def scatter_S20000x2x128_S320000x1_S320000x2x128_12_0_0_1 : ScatterDims S20000x2x128 S320000x1 S320000x2x128 where
  updateWindowDims := [1, 2]
  insertedWindowDims := [0]
  scatterDimsToOperandDims := [0]
  indexVectorDim := 1
  wf := scatter_S20000x2x128_S320000x1_S320000x2x128_12_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1x2x20000x128 : Shape := ⟨4, ![1, 2, 20000, 128]⟩
abbrev S2x320000 : Shape := ⟨2, ![2, 320000]⟩
abbrev S128x128 : Shape := ⟨2, ![128, 128]⟩
abbrev S128 : Shape := ⟨1, ![128]⟩
abbrev S256x128 : Shape := ⟨2, ![256, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S1x2x320000x128 : Shape := ⟨4, ![1, 2, 320000, 128]⟩
abbrev S1x1x1x128 : Shape := ⟨4, ![1, 1, 1, 128]⟩
abbrev S320000x1x2x128 : Shape := ⟨4, ![320000, 1, 2, 128]⟩
abbrev S20000x1x2x128 : Shape := ⟨4, ![20000, 1, 2, 128]⟩
abbrev S20000 : Shape := ⟨1, ![20000]⟩
abbrev S20000x1x1x1 : Shape := ⟨4, ![20000, 1, 1, 1]⟩
abbrev S1x2x20000x256 : Shape := ⟨4, ![1, 2, 20000, 256]⟩

abbrev nBuf : Space → Nat
  | .hbm => 66
  | .vmem => 0
  | .smem => 0
  | _ => 0

abbrev bufTy : (tb : Table) → Fin (tcTables nBuf tb) → BufTy
  | .hbm, ⟨0, _⟩ => ⟨S1x2x20000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S1, .i32⟩
  | .hbm, ⟨19, _⟩ => ⟨S_, .i32⟩
  | .hbm, ⟨20, _⟩ => ⟨S320000x1, .i32⟩
  | .hbm, ⟨21, _⟩ => ⟨S320000x1, .i1⟩
  | .hbm, ⟨22, _⟩ => ⟨S1x1, .i32⟩
  | .hbm, ⟨23, _⟩ => ⟨S320000x1, .i32⟩
  | .hbm, ⟨24, _⟩ => ⟨S320000x1, .i1⟩
  | .hbm, ⟨25, _⟩ => ⟨S320000x1, .i1⟩
  | .hbm, ⟨26, _⟩ => ⟨S_, .i1⟩
  | .hbm, ⟨27, _⟩ => ⟨S320000, .i1⟩
  | .hbm, ⟨28, _⟩ => ⟨S1x2x320000x128, .f32⟩
  | .hbm, ⟨29, _⟩ => ⟨S1x2x320000x128, .i1⟩
  | .hbm, ⟨30, _⟩ => ⟨S_, .f32⟩
  | .hbm, ⟨31, _⟩ => ⟨S1x2x320000x128, .f32⟩
  | .hbm, ⟨32, _⟩ => ⟨S1x2x320000x128, .f32⟩
  | .hbm, ⟨33, _⟩ => ⟨S1x2x320000x128, .f32⟩
  | .hbm, ⟨34, _⟩ => ⟨S1x1x1x128, .f32⟩
  | .hbm, ⟨35, _⟩ => ⟨S1x2x320000x128, .f32⟩
  | .hbm, ⟨36, _⟩ => ⟨S1x2x320000x128, .f32⟩
  | .hbm, ⟨37, _⟩ => ⟨S_, .f32⟩
  | .hbm, ⟨38, _⟩ => ⟨S1x2x320000x128, .f32⟩
  | .hbm, ⟨39, _⟩ => ⟨S1x2x320000x128, .f32⟩
  | .hbm, ⟨40, _⟩ => ⟨S320000x1x2x128, .f32⟩
  | .hbm, ⟨41, _⟩ => ⟨S_, .f32⟩
  | .hbm, ⟨42, _⟩ => ⟨S20000x1x2x128, .f32⟩
  | .hbm, ⟨43, _⟩ => ⟨S320000x1, .i32⟩
  | .hbm, ⟨44, _⟩ => ⟨S20000x1x2x128, .f32⟩
  | .hbm, ⟨45, _⟩ => ⟨S_, .f32⟩
  | .hbm, ⟨46, _⟩ => ⟨S320000, .f32⟩
  | .hbm, ⟨47, _⟩ => ⟨S_, .f32⟩
  | .hbm, ⟨48, _⟩ => ⟨S20000, .f32⟩
  | .hbm, ⟨49, _⟩ => ⟨S320000x1, .i32⟩
  | .hbm, ⟨50, _⟩ => ⟨S20000, .f32⟩
  | .hbm, ⟨51, _⟩ => ⟨S_, .f32⟩
  | .hbm, ⟨52, _⟩ => ⟨S20000, .f32⟩
  | .hbm, ⟨53, _⟩ => ⟨S20000, .f32⟩
  | .hbm, ⟨54, _⟩ => ⟨S20000x1x1x1, .f32⟩
  | .hbm, ⟨55, _⟩ => ⟨S20000x1x2x128, .f32⟩
  | .hbm, ⟨56, _⟩ => ⟨S20000x1x2x128, .f32⟩
  | .hbm, ⟨57, _⟩ => ⟨S1x2x20000x128, .f32⟩
  | .hbm, ⟨58, _⟩ => ⟨S1x2x20000x256, .f32⟩
  | .hbm, ⟨59, _⟩ => ⟨S1x2x20000x128, .f32⟩
  | .hbm, ⟨60, _⟩ => ⟨S1x1x1x128, .f32⟩
  | .hbm, ⟨61, _⟩ => ⟨S1x2x20000x128, .f32⟩
  | .hbm, ⟨62, _⟩ => ⟨S1x2x20000x128, .f32⟩
  | .hbm, ⟨63, _⟩ => ⟨S_, .f32⟩
  | .hbm, ⟨64, _⟩ => ⟨S1x2x20000x128, .f32⟩
  | .hbm, ⟨65, _⟩ => ⟨S1x2x20000x128, .f32⟩
  | _, _ => ⟨S1x2x20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_0 : Ref sig .tc := ⟨.hbm, 45, rfl⟩
abbrev main_v14 : Ref sig .tc := ⟨.hbm, 46, rfl⟩
abbrev main_cst_1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call2_cst : Ref sig .tc := ⟨.hbm, 63, rfl⟩
abbrev main_call2_v0 : Ref sig .tc := ⟨.hbm, 64, rfl⟩
abbrev main_v29 : Ref sig .tc := ⟨.hbm, 65, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S1x2x320000x128_2 : S320000.BroadcastsInDim S1x2x320000x128 (![2] : Fin 1 → Fin S1x2x320000x128.rank)
  bcast_S_S1x2x320000x128 : S_.BroadcastsInDim S1x2x320000x128 (![] : Fin 0 → Fin S1x2x320000x128.rank)
  bcast_S128_S1x1x1x128_3 : S128.BroadcastsInDim S1x1x1x128 (![3] : Fin 1 → Fin S1x1x1x128.rank)
  bcast_S1x1x1x128_S1x2x320000x128_0_1_2_3 : S1x1x1x128.BroadcastsInDim S1x2x320000x128 (![0, 1, 2, 3] : Fin 4 → Fin S1x2x320000x128.rank)
  transposes_S1x2x320000x128_S320000x1x2x128_2_0_1_3 : S1x2x320000x128.Transposes [2, 0, 1, 3] S320000x1x2x128
  bcast_S_S20000x1x2x128 : S_.BroadcastsInDim S20000x1x2x128 (![] : Fin 0 → Fin S20000x1x2x128.rank)
  bcast_S_S20000 : S_.BroadcastsInDim S20000 (![] : Fin 0 → Fin S20000.rank)
  bcast_S20000_S20000x1x1x1_0 : S20000.BroadcastsInDim S20000x1x1x1 (![0] : Fin 1 → Fin S20000x1x1x1.rank)
  bcast_S20000x1x1x1_S20000x1x2x128_0_1_2_3 : S20000x1x1x1.BroadcastsInDim S20000x1x2x128 (![0, 1, 2, 3] : Fin 4 → Fin S20000x1x2x128.rank)
  transposes_S20000x1x2x128_S1x2x20000x128_1_2_0_3 : S20000x1x2x128.Transposes [1, 2, 0, 3] S1x2x20000x128
  concatenates_S1x2x20000x128_S1x2x20000x128_S1x2x20000x256_d3 : Shape.Concatenates [S1x2x20000x128, S1x2x20000x128] S1x2x20000x256 3
  bcast_S1x1x1x128_S1x2x20000x128_0_1_2_3 : S1x1x1x128.BroadcastsInDim S1x2x20000x128 (![0, 1, 2, 3] : Fin 4 → Fin S1x2x20000x128.rank)
  bcast_S_S1x2x20000x128 : S_.BroadcastsInDim S1x2x20000x128 (![] : Fin 0 → Fin S1x2x20000x128.rank)
  gather_S1x2x20000x128_S320000x1_S1x2x320000x128_013_2_n_n_2_1_121128_wf : GatherDims.WF S1x2x20000x128 S320000x1 S1x2x320000x128 [0, 1, 3] [2] [] [2] [] 1 ![1, 2, 1, 128]
  dot_S1x2x320000x128_S128x128_S1x2x320000x128_3_0_012_1_n_n_wf : DotDims.WF S1x2x320000x128 S128x128 S1x2x320000x128 [3] [0] [0, 1, 2] [1] [] []
  scatter_S20000x1x2x128_S320000x1_S320000x1x2x128_123_0_0_1_wf : ScatterDims.WF S20000x1x2x128 S320000x1 S320000x1x2x128 [1, 2, 3] [0] [0] 1
  scatter_S20000_S320000x1_S320000_n_0_0_1_wf : ScatterDims.WF S20000 S320000x1 S320000 [] [0] [0] 1
  dot_S1x2x20000x256_S256x128_S1x2x20000x128_3_0_012_1_n_n_wf : DotDims.WF S1x2x20000x256 S256x128 S1x2x20000x128 [3] [0] [0, 1, 2] [1] [] []

variable [Facts₀]

def gather_S1x2x20000x128_S320000x1_S1x2x320000x128_013_2_n_n_2_1_121128 : GatherDims S1x2x20000x128 S320000x1 S1x2x320000x128 where
  offsetDims := [0, 1, 3]
  collapsedSliceDims := [2]
  operandBatchingDims := []
  startIndicesBatchingDims := []
  startIndexMap := [2]
  indexVectorDim := 1
  sliceSizes := ![1, 2, 1, 128]
  wf := gather_S1x2x20000x128_S320000x1_S1x2x320000x128_013_2_n_n_2_1_121128_wf
def dot_S1x2x320000x128_S128x128_S1x2x320000x128_3_0_012_1_n_n : DotDims S1x2x320000x128 S128x128 S1x2x320000x128 where
  lhsContracting := [3]
  rhsContracting := [0]
  lhsNonContracting := [0, 1, 2]
  rhsNonContracting := [1]
  lhsBatch := []
  rhsBatch := []
  wf := dot_S1x2x320000x128_S128x128_S1x2x320000x128_3_0_012_1_n_n_wf
def scatter_S20000x1x2x128_S320000x1_S320000x1x2x128_123_0_0_1 : ScatterDims S20000x1x2x128 S320000x1 S320000x1x2x128 where
  updateWindowDims := [1, 2, 3]
  insertedWindowDims := [0]
  scatterDimsToOperandDims := [0]
  indexVectorDim := 1
  wf := scatter_S20000x1x2x128_S320000x1_S320000x1x2x128_123_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S1x2x20000x256_S256x128_S1x2x20000x128_3_0_012_1_n_n : DotDims S1x2x20000x256 S256x128 S1x2x20000x128 where
  lhsContracting := [3]
  rhsContracting := [0]
  lhsNonContracting := [0, 1, 2]
  rhsNonContracting := [1]
  lhsBatch := []
  rhsBatch := []
  wf := dot_S1x2x20000x256_S256x128_S1x2x20000x128_3_0_012_1_n_n_wf

class Facts : Prop extends Facts₀ where

variable [Facts]
-- ==== Proof.LibIndexCol.lean ====
import Idealize.ShloMosaic.Lib.ValueIdx
import Idealize.ShloMosaic.Lib.Pipeline.Value

/-! # Index columns for row gathers and segment sums

Array indexing `x[idx]` with a vector `idx` of row numbers first adds the row count `N` to every negative entry
(Python's negative indices), then hands the vector to the gather as an `[E, 1]` index column; a segment sum hands its
segment ids over as such a column unchanged.  The wrapped column is named here ONCE, as the word operations the
lowering emits (compare with 0, add `N`, select, broadcast to a column), so that two programs that gather with the
same index vector are seen to use the same column without the word arithmetic ever being opened; and the row a gather
then reads — the column's entry read as a signed integer and clamped into `[0, N − 1]` — is named beside it. -/

namespace Cert.IndexCol

open Idealize.ShloMosaic Idealize.ShloMosaic.ValueIdx

/-- A vector as an `[E, 1]` column. -/
def col {E : Nat} (h1 : (⟨1, ![E]⟩ : Shape).BroadcastsInDim ⟨2, ![E, 1]⟩ ![0]) (x : IVec ⟨1, ![E]⟩ 32) :
    IVec ⟨2, ![E, 1]⟩ 32 :=
  broadcastInDim ⟨2, ![E, 1]⟩ ![0] h1 x

/-- A vector of row numbers with `N` added to its negative entries, as an `[E, 1]` column. -/
def wrapCol {E : Nat} (N : BitVec 32) (h0 : (⟨0, ![]⟩ : Shape).BroadcastsInDim ⟨1, ![E]⟩ ![])
    (h1 : (⟨1, ![E]⟩ : Shape).BroadcastsInDim ⟨2, ![E, 1]⟩ ![0]) (x : IVec ⟨1, ![E]⟩ 32) : IVec ⟨2, ![E, 1]⟩ 32 :=
  col h1 (select (cmpi .slt x (broadcastInDim ⟨1, ![E]⟩ ![] h0 (constantI ⟨0, ![]⟩ 32 0#32)))
    (addi x (broadcastInDim ⟨1, ![E]⟩ ![] h0 (constantI ⟨0, ![]⟩ 32 N))) x)

/-- The row of an `N`-row table that a gather reads for entry `e` of an index column: the entry read as a signed
    integer and clamped into `[0, N − 1]`. -/
def row {E : Nat} (N : Nat) (hN : 0 < N) (c : IVec ⟨2, ![E, 1]⟩ 32) (e : Fin E) : Fin N :=
  ⟨min (c (ix2 e ⟨0, Nat.one_pos⟩)).toInt.toNat (N - 1), by omega⟩

end Cert.IndexCol
-- ==== Proof.Terms.lean ====
import proofs.«106592_j27015344292524_1_alg».proof.Proof.Gen.KernelIdeal
import proofs.«106592_j27015344292524_1_alg».proof.Proof.Gen.ReferenceIdeal
import proofs.«106592_j27015344292524_1_alg».proof.Proof.LibIndexCol
import Idealize.ShloMosaic.PureOps.Ideal
import Idealize.ShloMosaic.Lib.ValueIdx

/-! # The host chains of the two programs, stage by stage

A graph-convolution layer over 20000 nodes and 320000 edges, features of width 128, two time slices.  Row 0 of the
edge table holds each edge's target node, row 1 its neighbour.  Both programs gather neighbour rows (`x[nbr]`: negative
entries wrapped by the row count, out-of-range entries filled), sum per target node, divide by the node's degree
clipped below by one, and apply a dense layer with a rectifier to the node's own features joined with that mean.
They differ in WHERE the first dense layer sits: the reference applies it to the gathered rows, the kernel applies it
to every node row once and gathers from the result.

Each stage is named here once, over the extended reals, as the composition of host operations that the program's text
spells, so that the two runs can be stated at these terms and compared stage by stage. -/

noncomputable section

open Idealize.ShloMosaic

namespace Cert.GraphConv

/-! ## The index vectors (the same in both programs) -/

section Shared
open Cert.KernelIdeal Cert.KernelIdeal.Facts₀

/-- Row 0 of the edge table: each edge's target node. -/
def nodeIds (e : IVec S2x320000 32) : IVec S320000 32 :=
  shapeCast S320000 (extractStridedSlice S1x320000 ![0, 0] e slices_S2x320000_S1x320000_0_0) shapeCasts_S1x320000_S320000

/-- Row 1 of the edge table: each edge's neighbour node. -/
def nbrIds (e : IVec S2x320000 32) : IVec S320000 32 :=
  shapeCast S320000 (extractStridedSlice S1x320000 ![1, 0] e slices_S2x320000_S1x320000_1_0) shapeCasts_S1x320000_S320000

/-- The neighbour numbers as a column, 20000 added to the negative ones. -/
def nbrCol (nb : IVec S320000 32) : IVec S320000x1 32 :=
  Cert.IndexCol.wrapCol 20000#32 bcast_S_S320000 bcast_S320000_S320000x1_0 nb

/-- The target nodes as a column. -/
def nodeCol (nd : IVec S320000 32) : IVec S320000x1 32 :=
  Cert.IndexCol.col bcast_S320000_S320000x1_0 nd

/-- Per edge: is the wrapped neighbour number a row of the table, `0 ≤ · ≤ 19999`? -/
def inRange (nb : IVec S320000 32) : IVec S320000 1 :=
  Host.reduce IntOp.andi
    (andi (cmpi .sge (nbrCol nb) (broadcastInDim S320000x1 ![] bcast_S_S320000x1 (constantI S_ 32 0#32)))
      (cmpi .sle (nbrCol nb) (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

end Shared

/-! ## The kernel's host chain between its two dense layers -/

namespace K
open Cert.KernelIdeal Cert.KernelIdeal.Facts₀

/-- `P[:, nbr, :]` of a table `P : [2, 20000, 128]`: the gathered rows where the neighbour number is in range, the
    fill value elsewhere. -/
def take (P : FVec Ideal S2x20000x128 .f32) (nb : IVec S320000 32) : FVec Ideal S2x320000x128 .f32 :=
  select (broadcastInDim S2x320000x128 ![1] bcast_S320000_S2x320000x128_1 (inRange nb))
    (Host.gather gather_S2x20000x128_S320000x1_S2x320000x128_02_1_n_n_1_1_21128 P (nbrCol nb))
    (broadcastInDim S2x320000x128 ![] bcast_S_S2x320000x128 (constant (F := Ideal) S_ .f32 0x7FC00000#32))

/-- The sum of the edges' rows per target node, `[20000, 2, 128]`. -/
def segSum (g : FVec Ideal S2x320000x128 .f32) (nd : IVec S320000 32) : FVec Ideal S20000x2x128 .f32 :=
  Host.scatterAdd (F := Ideal) scatter_S20000x2x128_S320000x1_S320000x2x128_12_0_0_1
    (broadcastInDim S20000x2x128 ![] bcast_S_S20000x2x128 (constant (F := Ideal) S_ .f32 0x00000000#32))
    (nodeCol nd)
    (transpose S320000x2x128 [1, 0, 2] g transposes_S2x320000x128_S320000x2x128_1_0_2)

/-- Each node's number of incoming edges, clipped below by one. -/
def degree (nd : IVec S320000 32) : FVec Ideal S20000 .f32 :=
  maximumf
    (Host.scatterAdd (F := Ideal) scatter_S20000_S320000x1_S320000_n_0_0_1
      (broadcastInDim S20000 ![] bcast_S_S20000 (constant (F := Ideal) S_ .f32 0x00000000#32))
      (nodeCol nd)
      (broadcastInDim S320000 ![] bcast_S_S320000 (constant (F := Ideal) S_ .f32 0x3F800000#32)))
    (broadcastInDim S20000 ![] bcast_S_S20000 (constant (F := Ideal) S_ .f32 0x3F800000#32))

/-- The per-node mean of the edges' rows, laid out as the `[40000, 128]` row table the second dense layer reads. -/
def mean (g : FVec Ideal S2x320000x128 .f32) (nd : IVec S320000 32) : FVec Ideal S40000x128 .f32 :=
  shapeCast S40000x128
    (transpose S2x20000x128 [1, 0, 2]
      (Host.divf (segSum g nd)
        (broadcastInDim S20000x2x128 ![0, 1, 2] bcast_S20000x1x1_S20000x2x128_0_1_2
          (broadcastInDim S20000x1x1 ![0] bcast_S20000_S20000x1x1_0 (degree nd))))
      transposes_S20000x2x128_S2x20000x128_1_0_2)
    shapeCasts_S2x20000x128_S40000x128

end K

/-! ## The reference's chain -/

namespace R
open Cert.ReferenceIdeal Cert.ReferenceIdeal.Facts₀

/-- `x[:, :, nbr, :]` of the features `x : [1, 2, 20000, 128]`. -/
def take (x : FVec Ideal S1x2x20000x128 .f32) (nb : IVec S320000 32) : FVec Ideal S1x2x320000x128 .f32 :=
  select (broadcastInDim S1x2x320000x128 ![2] bcast_S320000_S1x2x320000x128_2 (inRange nb))
    (Host.gather gather_S1x2x20000x128_S320000x1_S1x2x320000x128_013_2_n_n_2_1_121128 x (nbrCol nb))
    (broadcastInDim S1x2x320000x128 ![] bcast_S_S1x2x320000x128 (constant (F := Ideal) S_ .f32 0x7FC00000#32))

/-- The messages: the first dense layer and its rectifier on the gathered rows. -/
def msgs (x : FVec Ideal S1x2x20000x128 .f32) (nb : IVec S320000 32) (Wp : FVec Ideal S128x128 .f32)
    (bp : FVec Ideal S128 .f32) : FVec Ideal S1x2x320000x128 .f32 :=
  maximumf
    (addf (Host.dotGeneral dot_S1x2x320000x128_S128x128_S1x2x320000x128_3_0_012_1_n_n none (take x nb) Wp)
      (broadcastInDim S1x2x320000x128 ![0, 1, 2, 3] bcast_S1x1x1x128_S1x2x320000x128_0_1_2_3
        (broadcastInDim S1x1x1x128 ![3] bcast_S128_S1x1x1x128_3 bp)))
    (broadcastInDim S1x2x320000x128 ![] bcast_S_S1x2x320000x128 (constant (F := Ideal) S_ .f32 0x00000000#32))

/-- The sum of the edges' messages per target node, `[20000, 1, 2, 128]`. -/
def segSum (g : FVec Ideal S1x2x320000x128 .f32) (nd : IVec S320000 32) : FVec Ideal S20000x1x2x128 .f32 :=
  Host.scatterAdd (F := Ideal) scatter_S20000x1x2x128_S320000x1_S320000x1x2x128_123_0_0_1
    (broadcastInDim S20000x1x2x128 ![] bcast_S_S20000x1x2x128 (constant (F := Ideal) S_ .f32 0x00000000#32))
    (nodeCol nd)
    (transpose S320000x1x2x128 [2, 0, 1, 3] g transposes_S1x2x320000x128_S320000x1x2x128_2_0_1_3)

/-- Each node's number of incoming edges, clipped below by one. -/
def degree (nd : IVec S320000 32) : FVec Ideal S20000 .f32 :=
  maximumf
    (Host.scatterAdd (F := Ideal) scatter_S20000_S320000x1_S320000_n_0_0_1
      (broadcastInDim S20000 ![] bcast_S_S20000 (constant (F := Ideal) S_ .f32 0x00000000#32))
      (nodeCol nd)
      (broadcastInDim S320000 ![] bcast_S_S320000 (constant (F := Ideal) S_ .f32 0x3F800000#32)))
    (broadcastInDim S20000 ![] bcast_S_S20000 (constant (F := Ideal) S_ .f32 0x3F800000#32))

/-- The per-node mean of the messages, back in the features' layout `[1, 2, 20000, 128]`. -/
def mean (g : FVec Ideal S1x2x320000x128 .f32) (nd : IVec S320000 32) : FVec Ideal S1x2x20000x128 .f32 :=
  transpose S1x2x20000x128 [1, 2, 0, 3]
    (Host.divf (segSum g nd)
      (broadcastInDim S20000x1x2x128 ![0, 1, 2, 3] bcast_S20000x1x1x1_S20000x1x2x128_0_1_2_3
        (broadcastInDim S20000x1x1x1 ![0] bcast_S20000_S20000x1x1x1_0 (degree nd))))
    transposes_S20000x1x2x128_S1x2x20000x128_1_2_0_3

/-- The reference's result: the second dense layer and its rectifier on the features joined with the mean. -/
def out (x : FVec Ideal S1x2x20000x128 .f32) (e : IVec S2x320000 32) (Wp : FVec Ideal S128x128 .f32)
    (bp : FVec Ideal S128 .f32) (Wu : FVec Ideal S256x128 .f32) (bu : FVec Ideal S128 .f32) :
    FVec Ideal S1x2x20000x128 .f32 :=
  maximumf
    (addf
      (Host.dotGeneral dot_S1x2x20000x256_S256x128_S1x2x20000x128_3_0_012_1_n_n none
        (concatenate S1x2x20000x256 3
          [⟨S1x2x20000x128, x⟩, ⟨S1x2x20000x128, mean (msgs x (nbrIds e) Wp bp) (nodeIds e)⟩]
          concatenates_S1x2x20000x128_S1x2x20000x128_S1x2x20000x256_d3) Wu)
      (broadcastInDim S1x2x20000x128 ![0, 1, 2, 3] bcast_S1x1x1x128_S1x2x20000x128_0_1_2_3
        (broadcastInDim S1x1x1x128 ![3] bcast_S128_S1x1x1x128_3 bu)))
    (broadcastInDim S1x2x20000x128 ![] bcast_S_S1x2x20000x128 (constant (F := Ideal) S_ .f32 0x00000000#32))

end R

end Cert.GraphConv

end
-- ==== Proof.RefOps.lean ====
import proofs.«106592_j27015344292524_1_alg».proof.Proof.Terms
import Idealize.ShloMosaic.Lib.StableHlo.Run

/-! # The reference program's run

The reference is a straight line of host operations once its module-local functions (the row gather with its index
wrap and fill, the two rectifiers) are unfolded at their calls: each call's operations run over that call's own
buffers.  The line is listed here in order, the program is shown to be that line, and its run is read back: every
execution terminates with each buffer at the line's fold over the launch contents. -/

noncomputable section

namespace Cert.ReferenceIdeal.HandRun

open Cert.ReferenceIdeal Cert.ReferenceIdeal.Facts₀
open Idealize.ShloMosaic Idealize.ShloMosaic.TcCoe Idealize.SL.Sem Idealize.ShloMosaic.StableHlo

variable {F : FTy → Type} [FloatOps F]

/-- The program's 60 operations in order, the calls unfolded: four of the entry function (the two rows of the edge
    table), the row gather's twenty-three over its call's buffers (the seventh is the select of the nested index
    wrap), the first dense layer's four, its rectifier's three, the segment mean and the second dense layer's
    twenty-three, the last rectifier's three. -/
abbrev ops : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.TRef.nullary main_call0.c (constantI S_ 32 0#32),
    StableHlo.TRef.unary main_call0.c main_call0.v0 (broadcastInDim S320000 ![] bcast_S_S320000),
    StableHlo.TRef.binary (.of main_v3 : StableHlo.TRef sig ⟨S320000, .i32⟩) main_call0.v0 main_call0.v1 (cmpi .slt),
    StableHlo.TRef.nullary main_call0.c_0 (constantI S_ 32 20000#32),
    StableHlo.TRef.unary main_call0.c_0 main_call0.v2 (broadcastInDim S320000 ![] bcast_S_S320000),
    StableHlo.TRef.binary (.of main_v3 : StableHlo.TRef sig ⟨S320000, .i32⟩) main_call0.v2 main_call0.v3 addi,
    StableHlo.TRef.ternary main_call0.v1 main_call0.v3 (.of main_v3 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 19999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_arg0 : StableHlo.TRef sig ⟨S1x2x20000x128, .f32⟩) main_call0.v5 main_call0.v13 (fun x i => Host.gather gather_S1x2x20000x128_S320000x1_S1x2x320000x128_013_2_n_n_2_1_121128 x i),
    StableHlo.TRef.unary main_call0.v12 main_call0.v14 (broadcastInDim S1x2x320000x128 ![2] bcast_S320000_S1x2x320000x128_2),
    StableHlo.TRef.nullary main_call0.cst (constant S_ .f32 0x7FC00000#32),
    StableHlo.TRef.unary main_call0.cst main_call0.v15 (broadcastInDim S1x2x320000x128 ![] bcast_S_S1x2x320000x128),
    StableHlo.TRef.ternary main_call0.v14 main_call0.v13 main_call0.v15 main_call0.v16 select,
    StableHlo.binary main_v4 main_arg2 main_v5 ((fun l r => Host.dotGeneral dot_S1x2x320000x128_S128x128_S1x2x320000x128_3_0_012_1_n_n none l r) : (⟨S1x2x320000x128, .f32⟩ : BufTy).Contents (Elt F) → (⟨S128x128, .f32⟩ : BufTy).Contents (Elt F) → (⟨S1x2x320000x128, .f32⟩ : BufTy).Contents (Elt F)),
    StableHlo.unary main_arg3 main_v6 (broadcastInDim S1x1x1x128 ![3] bcast_S128_S1x1x1x128_3 : (⟨S128, .f32⟩ : BufTy).Contents (Elt F) → (⟨S1x1x1x128, .f32⟩ : BufTy).Contents (Elt F)),
    StableHlo.unary main_v6 main_v7 (broadcastInDim S1x2x320000x128 ![0, 1, 2, 3] bcast_S1x1x1x128_S1x2x320000x128_0_1_2_3 : (⟨S1x1x1x128, .f32⟩ : BufTy).Contents (Elt F) → (⟨S1x2x320000x128, .f32⟩ : BufTy).Contents (Elt F)),
    StableHlo.binary main_v5 main_v7 main_v8 (addf : (⟨S1x2x320000x128, .f32⟩ : BufTy).Contents (Elt F) → (⟨S1x2x320000x128, .f32⟩ : BufTy).Contents (Elt F) → (⟨S1x2x320000x128, .f32⟩ : BufTy).Contents (Elt F)),
    StableHlo.TRef.nullary main_call1.cst (constant S_ .f32 0x00000000#32),
    StableHlo.TRef.unary main_call1.cst main_call1.v0 (broadcastInDim S1x2x320000x128 ![] bcast_S_S1x2x320000x128),
    StableHlo.TRef.binary (.of main_v8 : StableHlo.TRef sig ⟨S1x2x320000x128, .f32⟩) main_call1.v0 main_call1.v1 maximumf,
    StableHlo.unary main_v9 main_v10 ((transpose S320000x1x2x128 [2, 0, 1, 3] · transposes_S1x2x320000x128_S320000x1x2x128_2_0_1_3) : (⟨S1x2x320000x128, .f32⟩ : BufTy).Contents (Elt F) → (⟨S320000x1x2x128, .f32⟩ : BufTy).Contents (Elt F)),
    StableHlo.nullary main_cst (constant S_ .f32 0x00000000#32),
    StableHlo.unary main_cst main_v11 (broadcastInDim S20000x1x2x128 ![] bcast_S_S20000x1x2x128 : (⟨S_, .f32⟩ : BufTy).Contents (Elt F) → (⟨S20000x1x2x128, .f32⟩ : BufTy).Contents (Elt F)),
    StableHlo.unary main_v1 main_v12 (broadcastInDim S320000x1 ![0] bcast_S320000_S320000x1_0 : (⟨S320000, .i32⟩ : BufTy).Contents (Elt F) → (⟨S320000x1, .i32⟩ : BufTy).Contents (Elt F)),
    StableHlo.ternary main_v11 main_v12 main_v10 main_v13 ((fun x i u => Host.scatterAdd scatter_S20000x1x2x128_S320000x1_S320000x1x2x128_123_0_0_1 x i u) : (⟨S20000x1x2x128, .f32⟩ : BufTy).Contents (Elt F) → (⟨S320000x1, .i32⟩ : BufTy).Contents (Elt F) → (⟨S320000x1x2x128, .f32⟩ : BufTy).Contents (Elt F) → (⟨S20000x1x2x128, .f32⟩ : BufTy).Contents (Elt F)),
    StableHlo.nullary main_cst_0 (constant S_ .f32 0x3F800000#32),
    StableHlo.unary main_cst_0 main_v14 (broadcastInDim S320000 ![] bcast_S_S320000 : (⟨S_, .f32⟩ : BufTy).Contents (Elt F) → (⟨S320000, .f32⟩ : BufTy).Contents (Elt F)),
    StableHlo.nullary main_cst_1 (constant S_ .f32 0x00000000#32),
    StableHlo.unary main_cst_1 main_v15 (broadcastInDim S20000 ![] bcast_S_S20000 : (⟨S_, .f32⟩ : BufTy).Contents (Elt F) → (⟨S20000, .f32⟩ : BufTy).Contents (Elt F)),
    StableHlo.unary main_v1 main_v16 (broadcastInDim S320000x1 ![0] bcast_S320000_S320000x1_0 : (⟨S320000, .i32⟩ : BufTy).Contents (Elt F) → (⟨S320000x1, .i32⟩ : BufTy).Contents (Elt F)),
    StableHlo.ternary main_v15 main_v16 main_v14 main_v17 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_2 (constant S_ .f32 0x3F800000#32),
    StableHlo.unary main_cst_2 main_v18 (broadcastInDim S20000 ![] bcast_S_S20000 : (⟨S_, .f32⟩ : BufTy).Contents (Elt F) → (⟨S20000, .f32⟩ : BufTy).Contents (Elt F)),
    StableHlo.binary main_v17 main_v18 main_v19 (maximumf : (⟨S20000, .f32⟩ : BufTy).Contents (Elt F) → (⟨S20000, .f32⟩ : BufTy).Contents (Elt F) → (⟨S20000, .f32⟩ : BufTy).Contents (Elt F)),
    StableHlo.unary main_v19 main_v20 (broadcastInDim S20000x1x1x1 ![0] bcast_S20000_S20000x1x1x1_0 : (⟨S20000, .f32⟩ : BufTy).Contents (Elt F) → (⟨S20000x1x1x1, .f32⟩ : BufTy).Contents (Elt F)),
    StableHlo.unary main_v20 main_v21 (broadcastInDim S20000x1x2x128 ![0, 1, 2, 3] bcast_S20000x1x1x1_S20000x1x2x128_0_1_2_3 : (⟨S20000x1x1x1, .f32⟩ : BufTy).Contents (Elt F) → (⟨S20000x1x2x128, .f32⟩ : BufTy).Contents (Elt F)),
    StableHlo.binary main_v13 main_v21 main_v22 (Host.divf : (⟨S20000x1x2x128, .f32⟩ : BufTy).Contents (Elt F) → (⟨S20000x1x2x128, .f32⟩ : BufTy).Contents (Elt F) → (⟨S20000x1x2x128, .f32⟩ : BufTy).Contents (Elt F)),
    StableHlo.unary main_v22 main_v23 ((transpose S1x2x20000x128 [1, 2, 0, 3] · transposes_S20000x1x2x128_S1x2x20000x128_1_2_0_3) : (⟨S20000x1x2x128, .f32⟩ : BufTy).Contents (Elt F) → (⟨S1x2x20000x128, .f32⟩ : BufTy).Contents (Elt F)),
    StableHlo.binary main_arg0 main_v23 main_v24 ((fun a b => concatenate S1x2x20000x256 3 [⟨S1x2x20000x128, a⟩, ⟨S1x2x20000x128, b⟩] concatenates_S1x2x20000x128_S1x2x20000x128_S1x2x20000x256_d3) : (⟨S1x2x20000x128, .f32⟩ : BufTy).Contents (Elt F) → (⟨S1x2x20000x128, .f32⟩ : BufTy).Contents (Elt F) → (⟨S1x2x20000x256, .f32⟩ : BufTy).Contents (Elt F)),
    StableHlo.binary main_v24 main_arg4 main_v25 ((fun l r => Host.dotGeneral dot_S1x2x20000x256_S256x128_S1x2x20000x128_3_0_012_1_n_n none l r) : (⟨S1x2x20000x256, .f32⟩ : BufTy).Contents (Elt F) → (⟨S256x128, .f32⟩ : BufTy).Contents (Elt F) → (⟨S1x2x20000x128, .f32⟩ : BufTy).Contents (Elt F)),
    StableHlo.unary main_arg5 main_v26 (broadcastInDim S1x1x1x128 ![3] bcast_S128_S1x1x1x128_3 : (⟨S128, .f32⟩ : BufTy).Contents (Elt F) → (⟨S1x1x1x128, .f32⟩ : BufTy).Contents (Elt F)),
    StableHlo.unary main_v26 main_v27 (broadcastInDim S1x2x20000x128 ![0, 1, 2, 3] bcast_S1x1x1x128_S1x2x20000x128_0_1_2_3 : (⟨S1x1x1x128, .f32⟩ : BufTy).Contents (Elt F) → (⟨S1x2x20000x128, .f32⟩ : BufTy).Contents (Elt F)),
    StableHlo.binary main_v25 main_v27 main_v28 (addf : (⟨S1x2x20000x128, .f32⟩ : BufTy).Contents (Elt F) → (⟨S1x2x20000x128, .f32⟩ : BufTy).Contents (Elt F) → (⟨S1x2x20000x128, .f32⟩ : BufTy).Contents (Elt F)),
    StableHlo.TRef.nullary main_call2.cst (constant S_ .f32 0x00000000#32),
    StableHlo.TRef.unary main_call2.cst main_call2.v0 (broadcastInDim S1x2x20000x128 ![] bcast_S_S1x2x20000x128),
    StableHlo.TRef.binary (.of main_v28 : StableHlo.TRef sig ⟨S1x2x20000x128, .f32⟩) main_call2.v0 main_call2.v1 maximumf ]

set_option maxRecDepth 2048 in
/-- The entry function is that line: the functions' definitions unfolded at their calls, both sides are one chain of
    operation steps once sequencing is reassociated. -/
theorem main_eq (c : Dev nD) : main (F := F) c = seq ops := by
  simp only [main, fn_take.body, fn_where.body, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Every weakly fair execution of the entry function on the TensorCores terminates, and every final state has each
    TensorCore buffer at the line's fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.LibLineRead.lean ====
import Idealize.ShloMosaic.Lib.StableHlo.Run

/-! # Reading a long straight line of host operations one operation at a time

A host program is a line of operations, each writing its own result buffer; the contents the line leaves are the fold
`StableHlo.after ops V` of the operations over the launch contents `V`.  Evaluating that fold at the last buffer
substitutes every operand into every use, and a value used several times (an activation read by three projections and
a residual sum) is copied at each use: the term grows exponentially with the program's depth.

The facts below read the fold ONE operation at a time instead.  When every operation writes exactly its own buffer of a
list `ws` (position by position) and no buffer is written twice, the line's final value at the buffer of operation `k`
is that operation's function applied to the line's FINAL values of its operands — an operand being either an argument
(written by nobody) or the result of an earlier operation (written by nobody later).  So every intermediate value can
be named once (`val y = after ops V y`) and each operation becomes one small equation between names.  Nothing here
depends on what the operations compute.

How to use it on a literal line `ops` with its literal list `ws` of written references (both `abbrev`s):
`WritesAt ops ws` is the chain `.cons (unary_writes ..) <| .cons (reshape_writes ..) <| … <| .nil`, one library lemma
per operation by its shape; then, for the operation at position `k`,
`unary_final hw V k hk (x := …) (y := …) f ⟨by decide, rfl⟩ ⟨by decide, rfl⟩ rfl (by decide) (by decide)` with the
references and the function `f` copied from the line (they cannot be inferred backwards through `rfl`), `hk` from
`ops.length = n := rfl`. -/

namespace Cert.LineRead

open Idealize.ShloMosaic Idealize.ShloMosaic.StableHlo

variable {τ : Topo} {sig : RefSig} {Val : EltTy → Type}

/-- Two lines run one after the other: the second folds over what the first leaves. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position `k` on writes holds what the first `k` operations leave. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops, after_append]
  exact after_of_forall_not_mem _ _ h

/-- The buffer of operation `k`, written by nobody later, holds that operation's result over what the first `k`
    operations leave. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append]
  rfl

/-! ## Which operation writes which buffer -/

/-- Position by position, each operation writes exactly the buffer of the reference listed for it. -/
abbrev WritesAt (ops : List (HloOp τ sig Val)) (ws : List (Ref sig .tc)) : Prop :=
  List.Forall₂ (fun op w => op.writes = {Proc.devRef (τ := τ) .tc w}) ops ws

/-- A reference outside the list is written by no operation. -/
theorem not_written {ops : List (HloOp τ sig Val)} {ws : List (Ref sig .tc)} (hw : WritesAt ops ws)
    (r : Ref sig .tc) (hr : r ∉ ws) : ∀ op ∈ ops, Proc.devRef (τ := τ) .tc r ∉ op.writes := by
  induction hw with
  | nil => intro op h; cases h
  | @cons op w ops' ws' hab _ ih =>
    intro o ho hmem
    rcases List.mem_cons.mp ho with rfl | h'
    · rw [hab, Finset.mem_singleton] at hmem
      exact hr (by rw [Proc.devRef_injective _ hmem]; exact List.mem_cons_self)
    · exact ih (fun h => hr (List.mem_cons_of_mem _ h)) o h' hmem

/-- The same from a position on: a reference outside `ws.drop k` is written by no operation from position `k` on. -/
theorem not_written_from {ops : List (HloOp τ sig Val)} {ws : List (Ref sig .tc)} (hw : WritesAt ops ws) (k : Nat)
    (r : Ref sig .tc) (hr : r ∉ ws.drop k) : ∀ op ∈ ops.drop k, Proc.devRef (τ := τ) .tc r ∉ op.writes :=
  not_written (List.forall₂_drop k hw) r hr

/-- An argument (a reference no operation writes) ends as launched. -/
theorem after_arg {ops : List (HloOp τ sig Val)} {ws : List (Ref sig .tc)} (hw : WritesAt ops ws)
    (V : Valuation τ sig Val) (r : Ref sig .tc) (hr : r ∉ ws) :
    after ops V (Proc.devRef .tc r) = V (Proc.devRef .tc r) :=
  after_of_forall_not_mem ops V (not_written hw r hr)

/-- An operand of operation `k` that nothing from position `k` on writes: the first `k` operations leave it at the
    line's final value. -/
theorem take_eq_final {ops : List (HloOp τ sig Val)} {ws : List (Ref sig .tc)} (hw : WritesAt ops ws)
    (V : Valuation τ sig Val) (k : Nat) (x : Ref sig .tc) (hx : x ∉ ws.drop k) :
    after (ops.take k) V (Proc.devRef .tc x) = after ops V (Proc.devRef .tc x) :=
  (after_eq_take ops V k _ (not_written_from hw k x hx)).symm

/-! ## One operation, read over the line's final values

`hop` names the operation at position `k` (by `rfl` on a literal list); `hy`: its result is written by nobody later;
`hx`, `ha`, …: its operands are written by nobody from position `k` on (each by `decide` on the literal list `ws`). -/

section Builders

variable {ops : List (HloOp τ sig Val)} {ws : List (Ref sig .tc)} (hw : WritesAt ops ws) (V : Valuation τ sig Val)
  (k : Nat) (hk : k < ops.length)

include hw

theorem nullary_final {y : Ref sig .tc} (v : y.ty.Contents Val) (hy')
    (hop : ops[k] = nullary (τ := τ) y v hy') (hy : y ∉ ws.drop (k + 1)) :
    after ops V (Proc.devRef .tc y) = v := by
  rw [after_eq_result ops V k hk _ (not_written_from hw (k + 1) y hy), hop, nullary_result]

theorem unary_final {x y : Ref sig .tc} (f : x.ty.Contents Val → y.ty.Contents Val) (hx' hy')
    (hop : ops[k] = unary (τ := τ) x y f hx' hy') (hy : y ∉ ws.drop (k + 1)) (hx : x ∉ ws.drop k) :
    after ops V (Proc.devRef .tc y) = f (after ops V (Proc.devRef .tc x)) := by
  rw [after_eq_result ops V k hk _ (not_written_from hw (k + 1) y hy), hop, unary_result,
    take_eq_final hw V k x hx]

theorem binary_final {a b y : Ref sig .tc} (f : a.ty.Contents Val → b.ty.Contents Val → y.ty.Contents Val) (ha' hb' hy')
    (hop : ops[k] = binary (τ := τ) a b y f ha' hb' hy') (hy : y ∉ ws.drop (k + 1))
    (ha : a ∉ ws.drop k) (hb : b ∉ ws.drop k) :
    after ops V (Proc.devRef .tc y) = f (after ops V (Proc.devRef .tc a)) (after ops V (Proc.devRef .tc b)) := by
  rw [after_eq_result ops V k hk _ (not_written_from hw (k + 1) y hy), hop, binary_result,
    take_eq_final hw V k a ha, take_eq_final hw V k b hb]

theorem ternary_final {c a b y : Ref sig .tc}
    (f : c.ty.Contents Val → a.ty.Contents Val → b.ty.Contents Val → y.ty.Contents Val) (hc' ha' hb' hy')
    (hop : ops[k] = ternary (τ := τ) c a b y f hc' ha' hb' hy') (hy : y ∉ ws.drop (k + 1))
    (hc : c ∉ ws.drop k) (ha : a ∉ ws.drop k) (hb : b ∉ ws.drop k) :
    after ops V (Proc.devRef .tc y)
      = f (after ops V (Proc.devRef .tc c)) (after ops V (Proc.devRef .tc a)) (after ops V (Proc.devRef .tc b)) := by
  rw [after_eq_result ops V k hk _ (not_written_from hw (k + 1) y hy), hop, ternary_result,
    take_eq_final hw V k c hc, take_eq_final hw V k a ha, take_eq_final hw V k b hb]

theorem reshape_final {x y : Ref sig .tc} (he : x.ty.elt = y.ty.elt) (hn : x.ty.shape.ShapeCasts y.ty.shape) (hx' hy')
    (hop : ops[k] = reshape (τ := τ) (Val := Val) x y he hn hx' hy') (hy : y ∉ ws.drop (k + 1)) (hx : x ∉ ws.drop k) :
    after ops V (Proc.devRef .tc y) = fun i => he ▸ shapeCast y.ty.shape (after ops V (Proc.devRef .tc x)) hn i := by
  rw [after_eq_result ops V k hk _ (not_written_from hw (k + 1) y hy), hop, reshape_result,
    take_eq_final hw V k x hx]

end Builders

end Cert.LineRead
-- ==== Proof.RefRun.lean ====
import proofs.«106592_j27015344292524_1_alg».proof.Proof.RefOps
import proofs.«106592_j27015344292524_1_alg».proof.Proof.LibLineRead

/-! # What the reference program's run leaves in its result

The line of host operations of the reference program is read here: its fold over the launch contents, at the result
buffer, is the composition `Cert.GraphConv.R.out` of the six argument arrays, and each argument buffer is left as
launched.  The line is read in two stretches, cut just before the features are joined with the per-node mean: the first
stretch leaves the mean, the second applies the dense layer and the rectifier to the join. -/

noncomputable section

namespace Cert.ReferenceIdeal.HandRun

open Cert.ReferenceIdeal Cert.ReferenceIdeal.Facts₀
open Idealize.ShloMosaic Idealize.ShloMosaic.TcCoe Idealize.SL.Sem Idealize.ShloMosaic.StableHlo
open Cert.GraphConv

variable {F : FTy → Type} [FloatOps F]

/-- The line up to the per-node mean. -/
abbrev opsA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.TRef.nullary main_call0.c (constantI S_ 32 0#32),
    StableHlo.TRef.unary main_call0.c main_call0.v0 (broadcastInDim S320000 ![] bcast_S_S320000),
    StableHlo.TRef.binary (.of main_v3 : StableHlo.TRef sig ⟨S320000, .i32⟩) main_call0.v0 main_call0.v1 (cmpi .slt),
    StableHlo.TRef.nullary main_call0.c_0 (constantI S_ 32 20000#32),
    StableHlo.TRef.unary main_call0.c_0 main_call0.v2 (broadcastInDim S320000 ![] bcast_S_S320000),
    StableHlo.TRef.binary (.of main_v3 : StableHlo.TRef sig ⟨S320000, .i32⟩) main_call0.v2 main_call0.v3 addi,
    StableHlo.TRef.ternary main_call0.v1 main_call0.v3 (.of main_v3 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 19999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_arg0 : StableHlo.TRef sig ⟨S1x2x20000x128, .f32⟩) main_call0.v5 main_call0.v13 (fun x i => Host.gather gather_S1x2x20000x128_S320000x1_S1x2x320000x128_013_2_n_n_2_1_121128 x i),
    StableHlo.TRef.unary main_call0.v12 main_call0.v14 (broadcastInDim S1x2x320000x128 ![2] bcast_S320000_S1x2x320000x128_2),
    StableHlo.TRef.nullary main_call0.cst (constant S_ .f32 0x7FC00000#32),
    StableHlo.TRef.unary main_call0.cst main_call0.v15 (broadcastInDim S1x2x320000x128 ![] bcast_S_S1x2x320000x128),
    StableHlo.TRef.ternary main_call0.v14 main_call0.v13 main_call0.v15 main_call0.v16 select,
    StableHlo.binary main_v4 main_arg2 main_v5 ((fun l r => Host.dotGeneral dot_S1x2x320000x128_S128x128_S1x2x320000x128_3_0_012_1_n_n none l r) : (⟨S1x2x320000x128, .f32⟩ : BufTy).Contents (Elt F) → (⟨S128x128, .f32⟩ : BufTy).Contents (Elt F) → (⟨S1x2x320000x128, .f32⟩ : BufTy).Contents (Elt F)),
    StableHlo.unary main_arg3 main_v6 (broadcastInDim S1x1x1x128 ![3] bcast_S128_S1x1x1x128_3 : (⟨S128, .f32⟩ : BufTy).Contents (Elt F) → (⟨S1x1x1x128, .f32⟩ : BufTy).Contents (Elt F)),
    StableHlo.unary main_v6 main_v7 (broadcastInDim S1x2x320000x128 ![0, 1, 2, 3] bcast_S1x1x1x128_S1x2x320000x128_0_1_2_3 : (⟨S1x1x1x128, .f32⟩ : BufTy).Contents (Elt F) → (⟨S1x2x320000x128, .f32⟩ : BufTy).Contents (Elt F)),
    StableHlo.binary main_v5 main_v7 main_v8 (addf : (⟨S1x2x320000x128, .f32⟩ : BufTy).Contents (Elt F) → (⟨S1x2x320000x128, .f32⟩ : BufTy).Contents (Elt F) → (⟨S1x2x320000x128, .f32⟩ : BufTy).Contents (Elt F)),
    StableHlo.TRef.nullary main_call1.cst (constant S_ .f32 0x00000000#32),
    StableHlo.TRef.unary main_call1.cst main_call1.v0 (broadcastInDim S1x2x320000x128 ![] bcast_S_S1x2x320000x128),
    StableHlo.TRef.binary (.of main_v8 : StableHlo.TRef sig ⟨S1x2x320000x128, .f32⟩) main_call1.v0 main_call1.v1 maximumf,
    StableHlo.unary main_v9 main_v10 ((transpose S320000x1x2x128 [2, 0, 1, 3] · transposes_S1x2x320000x128_S320000x1x2x128_2_0_1_3) : (⟨S1x2x320000x128, .f32⟩ : BufTy).Contents (Elt F) → (⟨S320000x1x2x128, .f32⟩ : BufTy).Contents (Elt F)),
    StableHlo.nullary main_cst (constant S_ .f32 0x00000000#32),
    StableHlo.unary main_cst main_v11 (broadcastInDim S20000x1x2x128 ![] bcast_S_S20000x1x2x128 : (⟨S_, .f32⟩ : BufTy).Contents (Elt F) → (⟨S20000x1x2x128, .f32⟩ : BufTy).Contents (Elt F)),
    StableHlo.unary main_v1 main_v12 (broadcastInDim S320000x1 ![0] bcast_S320000_S320000x1_0 : (⟨S320000, .i32⟩ : BufTy).Contents (Elt F) → (⟨S320000x1, .i32⟩ : BufTy).Contents (Elt F)),
    StableHlo.ternary main_v11 main_v12 main_v10 main_v13 ((fun x i u => Host.scatterAdd scatter_S20000x1x2x128_S320000x1_S320000x1x2x128_123_0_0_1 x i u) : (⟨S20000x1x2x128, .f32⟩ : BufTy).Contents (Elt F) → (⟨S320000x1, .i32⟩ : BufTy).Contents (Elt F) → (⟨S320000x1x2x128, .f32⟩ : BufTy).Contents (Elt F) → (⟨S20000x1x2x128, .f32⟩ : BufTy).Contents (Elt F)),
    StableHlo.nullary main_cst_0 (constant S_ .f32 0x3F800000#32),
    StableHlo.unary main_cst_0 main_v14 (broadcastInDim S320000 ![] bcast_S_S320000 : (⟨S_, .f32⟩ : BufTy).Contents (Elt F) → (⟨S320000, .f32⟩ : BufTy).Contents (Elt F)),
    StableHlo.nullary main_cst_1 (constant S_ .f32 0x00000000#32),
    StableHlo.unary main_cst_1 main_v15 (broadcastInDim S20000 ![] bcast_S_S20000 : (⟨S_, .f32⟩ : BufTy).Contents (Elt F) → (⟨S20000, .f32⟩ : BufTy).Contents (Elt F)),
    StableHlo.unary main_v1 main_v16 (broadcastInDim S320000x1 ![0] bcast_S320000_S320000x1_0 : (⟨S320000, .i32⟩ : BufTy).Contents (Elt F) → (⟨S320000x1, .i32⟩ : BufTy).Contents (Elt F)),
    StableHlo.ternary main_v15 main_v16 main_v14 main_v17 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_2 (constant S_ .f32 0x3F800000#32),
    StableHlo.unary main_cst_2 main_v18 (broadcastInDim S20000 ![] bcast_S_S20000 : (⟨S_, .f32⟩ : BufTy).Contents (Elt F) → (⟨S20000, .f32⟩ : BufTy).Contents (Elt F)),
    StableHlo.binary main_v17 main_v18 main_v19 (maximumf : (⟨S20000, .f32⟩ : BufTy).Contents (Elt F) → (⟨S20000, .f32⟩ : BufTy).Contents (Elt F) → (⟨S20000, .f32⟩ : BufTy).Contents (Elt F)),
    StableHlo.unary main_v19 main_v20 (broadcastInDim S20000x1x1x1 ![0] bcast_S20000_S20000x1x1x1_0 : (⟨S20000, .f32⟩ : BufTy).Contents (Elt F) → (⟨S20000x1x1x1, .f32⟩ : BufTy).Contents (Elt F)),
    StableHlo.unary main_v20 main_v21 (broadcastInDim S20000x1x2x128 ![0, 1, 2, 3] bcast_S20000x1x1x1_S20000x1x2x128_0_1_2_3 : (⟨S20000x1x1x1, .f32⟩ : BufTy).Contents (Elt F) → (⟨S20000x1x2x128, .f32⟩ : BufTy).Contents (Elt F)),
    StableHlo.binary main_v13 main_v21 main_v22 (Host.divf : (⟨S20000x1x2x128, .f32⟩ : BufTy).Contents (Elt F) → (⟨S20000x1x2x128, .f32⟩ : BufTy).Contents (Elt F) → (⟨S20000x1x2x128, .f32⟩ : BufTy).Contents (Elt F)),
    StableHlo.unary main_v22 main_v23 ((transpose S1x2x20000x128 [1, 2, 0, 3] · transposes_S20000x1x2x128_S1x2x20000x128_1_2_0_3) : (⟨S20000x1x2x128, .f32⟩ : BufTy).Contents (Elt F) → (⟨S1x2x20000x128, .f32⟩ : BufTy).Contents (Elt F)) ]

/-- The rest of the line: the join with the features, the second dense layer and its rectifier. -/
abbrev opsB : List (HloOp τ sig (Elt F)) :=
  [ StableHlo.binary main_arg0 main_v23 main_v24 ((fun a b => concatenate S1x2x20000x256 3 [⟨S1x2x20000x128, a⟩, ⟨S1x2x20000x128, b⟩] concatenates_S1x2x20000x128_S1x2x20000x128_S1x2x20000x256_d3) : (⟨S1x2x20000x128, .f32⟩ : BufTy).Contents (Elt F) → (⟨S1x2x20000x128, .f32⟩ : BufTy).Contents (Elt F) → (⟨S1x2x20000x256, .f32⟩ : BufTy).Contents (Elt F)),
    StableHlo.binary main_v24 main_arg4 main_v25 ((fun l r => Host.dotGeneral dot_S1x2x20000x256_S256x128_S1x2x20000x128_3_0_012_1_n_n none l r) : (⟨S1x2x20000x256, .f32⟩ : BufTy).Contents (Elt F) → (⟨S256x128, .f32⟩ : BufTy).Contents (Elt F) → (⟨S1x2x20000x128, .f32⟩ : BufTy).Contents (Elt F)),
    StableHlo.unary main_arg5 main_v26 (broadcastInDim S1x1x1x128 ![3] bcast_S128_S1x1x1x128_3 : (⟨S128, .f32⟩ : BufTy).Contents (Elt F) → (⟨S1x1x1x128, .f32⟩ : BufTy).Contents (Elt F)),
    StableHlo.unary main_v26 main_v27 (broadcastInDim S1x2x20000x128 ![0, 1, 2, 3] bcast_S1x1x1x128_S1x2x20000x128_0_1_2_3 : (⟨S1x1x1x128, .f32⟩ : BufTy).Contents (Elt F) → (⟨S1x2x20000x128, .f32⟩ : BufTy).Contents (Elt F)),
    StableHlo.binary main_v25 main_v27 main_v28 (addf : (⟨S1x2x20000x128, .f32⟩ : BufTy).Contents (Elt F) → (⟨S1x2x20000x128, .f32⟩ : BufTy).Contents (Elt F) → (⟨S1x2x20000x128, .f32⟩ : BufTy).Contents (Elt F)),
    StableHlo.TRef.nullary main_call2.cst (constant S_ .f32 0x00000000#32),
    StableHlo.TRef.unary main_call2.cst main_call2.v0 (broadcastInDim S1x2x20000x128 ![] bcast_S_S1x2x20000x128),
    StableHlo.TRef.binary (.of main_v28 : StableHlo.TRef sig ⟨S1x2x20000x128, .f32⟩) main_call2.v0 main_call2.v1 maximumf ]

/-- The line is its two stretches, one after the other. -/
theorem ops_split : (ops : List (HloOp τ sig (Elt F))) = opsA ++ opsB := rfl

/-- A value moved to its buffer's type and back is itself. -/
theorem ofBuf_toBuf {T : BufTy} {Val : EltTy → Type} (x : TRef sig T) (v : T.Contents Val) : x.ofBuf (x.toBuf v) = v := by
  obtain ⟨r, h, a, b⟩ := x; subst h; rfl

/-- Joining two arrays of one shape respects equality of the two arrays. -/
theorem concat_pair_congr {α : Type} {s t : Shape} (a : Fin t.rank) {u u' v v' : s.Idx → α}
    (h : Shape.Concatenates [s, s] t a) (hu : u = u') (hv : v = v') :
    concatenate t a [⟨s, u⟩, ⟨s, v⟩] h = concatenate t a [⟨s, u'⟩, ⟨s, v'⟩] h := by
  subst hu hv; rfl

/-! ## The first stretch -/

attribute [local irreducible] Host.gather Host.scatterAdd Host.reduce Ideal.matmul Ideal.hostScatterAdd concatenate in
set_option maxRecDepth 8192 in
set_option maxHeartbeats 400000 in
/-- The first stretch leaves the per-node mean of the messages. -/
theorem mean_eq (V : Valuation τ sig (Elt Ideal)) :
    after (opsA (F := Ideal)) V (main_v23 : DevRef τ sig)
      = R.mean (R.msgs (V (main_arg0 : DevRef τ sig)) (nbrIds (V (main_arg1 : DevRef τ sig))) (V (main_arg2 : DevRef τ sig))
          (V (main_arg3 : DevRef τ sig))) (nodeIds (V (main_arg1 : DevRef τ sig))) := by
  after_results_simp
  simp only [ofBuf_toBuf]
  rfl

theorem arg0_A (V : Valuation τ sig (Elt F)) :
    after (opsA (F := F)) V (main_arg0 : DevRef τ sig) = V (main_arg0 : DevRef τ sig) := by after_results_simp
theorem arg4_A (V : Valuation τ sig (Elt F)) :
    after (opsA (F := F)) V (main_arg4 : DevRef τ sig) = V (main_arg4 : DevRef τ sig) := by after_results_simp
theorem arg5_A (V : Valuation τ sig (Elt F)) :
    after (opsA (F := F)) V (main_arg5 : DevRef τ sig) = V (main_arg5 : DevRef τ sig) := by after_results_simp

/-! ## The whole line -/

attribute [local irreducible] Host.gather Host.scatterAdd Host.reduce Ideal.matmul Ideal.hostScatterAdd concatenate in
set_option maxRecDepth 8192 in
set_option maxHeartbeats 400000 in
/-- The line leaves, in the result buffer, the reference's result of the six arguments. -/
theorem out_eq (V : Valuation τ sig (Elt Ideal)) :
    after (ops (F := Ideal)) V (main_v29 : DevRef τ sig) = R.out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split, Cert.LineRead.after_append]
  have h0 := arg0_A (F := Ideal) V
  have h4 := arg4_A (F := Ideal) V
  have h5 := arg5_A (F := Ideal) V
  have h23 := mean_eq V
  generalize after (opsA (F := Ideal)) V = W at h0 h4 h5 h23
  after_results_simp
  simp only [ofBuf_toBuf]
  have e := concat_pair_congr (s := S1x2x20000x128) (t := S1x2x20000x256) 3
    concatenates_S1x2x20000x128_S1x2x20000x128_S1x2x20000x256_d3 h0 h23
  rw [h4, h5, e]
  rfl

theorem arg0_eq (V : Valuation τ sig (Elt F)) :
    after (ops (F := F)) V (main_arg0 : DevRef τ sig) = V (main_arg0 : DevRef τ sig) := by after_results_simp
theorem arg1_eq (V : Valuation τ sig (Elt F)) :
    after (ops (F := F)) V (main_arg1 : DevRef τ sig) = V (main_arg1 : DevRef τ sig) := by after_results_simp
theorem arg2_eq (V : Valuation τ sig (Elt F)) :
    after (ops (F := F)) V (main_arg2 : DevRef τ sig) = V (main_arg2 : DevRef τ sig) := by after_results_simp
theorem arg3_eq (V : Valuation τ sig (Elt F)) :
    after (ops (F := F)) V (main_arg3 : DevRef τ sig) = V (main_arg3 : DevRef τ sig) := by after_results_simp
theorem arg4_eq (V : Valuation τ sig (Elt F)) :
    after (ops (F := F)) V (main_arg4 : DevRef τ sig) = V (main_arg4 : DevRef τ sig) := by after_results_simp
theorem arg5_eq (V : Valuation τ sig (Elt F)) :
    after (ops (F := F)) V (main_arg5 : DevRef τ sig) = V (main_arg5 : DevRef τ sig) := by after_results_simp

/-! ## The run -/

/-- Every weakly fair execution of the reference program terminates with the result buffer at the reference's result
    of the six argument arrays as launched, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
          = Cert.GraphConv.R.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v29).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_fold m ρ)

end Cert.ReferenceIdeal.HandRun

end
-- ==== Proof.KernelFold.lean ====
import proofs.«106592_j27015344292524_1_alg».proof.Proof.Gen.KernelIdeal.Frame
import proofs.«106592_j27015344292524_1_alg».proof.Proof.Terms
import Idealize.ShloMosaic.Lib.StableHlo.Run

/-! # The kernel program's host operations, stretch by stretch

Between its two pipelined dense layers the kernel program runs five stretches of host operations.  Each lemma here
says what ONE buffer holds after ONE stretch, from arbitrary contents `X` before it, as a named stage of
`Cert.GraphConv` applied to the contents of the buffers the stretch reads — or that the stretch leaves the buffer
alone.  Stated over an arbitrary `X`, none of them ever looks at what the earlier stretches computed. -/

set_option maxRecDepth 16384

noncomputable section

namespace Cert.KernelIdeal.Fold

open Cert.KernelIdeal Cert.KernelIdeal.Gen Cert.GraphConv
open Idealize.ShloMosaic Idealize.ShloMosaic.TcCoe Idealize.ShloMosaic.StableHlo Idealize.SL.Sem

variable (X : Valuation τ sig (Elt Ideal))

/-! ## Before the first dense layer: the features as a table of 40000 rows -/

theorem ops0_v0 : after (hostOps0 (F := Ideal)) X (Proc.devRef .tc main_v0)
    = shapeCast S40000x128 (X (Proc.devRef .tc main_arg0)) shapeCasts_S1x2x20000x128_S40000x128 := by
  after_results_simp; rfl
theorem ops0_arg1 : after (hostOps0 (F := Ideal)) X (Proc.devRef .tc main_arg1) = X (Proc.devRef .tc main_arg1) := by after_results_simp
theorem ops0_arg2 : after (hostOps0 (F := Ideal)) X (Proc.devRef .tc main_arg2) = X (Proc.devRef .tc main_arg2) := by after_results_simp
theorem ops0_arg3 : after (hostOps0 (F := Ideal)) X (Proc.devRef .tc main_arg3) = X (Proc.devRef .tc main_arg3) := by after_results_simp
theorem ops0_arg4 : after (hostOps0 (F := Ideal)) X (Proc.devRef .tc main_arg4) = X (Proc.devRef .tc main_arg4) := by after_results_simp
theorem ops0_arg5 : after (hostOps0 (F := Ideal)) X (Proc.devRef .tc main_arg5) = X (Proc.devRef .tc main_arg5) := by after_results_simp

/-! ## After it: the table per time slice, and the two rows of the edge table -/

theorem ops1_v2 : after (hostOps1 (F := Ideal)) X (Proc.devRef .tc main_v2)
    = shapeCast S2x20000x128 (X (Proc.devRef .tc main_v1)) shapeCasts_S40000x128_S2x20000x128 := by
  after_results_simp; rfl
theorem ops1_v4 : after (hostOps1 (F := Ideal)) X (Proc.devRef .tc main_v4) = nodeIds (X (Proc.devRef .tc main_arg1)) := by
  after_results_simp; rfl
theorem ops1_v6 : after (hostOps1 (F := Ideal)) X (Proc.devRef .tc main_v6) = nbrIds (X (Proc.devRef .tc main_arg1)) := by
  after_results_simp; rfl
theorem ops1_v0 : after (hostOps1 (F := Ideal)) X (Proc.devRef .tc main_v0) = X (Proc.devRef .tc main_v0) := by after_results_simp
theorem ops1_arg4 : after (hostOps1 (F := Ideal)) X (Proc.devRef .tc main_arg4) = X (Proc.devRef .tc main_arg4) := by after_results_simp
theorem ops1_arg5 : after (hostOps1 (F := Ideal)) X (Proc.devRef .tc main_arg5) = X (Proc.devRef .tc main_arg5) := by after_results_simp

/-! ## The gather of neighbour rows -/

/-- The gather's 23 operations, over the buffers themselves.  (The program spells them through references that
    carry their tensor type; at these literal buffers that carrying is the identity.) -/
abbrev takeOps : List (HloOp τ sig (Elt Ideal)) :=
  [ StableHlo.nullary main_call0_c (constantI S_ 32 0#32 : (⟨S_, .i32⟩ : BufTy).Contents (Elt Ideal)),
    StableHlo.unary main_call0_c main_call0_v0 ((broadcastInDim S320000 ![] bcast_S_S320000) : (⟨S_, .i32⟩ : BufTy).Contents (Elt Ideal) → (⟨S320000, .i32⟩ : BufTy).Contents (Elt Ideal)),
    StableHlo.binary main_v6 main_call0_v0 main_call0_v1 ((cmpi .slt) : (⟨S320000, .i32⟩ : BufTy).Contents (Elt Ideal) → (⟨S320000, .i32⟩ : BufTy).Contents (Elt Ideal) → (⟨S320000, .i1⟩ : BufTy).Contents (Elt Ideal)),
    StableHlo.nullary main_call0_c_0 (constantI S_ 32 20000#32 : (⟨S_, .i32⟩ : BufTy).Contents (Elt Ideal)),
    StableHlo.unary main_call0_c_0 main_call0_v2 ((broadcastInDim S320000 ![] bcast_S_S320000) : (⟨S_, .i32⟩ : BufTy).Contents (Elt Ideal) → (⟨S320000, .i32⟩ : BufTy).Contents (Elt Ideal)),
    StableHlo.binary main_v6 main_call0_v2 main_call0_v3 (addi : (⟨S320000, .i32⟩ : BufTy).Contents (Elt Ideal) → (⟨S320000, .i32⟩ : BufTy).Contents (Elt Ideal) → (⟨S320000, .i32⟩ : BufTy).Contents (Elt Ideal)),
    StableHlo.ternary main_call0_v1 main_call0_v3 main_v6 main_call0_v4 (select : (⟨S320000, .i1⟩ : BufTy).Contents (Elt Ideal) → (⟨S320000, .i32⟩ : BufTy).Contents (Elt Ideal) → (⟨S320000, .i32⟩ : BufTy).Contents (Elt Ideal) → (⟨S320000, .i32⟩ : BufTy).Contents (Elt Ideal)),
    StableHlo.unary main_call0_v4 main_call0_v5 ((broadcastInDim S320000x1 ![0] bcast_S320000_S320000x1_0) : (⟨S320000, .i32⟩ : BufTy).Contents (Elt Ideal) → (⟨S320000x1, .i32⟩ : BufTy).Contents (Elt Ideal)),
    StableHlo.nullary main_call0_c_1 (constantI S1 32 19999#32 : (⟨S1, .i32⟩ : BufTy).Contents (Elt Ideal)),
    StableHlo.nullary main_call0_c_2 (constantI S_ 32 0#32 : (⟨S_, .i32⟩ : BufTy).Contents (Elt Ideal)),
    StableHlo.unary main_call0_c_2 main_call0_v6 ((broadcastInDim S320000x1 ![] bcast_S_S320000x1) : (⟨S_, .i32⟩ : BufTy).Contents (Elt Ideal) → (⟨S320000x1, .i32⟩ : BufTy).Contents (Elt Ideal)),
    StableHlo.binary main_call0_v5 main_call0_v6 main_call0_v7 ((cmpi .sge) : (⟨S320000x1, .i32⟩ : BufTy).Contents (Elt Ideal) → (⟨S320000x1, .i32⟩ : BufTy).Contents (Elt Ideal) → (⟨S320000x1, .i1⟩ : BufTy).Contents (Elt Ideal)),
    StableHlo.unary main_call0_c_1 main_call0_v8 ((broadcastInDim S1x1 ![1] bcast_S1_S1x1_1) : (⟨S1, .i32⟩ : BufTy).Contents (Elt Ideal) → (⟨S1x1, .i32⟩ : BufTy).Contents (Elt Ideal)),
    StableHlo.unary main_call0_v8 main_call0_v9 ((broadcastInDim S320000x1 ![0, 1] bcast_S1x1_S320000x1_0_1) : (⟨S1x1, .i32⟩ : BufTy).Contents (Elt Ideal) → (⟨S320000x1, .i32⟩ : BufTy).Contents (Elt Ideal)),
    StableHlo.binary main_call0_v5 main_call0_v9 main_call0_v10 ((cmpi .sle) : (⟨S320000x1, .i32⟩ : BufTy).Contents (Elt Ideal) → (⟨S320000x1, .i32⟩ : BufTy).Contents (Elt Ideal) → (⟨S320000x1, .i1⟩ : BufTy).Contents (Elt Ideal)),
    StableHlo.binary main_call0_v7 main_call0_v10 main_call0_v11 (andi : (⟨S320000x1, .i1⟩ : BufTy).Contents (Elt Ideal) → (⟨S320000x1, .i1⟩ : BufTy).Contents (Elt Ideal) → (⟨S320000x1, .i1⟩ : BufTy).Contents (Elt Ideal)),
    StableHlo.nullary main_call0_c_3 (constantI S_ 1 1#1 : (⟨S_, .i1⟩ : BufTy).Contents (Elt Ideal)),
    StableHlo.binary main_call0_v11 main_call0_c_3 main_call0_v12 ((fun x v => Host.reduce IntOp.andi x v reducesTo_S320000x1_S320000_d1 h_S_) : (⟨S320000x1, .i1⟩ : BufTy).Contents (Elt Ideal) → (⟨S_, .i1⟩ : BufTy).Contents (Elt Ideal) → (⟨S320000, .i1⟩ : BufTy).Contents (Elt Ideal)),
    StableHlo.binary main_v2 main_call0_v5 main_call0_v13 ((fun x i => Host.gather gather_S2x20000x128_S320000x1_S2x320000x128_02_1_n_n_1_1_21128 x i) : (⟨S2x20000x128, .f32⟩ : BufTy).Contents (Elt Ideal) → (⟨S320000x1, .i32⟩ : BufTy).Contents (Elt Ideal) → (⟨S2x320000x128, .f32⟩ : BufTy).Contents (Elt Ideal)),
    StableHlo.unary main_call0_v12 main_call0_v14 ((broadcastInDim S2x320000x128 ![1] bcast_S320000_S2x320000x128_1) : (⟨S320000, .i1⟩ : BufTy).Contents (Elt Ideal) → (⟨S2x320000x128, .i1⟩ : BufTy).Contents (Elt Ideal)),
    StableHlo.nullary main_call0_cst (constant (F := Ideal) S_ .f32 0x7FC00000#32 : (⟨S_, .f32⟩ : BufTy).Contents (Elt Ideal)),
    StableHlo.unary main_call0_cst main_call0_v15 ((broadcastInDim S2x320000x128 ![] bcast_S_S2x320000x128) : (⟨S_, .f32⟩ : BufTy).Contents (Elt Ideal) → (⟨S2x320000x128, .f32⟩ : BufTy).Contents (Elt Ideal)),
    StableHlo.ternary main_call0_v14 main_call0_v13 main_call0_v15 main_v7 (select : (⟨S2x320000x128, .i1⟩ : BufTy).Contents (Elt Ideal) → (⟨S2x320000x128, .f32⟩ : BufTy).Contents (Elt Ideal) → (⟨S2x320000x128, .f32⟩ : BufTy).Contents (Elt Ideal) → (⟨S2x320000x128, .f32⟩ : BufTy).Contents (Elt Ideal)) ]

attribute [local irreducible] Host.reduce Host.gather in
theorem hostOps1_1_eq : hostOps1_1 (F := Ideal) = takeOps := by
  iterate 23 (refine congrArg₂ List.cons rfl ?_)
  rfl

theorem ops11_v7 : after (hostOps1_1 (F := Ideal)) X (Proc.devRef .tc main_v7)
    = K.take (X (Proc.devRef .tc main_v2)) (X (Proc.devRef .tc main_v6)) := by
  rw [hostOps1_1_eq]
  after_results_simp
  rfl
theorem ops11_v4 : after (hostOps1_1 (F := Ideal)) X (Proc.devRef .tc main_v4) = X (Proc.devRef .tc main_v4) := by
  rw [hostOps1_1_eq]; after_results_simp
theorem ops11_v0 : after (hostOps1_1 (F := Ideal)) X (Proc.devRef .tc main_v0) = X (Proc.devRef .tc main_v0) := by
  rw [hostOps1_1_eq]; after_results_simp
theorem ops11_arg4 : after (hostOps1_1 (F := Ideal)) X (Proc.devRef .tc main_arg4) = X (Proc.devRef .tc main_arg4) := by
  rw [hostOps1_1_eq]; after_results_simp
theorem ops11_arg5 : after (hostOps1_1 (F := Ideal)) X (Proc.devRef .tc main_arg5) = X (Proc.devRef .tc main_arg5) := by
  rw [hostOps1_1_eq]; after_results_simp

/-! ## The per-node mean, and the two halves of the second layer's weights -/

theorem ops12_v22 : after (hostOps1_2 (F := Ideal)) X (Proc.devRef .tc main_v22)
    = K.mean (X (Proc.devRef .tc main_v7)) (X (Proc.devRef .tc main_v4)) := by
  after_results_simp; rfl
theorem ops12_v23 : after (hostOps1_2 (F := Ideal)) X (Proc.devRef .tc main_v23)
    = extractStridedSlice S128x128 ![0, 0] (X (Proc.devRef .tc main_arg4)) slices_S256x128_S128x128_0_0 := by
  after_results_simp
theorem ops12_v24 : after (hostOps1_2 (F := Ideal)) X (Proc.devRef .tc main_v24)
    = extractStridedSlice S128x128 ![128, 0] (X (Proc.devRef .tc main_arg4)) slices_S256x128_S128x128_128_0 := by
  after_results_simp
theorem ops12_v0 : after (hostOps1_2 (F := Ideal)) X (Proc.devRef .tc main_v0) = X (Proc.devRef .tc main_v0) := by after_results_simp
theorem ops12_arg5 : after (hostOps1_2 (F := Ideal)) X (Proc.devRef .tc main_arg5) = X (Proc.devRef .tc main_arg5) := by after_results_simp

/-! ## After the second dense layer: back to the features' layout -/

theorem ops2_v26 : after (hostOps2 (F := Ideal)) X (Proc.devRef .tc main_v26)
    = shapeCast S1x2x20000x128 (X (Proc.devRef .tc main_v25)) shapeCasts_S40000x128_S1x2x20000x128 := by
  after_results_simp; rfl

end Cert.KernelIdeal.Fold

end
-- ==== Proof.KernelEntry.lean ====
import proofs.«106592_j27015344292524_1_alg».proof.Proof.KernelFold

/-! # What the two dense layers find in their arrays

The first pipelined layer is entered after one reshape of the features; the second after the gather and the
per-node mean.  Reading the boundary contents `Gen.W1 … Gen.W5` back stretch by stretch (and through the first
layer's region, which leaves its three input arrays as it found them and its output array at what its write-backs
left) gives each array the second layer stages as a named stage of the arguments and of the first layer's output. -/

set_option maxRecDepth 16384

noncomputable section

namespace Cert.KernelIdeal.Fold

open Cert.KernelIdeal Cert.KernelIdeal.Gen Cert.GraphConv
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first layer's entry -/

theorem V1_v0 : V1 m ρ c main_v0
    = shapeCast S40000x128 (m ((c : Thread nD τ).loc main_arg0)) shapeCasts_S1x2x20000x128_S40000x128 :=
  ops0_v0 (W0 m ρ c)
theorem V1_arg2 : V1 m ρ c main_arg2 = m ((c : Thread nD τ).loc main_arg2) := ops0_arg2 (W0 m ρ c)
theorem V1_arg3 : V1 m ρ c main_arg3 = m ((c : Thread nD τ).loc main_arg3) := ops0_arg3 (W0 m ρ c)

/-- The first layer's output array, as its region leaves it. -/
abbrev firstOut : FVec Ideal S40000x128 .f32 := (dat0 (V1 m ρ) c).arrAt 3 cfg0.N

/-! ## After the first layer -/

theorem W2_v1 : W2 m ρ c (Proc.devRef .tc main_v1) = firstOut m ρ c := W2_arr m ρ c 3
theorem W2_v0 : W2 m ρ c (Proc.devRef .tc main_v0)
    = shapeCast S40000x128 (m ((c : Thread nD τ).loc main_arg0)) shapeCasts_S1x2x20000x128_S40000x128 :=
  ((W2_arr m ρ c 0).trans (((dat0 (V1 m ρ) c).arrAt_in 0 rfl _).trans (A_eq0 (V1 m ρ) c 0))).trans (V1_v0 m ρ c)
theorem W2_arg1 : W2 m ρ c (Proc.devRef .tc main_arg1) = m ((c : Thread nD τ).loc main_arg1) :=
  (W2_of_ne m ρ c main_arg1 (by decide)).trans (ops0_arg1 (W0 m ρ c))
theorem W2_arg4 : W2 m ρ c (Proc.devRef .tc main_arg4) = m ((c : Thread nD τ).loc main_arg4) :=
  (W2_of_ne m ρ c main_arg4 (by decide)).trans (ops0_arg4 (W0 m ρ c))
theorem W2_arg5 : W2 m ρ c (Proc.devRef .tc main_arg5) = m ((c : Thread nD τ).loc main_arg5) :=
  (W2_of_ne m ρ c main_arg5 (by decide)).trans (ops0_arg5 (W0 m ρ c))

/-! ## Through the three stretches between the layers -/

theorem W3_v2 : W3 m ρ c (Proc.devRef .tc main_v2)
    = shapeCast S2x20000x128 (W2 m ρ c (Proc.devRef .tc main_v1)) shapeCasts_S40000x128_S2x20000x128 := ops1_v2 (W2 m ρ c)
theorem W3_v4 : W3 m ρ c (Proc.devRef .tc main_v4) = nodeIds (W2 m ρ c (Proc.devRef .tc main_arg1)) := ops1_v4 (W2 m ρ c)
theorem W3_v6 : W3 m ρ c (Proc.devRef .tc main_v6) = nbrIds (W2 m ρ c (Proc.devRef .tc main_arg1)) := ops1_v6 (W2 m ρ c)
theorem W3_v0 : W3 m ρ c (Proc.devRef .tc main_v0) = W2 m ρ c (Proc.devRef .tc main_v0) := ops1_v0 (W2 m ρ c)
theorem W3_arg4 : W3 m ρ c (Proc.devRef .tc main_arg4) = W2 m ρ c (Proc.devRef .tc main_arg4) := ops1_arg4 (W2 m ρ c)
theorem W3_arg5 : W3 m ρ c (Proc.devRef .tc main_arg5) = W2 m ρ c (Proc.devRef .tc main_arg5) := ops1_arg5 (W2 m ρ c)

theorem W4_v7 : W4 m ρ c (Proc.devRef .tc main_v7)
    = K.take (W3 m ρ c (Proc.devRef .tc main_v2)) (W3 m ρ c (Proc.devRef .tc main_v6)) := ops11_v7 (W3 m ρ c)
theorem W4_v4 : W4 m ρ c (Proc.devRef .tc main_v4) = W3 m ρ c (Proc.devRef .tc main_v4) := ops11_v4 (W3 m ρ c)
theorem W4_v0 : W4 m ρ c (Proc.devRef .tc main_v0) = W3 m ρ c (Proc.devRef .tc main_v0) := ops11_v0 (W3 m ρ c)
theorem W4_arg4 : W4 m ρ c (Proc.devRef .tc main_arg4) = W3 m ρ c (Proc.devRef .tc main_arg4) := ops11_arg4 (W3 m ρ c)
theorem W4_arg5 : W4 m ρ c (Proc.devRef .tc main_arg5) = W3 m ρ c (Proc.devRef .tc main_arg5) := ops11_arg5 (W3 m ρ c)

theorem W5_v22 : W5 m ρ c (Proc.devRef .tc main_v22)
    = K.mean (W4 m ρ c (Proc.devRef .tc main_v7)) (W4 m ρ c (Proc.devRef .tc main_v4)) := ops12_v22 (W4 m ρ c)
theorem W5_v23 : W5 m ρ c (Proc.devRef .tc main_v23)
    = extractStridedSlice S128x128 ![0, 0] (W4 m ρ c (Proc.devRef .tc main_arg4)) slices_S256x128_S128x128_0_0 :=
  ops12_v23 (W4 m ρ c)
theorem W5_v24 : W5 m ρ c (Proc.devRef .tc main_v24)
    = extractStridedSlice S128x128 ![128, 0] (W4 m ρ c (Proc.devRef .tc main_arg4)) slices_S256x128_S128x128_128_0 :=
  ops12_v24 (W4 m ρ c)
theorem W5_v0 : W5 m ρ c (Proc.devRef .tc main_v0) = W4 m ρ c (Proc.devRef .tc main_v0) := ops12_v0 (W4 m ρ c)
theorem W5_arg5 : W5 m ρ c (Proc.devRef .tc main_arg5) = W4 m ρ c (Proc.devRef .tc main_arg5) := ops12_arg5 (W4 m ρ c)

/-! ## At the second layer's entry -/

theorem V5_v0 : V5 m ρ c main_v0
    = shapeCast S40000x128 (m ((c : Thread nD τ).loc main_arg0)) shapeCasts_S1x2x20000x128_S40000x128 := by
  show W5 m ρ c (Proc.devRef .tc main_v0) = _
  rw [W5_v0, W4_v0, W3_v0, W2_v0]

theorem V5_v22 : V5 m ρ c main_v22
    = K.mean (K.take (shapeCast S2x20000x128 (firstOut m ρ c) shapeCasts_S40000x128_S2x20000x128)
        (nbrIds (m ((c : Thread nD τ).loc main_arg1)))) (nodeIds (m ((c : Thread nD τ).loc main_arg1))) := by
  show W5 m ρ c (Proc.devRef .tc main_v22) = _
  rw [W5_v22, W4_v7, W4_v4, W3_v2, W3_v6, W3_v4, W2_v1, W2_arg1]

theorem V5_v23 : V5 m ρ c main_v23
    = extractStridedSlice S128x128 ![0, 0] (m ((c : Thread nD τ).loc main_arg4)) slices_S256x128_S128x128_0_0 := by
  show W5 m ρ c (Proc.devRef .tc main_v23) = _
  rw [W5_v23, W4_arg4, W3_arg4, W2_arg4]

theorem V5_v24 : V5 m ρ c main_v24
    = extractStridedSlice S128x128 ![128, 0] (m ((c : Thread nD τ).loc main_arg4)) slices_S256x128_S128x128_128_0 := by
  show W5 m ρ c (Proc.devRef .tc main_v24) = _
  rw [W5_v24, W4_arg4, W3_arg4, W2_arg4]

theorem V5_arg5 : V5 m ρ c main_arg5 = m ((c : Thread nD τ).loc main_arg5) := by
  show W5 m ρ c (Proc.devRef .tc main_arg5) = _
  rw [W5_arg5, W4_arg5, W3_arg5, W2_arg5]

/-! ## The result buffer -/

theorem W7_v26 : W7 m ρ c (Proc.devRef .tc main_v26)
    = shapeCast S1x2x20000x128 ((dat1 (V5 m ρ) c).arrAt 5 cfg1.N) shapeCasts_S40000x128_S1x2x20000x128 :=
  (ops2_v26 (W6 m ρ c)).trans (congrArg (fun a => shapeCast S1x2x20000x128 a shapeCasts_S40000x128_S1x2x20000x128) (W6_arr m ρ c 5))

end Cert.KernelIdeal.Fold

end
-- ==== Proof.LibDense.lean ====
/-
  Dense layers read at an index, at the ideal values: a matrix product whose dimension numbers contract the left
  operand's columns with the right operand's rows (the kernel's product accumulated into a zero splat, and the
  host's product with no accumulator), and a vector laid along every row of a matrix.
-/
import Idealize.ShloMosaic.Lib.Pipeline.Value
import Idealize.ShloMosaic.Lib.ValueIdx
import Idealize.ShloMosaic.PureOps.Ideal.Laws

open scoped BigOperators

namespace Cert.Dense

open Idealize.ShloMosaic Idealize.ShloMosaic.ValueIdx

variable {m k n : Nat} {φ₁ φ₂ : FTy}

/-- The operand indices of a rows-by-columns contraction at output (a, b) and contraction coordinate c are
    (a, c) on the left … -/
theorem lhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c)
      = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- … and (c, b) on the right. -/
theorem rhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c)
      = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A kernel's matrix product into the zero splat, read at (a, b): the sum over c of A (a, c) · B (c, b). -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- The host's matrix product, read at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- A vector of n entries cast to one row and broadcast down m rows, read at (a, b), is the vector at b. -/
theorem rowBroadcast_apply {α : Type} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (b : Fin n) :
    broadcastTo ⟨2, ![m, n]⟩ (shapeCast ⟨2, ![1, n]⟩ x h1) hb (ix2 a b) = x (ix1 b) := by
  have e1 := broadcastTo_apply (shapeCast ⟨2, ![1, n]⟩ x h1) hb (ix2 a b) (ix2 (0 : Fin 1) b) (by
    intro ax
    match ax with
    | ⟨0, _⟩ => rfl
    | ⟨1, _⟩ =>
      show b.val = if n = 1 then 0 else b.val
      split
      · have := b.isLt; omega
      · rfl)
  have e2 := shapeCast_apply x h1 (ix2 (0 : Fin 1) b) (ix1 b) (by
    rw [Shape.rowMajor_val_two, Shape.rowMajor_val_one]; show b.val = 0 * n + b.val; omega)
  exact e1.trans e2

/-- The host's spelling: the vector broadcast to one row (along axis 1) and that row broadcast down m rows, read at
    (a, b), is the vector at b. -/
theorem hostRowBroadcast_apply {α : Type} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 x) (ix2 a b) = x (ix1 b) := by
  have e1 := broadcastInDim_apply ![0, 1] h2 (broadcastInDim ⟨2, ![1, n]⟩ ![1] h1 x) (ix2 a b) (ix2 (0 : Fin 1) b) (by
    intro ax
    match ax with
    | ⟨0, _⟩ => rfl
    | ⟨1, _⟩ =>
      show b.val = if n = 1 then 0 else b.val
      split
      · have := b.isLt; omega
      · rfl)
  have e2 := broadcastInDim_apply ![1] h1 x (ix2 (0 : Fin 1) b) (ix1 b) (by
    intro ax
    match ax with
    | ⟨0, _⟩ =>
      show b.val = if n = 1 then 0 else b.val
      split
      · have := b.isLt; omega
      · rfl)
  exact e1.trans e2

/-! ## A dense layer and a two-layer perceptron, one output entry from one input row -/

/-- Entry q of x · W + b, for one row x. -/
noncomputable def lin {k n : Nat} (x : Fin k → EReal) (W : FVec Ideal ⟨2, ![k, n]⟩ .f32) (b : FVec Ideal ⟨1, ![n]⟩ .f32)
    (q : Fin n) : EReal :=
  (∑ c : Fin k, x c * W (ix2 c q)) + b (ix1 q)

/-- Entry q of max(x · W₁ + b₁, 0) · W₂ + b₂, for one row x. -/
noncomputable def mlp {k h n : Nat} (x : Fin k → EReal) (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32) (q : Fin n) : EReal :=
  lin (fun j => max (lin x W₁ b₁ j) 0) W₂ b₂ q

/-- A kernel's dense layer on a block of rows, read at (p, q). -/
theorem dense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (p : Fin m) (q : Fin n) :
    addf (matmul (⟨[1], [0], [0], [1], [], [], w⟩ : DotDims ⟨2, ![m, k]⟩ ⟨2, ![k, n]⟩ ⟨2, ![m, n]⟩) prec A W
        (constant (F := Ideal) ⟨2, ![m, n]⟩ .f32 0x00000000#32))
      (broadcastTo ⟨2, ![m, n]⟩ (shapeCast ⟨2, ![1, n]⟩ b h1) hb) (ix2 p q)
      = lin (fun c => A (ix2 p c)) W b q := by
  rw [addf_apply, matmul_zero_apply, rowBroadcast_apply]
  rfl

/-- The host's dense layer on a whole array, read at (p, q). -/
theorem hostDense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    addf (Host.dotGeneral (⟨[1], [0], [0], [1], [], [], w⟩ : DotDims ⟨2, ![m, k]⟩ ⟨2, ![k, n]⟩ ⟨2, ![m, n]⟩) prec A W)
      (broadcastInDim ⟨2, ![m, n]⟩ ![0, 1] h2 (broadcastInDim ⟨2, ![1, n]⟩ ![1] h1 b)) (ix2 p q)
      = lin (fun c => A (ix2 p c)) W b q := by
  rw [addf_apply, dotGeneral_apply, hostRowBroadcast_apply]
  rfl

/-- A kernel's rectifier: the maximum with a splat of the zero word, at an index. -/
theorem relu_apply {s : Shape} (X : FVec Ideal s .f32) (i : s.Idx) :
    maximumf X (broadcast s (Scalar.ofBits (F := Ideal) .f32 0x00000000#32)) i = max (X i) 0 := by
  rw [maximumf_apply, broadcast_apply]
  show max (X i) (Ideal.ofBits .f32 0x00000000#32) = _
  rw [Ideal.ofBits_zero_f32]

/-- The host's rectifier: the maximum with the broadcast of the zero constant, at an index. -/
theorem hostRelu_apply {s : Shape} (X : FVec Ideal s .f32)
    (h : (⟨0, ![]⟩ : Shape).BroadcastsInDim s (![] : Fin 0 → Fin s.rank)) (i : s.Idx) :
    maximumf X (broadcastInDim s ![] h (constant (F := Ideal) ⟨0, ![]⟩ .f32 0x00000000#32)) i = max (X i) 0 := by
  rw [maximumf_apply]
  show max (X i) (Ideal.ofBits .f32 0x00000000#32) = _
  rw [Ideal.ofBits_zero_f32]

/-- A kernel's two-layer perceptron on a block of rows, read at (p, q). -/
theorem mlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).ShapeCasts ⟨2, ![1, h]⟩) (hb₁ : (⟨2, ![1, h]⟩ : Shape).Broadcasts ⟨2, ![m, h]⟩)
    (hs₂ : (⟨1, ![n]⟩ : Shape).ShapeCasts ⟨2, ![1, n]⟩) (hb₂ : (⟨2, ![1, n]⟩ : Shape).Broadcasts ⟨2, ![m, n]⟩)
    (p : Fin m) (q : Fin n) :
    addf (matmul (⟨[1], [0], [0], [1], [], [], w₂⟩ : DotDims ⟨2, ![m, h]⟩ ⟨2, ![h, n]⟩ ⟨2, ![m, n]⟩) prec₂
        (maximumf
          (addf (matmul (⟨[1], [0], [0], [1], [], [], w₁⟩ : DotDims ⟨2, ![m, k]⟩ ⟨2, ![k, h]⟩ ⟨2, ![m, h]⟩) prec₁ A W₁
              (constant (F := Ideal) ⟨2, ![m, h]⟩ .f32 0x00000000#32))
            (broadcastTo ⟨2, ![m, h]⟩ (shapeCast ⟨2, ![1, h]⟩ b₁ hs₁) hb₁))
          (broadcast ⟨2, ![m, h]⟩ (Scalar.ofBits (F := Ideal) .f32 0x00000000#32)))
        W₂ (constant (F := Ideal) ⟨2, ![m, n]⟩ .f32 0x00000000#32))
      (broadcastTo ⟨2, ![m, n]⟩ (shapeCast ⟨2, ![1, n]⟩ b₂ hs₂) hb₂) (ix2 p q)
      = mlp (fun c => A (ix2 p c)) W₁ b₁ W₂ b₂ q := by
  rw [dense_apply]
  unfold mlp
  congr 1
  funext j
  rw [relu_apply, dense_apply]

/-- The host's two-layer perceptron on a whole array, read at (p, q). -/
theorem hostMlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).BroadcastsInDim ⟨2, ![1, h]⟩ ![1])
    (hb₁ : (⟨2, ![1, h]⟩ : Shape).BroadcastsInDim ⟨2, ![m, h]⟩ ![0, 1])
    (hs₂ : (⟨1, ![n]⟩ : Shape).BroadcastsInDim ⟨2, ![1, n]⟩ ![1])
    (hb₂ : (⟨2, ![1, n]⟩ : Shape).BroadcastsInDim ⟨2, ![m, n]⟩ ![0, 1])
    (hz : (⟨0, ![]⟩ : Shape).BroadcastsInDim ⟨2, ![m, h]⟩ (![] : Fin 0 → Fin 2))
    (p : Fin m) (q : Fin n) :
    addf (Host.dotGeneral (⟨[1], [0], [0], [1], [], [], w₂⟩ : DotDims ⟨2, ![m, h]⟩ ⟨2, ![h, n]⟩ ⟨2, ![m, n]⟩) prec₂
        (maximumf
          (addf (Host.dotGeneral (⟨[1], [0], [0], [1], [], [], w₁⟩ : DotDims ⟨2, ![m, k]⟩ ⟨2, ![k, h]⟩ ⟨2, ![m, h]⟩) prec₁ A W₁)
            (broadcastInDim ⟨2, ![m, h]⟩ ![0, 1] hb₁ (broadcastInDim ⟨2, ![1, h]⟩ ![1] hs₁ b₁)))
          (broadcastInDim ⟨2, ![m, h]⟩ ![] hz (constant (F := Ideal) ⟨0, ![]⟩ .f32 0x00000000#32)))
        W₂)
      (broadcastInDim ⟨2, ![m, n]⟩ ![0, 1] hb₂ (broadcastInDim ⟨2, ![1, n]⟩ ![1] hs₂ b₂)) (ix2 p q)
      = mlp (fun c => A (ix2 p c)) W₁ b₁ W₂ b₂ q := by
  rw [hostDense_apply]
  unfold mlp
  congr 1
  funext j
  rw [hostRelu_apply, hostDense_apply]

end Cert.Dense
-- ==== Proof.DensePayload.lean ====
/-
  The two kernel bodies of this program read at an index, at the ideal values. Each body takes a block of 5000 rows
  (the second body two such blocks), 128 x 128 weight matrices and a bias vector of 128 entries, multiplies, adds the
  bias along every row and rectifies: entry (p, q) is max (Σ_k x (p, k) · W (k, q) + b q, 0), with a second
  product added in the second body. The narrowing of the operands before the product is the identity at the ideal
  values, and so is a cast of a vector to its own shape.
-/
import proofs.«106592_j27015344292524_1_alg».proof.Proof.Gen.KernelIdeal.Skeleton
import proofs.«106592_j27015344292524_1_alg».proof.Proof.LibDense
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.SL.Sem
open Idealize.ShloMosaic.ValueIdx
open scoped BigOperators

/-- The two-axis zero offset, however spelt. -/
theorem zeroOff2 : (![0, 0] : Fin 2 → Nat) = fun _ => 0 := funext fun a => by fin_cases a <;> rfl
/-- The one-axis zero offset. -/
theorem zeroOff1 : (![0] : Fin 1 → Nat) = fun _ => 0 := funext fun a => by fin_cases a; rfl

set_option maxHeartbeats 400000 in
/-- The first region's body on a block, read at (p, q): the rectified affine image of row p. -/
theorem pay0_apply (x0 : Vec Ideal S5000x128 .f32) (x1 : Vec Ideal S128x128 .f32) (x2 : Vec Ideal S128 .f32)
    (p : Fin 5000) (q : Fin 128) :
    k0_pay1 (F := Ideal) x0 x1 x2 (ix2 p q)
      = max ((∑ k : Fin 128, x0 (ix2 p k) * x1 (ix2 k q)) + x2 (ix1 q)) 0 := by
  unfold k0_pay1
  rw [Cert.Dense.relu_apply, addf_apply, Cert.Dense.rowBroadcast_apply, shapeCast_self]
  refine congrArg (fun z => max (z + x2 (ix1 q)) 0) ?_
  exact Cert.Dense.matmul_zero_apply dot_S5000x128_S128x128_S5000x128_1_0_0_1_n_n_wf none _ _ p q

set_option maxHeartbeats 400000 in
/-- The second region's body on two blocks, read at (p, q): the two products of row p added, then the bias, rectified. -/
theorem pay1_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = max (((∑ k : Fin 128, x0 (ix2 p k) * x2 (ix2 k q)) + (∑ k : Fin 128, x1 (ix2 p k) * x3 (ix2 k q)))
          + x4 (ix1 q)) 0 := by
  unfold k1_pay1
  rw [Cert.Dense.relu_apply, addf_apply, addf_apply, Cert.Dense.rowBroadcast_apply]
  simp only [shapeCast_self]
  refine congrArg₂ (fun y z => max ((y + z) + x4 (ix1 q)) 0) ?_ ?_
  · exact Cert.Dense.matmul_zero_apply dot_S5000x128_S128x128_S5000x128_1_0_0_1_n_n_wf none _ _ p q
  · exact Cert.Dense.matmul_zero_apply dot_S5000x128_S128x128_S5000x128_1_0_0_1_n_n_wf none _ _ p q

end Cert.KernelIdeal.RegionValue

end
-- ==== Proof.Region0Value.lean ====
/-
  The value of the first kernel region, whatever the buffers hold when it is entered: the region runs its body at 8
  grid points; at point t the body reads rows 5000 t .. 5000 t + 4999 of the input x, the whole weight matrix W and
  the whole bias b, and writes rows 5000 t .. 5000 t + 4999 of the output. The blocks tile the 40000 rows, so the
  output array ends as one function of the three input arrays: entry (r, f) is max (Σ_k x (r, k) · W (k, f) + b f, 0).
-/
import proofs.«106592_j27015344292524_1_alg».proof.Proof.Gen.KernelIdeal.Frame
import proofs.«106592_j27015344292524_1_alg».proof.Proof.DensePayload
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The first region's output as one function of its three input arrays: entry (r, f) is the rectified affine image
    max (Σ_k x (r, k) · W (k, f) + b f, 0) of row r. -/
def G0 (x : S40000x128.Idx → EReal) (W : S128x128.Idx → EReal) (b : S128.Idx → EReal) : S40000x128.Idx → EReal :=
  fun i => max ((∑ k : Fin 128, x (ix2 (i 0 : Fin 40000) k) * W (ix2 k (i 1 : Fin 128))) + b (ix1 (i 1 : Fin 128))) 0

/-- The index maps over the 8 grid points: the row blocks of the input and of the output move together, one block
    per point; every other block index is 0. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) = t.val :=
  (by decide +kernel : ∀ t : Fin grid0.N, _)

/-- Reading the function at (r, f). -/
theorem G0_apply (x : S40000x128.Idx → EReal) (W : S128x128.Idx → EReal) (b : S128.Idx → EReal) (r : Fin 40000) (f : Fin 128) :
    G0 x W b (ix2 r f) = max ((∑ k : Fin 128, x (ix2 r k) * W (ix2 k f)) + b (ix1 f)) 0 := rfl

/-- The body on a block whose row p is row `row` of x, beside the whole of W and b, computes entry (row, q) of the function. -/
theorem pay0_eq_G0 (x : S40000x128.Idx → EReal) (W : S128x128.Idx → EReal) (b : S128.Idx → EReal)
    (x0 : Vec Ideal S5000x128 .f32) (x1 : Vec Ideal S128x128 .f32) (x2 : Vec Ideal S128 .f32)
    (row : Fin 40000) (p : Fin 5000) (q : Fin 128)
    (h0 : ∀ k : Fin 128, x0 (ix2 p k) = x (ix2 row k)) (h1 : ∀ k : Fin 128, x1 (ix2 k q) = W (ix2 k q))
    (h2 : x2 (ix1 q) = b (ix1 q)) :
    k0_pay1 (F := Ideal) x0 x1 x2 (ix2 p q) = G0 x W b (ix2 row q) := by
  rw [pay0_apply, G0_apply, h2]
  refine congrArg (fun z => max (z + b (ix1 q)) 0) ?_
  exact Finset.sum_congr rfl fun k _ => by rw [h0 k, h1 k]

set_option maxHeartbeats 400000 in
/-- What grid point t writes back to the output array is block t of the function of the three input arrays as the
    region finds them: the input's row block sits where the output's does, W and b are read whole. -/
theorem flushed0_eq (c : Dev nD) (t : Fin cfg0.N) :
    (dat0 (F := Ideal) V c).flushed 3 t
      = ((cfg0.win 3).blk t).view.read (Elt Ideal) (G0 (V c main_v0) (V c main_arg2) (V c main_arg3)) := by
  show (cfg0.win 3).cut (grid0.coords t) ((dat0 V c).after 3 t) = _
  rw [after0_3]
  unfold out0_3
  rw [View.canon_unit_zero zeroOff2]
  simp only [View.ld_unit_zero (S := S5000x128) zeroOff2, View.ld_unit_zero (S := S128x128) zeroOff2,
    View.ld_unit_zero (S := S128) zeroOff1]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = G0 (V c main_v0) (V c main_arg2) (V c main_arg3) (((cfg0.win 3).blk t).view.emb (ix2 p q))
  obtain ⟨e0, e1, e2, e3, e4, e5, e6⟩ := idx_facts0 t
  have ht : t.val < 8 := lt_of_lt_of_eq t.isLt N_0
  have hp := p.isLt
  have E3 : ((cfg0.win 3).blk t).view.emb (ix2 p q) = ix2 (⟨t.val * 5000 + p.val, by omega⟩ : Fin 40000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have E0 : ∀ k : Fin 128, ((cfg0.win 0).blk t).view.emb (ix2 p k) = ix2 (⟨t.val * 5000 + p.val, by omega⟩ : Fin 40000) k := by
    intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have E1 : ∀ k : Fin 128, ((cfg0.win 1).blk t).view.emb (ix2 k q) = ix2 k q := by
    intro k; funext a; apply Fin.ext
    match a with
    | ⟨0, _⟩ => show win0_1.index t (0 : Fin 2) * 128 + 1 * k.val = k.val; omega
    | ⟨1, _⟩ => show win0_1.index t (1 : Fin 2) * 128 + 1 * q.val = q.val; omega
  have E2 : ((cfg0.win 2).blk t).view.emb (ix1 q) = ix1 q := by
    funext a; apply Fin.ext
    match a with
    | ⟨0, _⟩ => show win0_2.index t (0 : Fin 1) * 128 + 1 * q.val = q.val; omega
  rw [E3]
  exact pay0_eq_G0 _ _ _ _ _ _ _ p q (fun k => congrArg (V c main_v0) (E0 k)) (fun k => congrArg (V c main_arg2) (E1 k))
    (congrArg (V c main_arg3) E2)

/-- An index of the output array is in point t's block iff each coordinate is in the block's range on its axis. -/
theorem mem_blk0 (t : Fin cfg0.N) (i : S40000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every one of the 8 row blocks is some point's. -/
theorem idx_onto0 : ∀ (q0 : Fin 8), ∃ t : Fin cfg0.N, win0_3.index t = ![q0.val, 0] :=
  (by decide +kernel : ∀ (q0 : Fin 8), ∃ t : Fin grid0.N, win0_3.index t = ![q0.val, 0])

/-- The 8 blocks of 5000 rows tile the 40000 rows: row r is in block r / 5000. -/
theorem cover0 (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the first region's run, whatever the buffers held at entry (V): the function of the three
    input arrays as the region finds them. -/
theorem region0_array (c : Dev nD) :
    (dat0 (F := Ideal) V c).arrAt 3 cfg0.N = G0 (V c main_v0) (V c main_arg2) (V c main_arg3) :=
  (dat0 V c).arrAt_eq_of_cover 3 _ (fun t _ => flushed0_eq V c t) (fun i => cover0 i)

/-- The same, read at (r, f) (`G0_apply` opens the right-hand side). -/
theorem region0_value (c : Dev nD) (r : Fin 40000) (f : Fin 128) :
    (dat0 (F := Ideal) V c).arrAt 3 cfg0.N (ix2 r f) = G0 (V c main_v0) (V c main_arg2) (V c main_arg3) (ix2 r f) :=
  congrFun (region0_array V c) (ix2 r f)

end Cert.KernelIdeal.RegionValue

end
-- ==== Proof.Region1Value.lean ====
/-
  The value of the second kernel region, whatever the buffers hold when it is entered: the region runs its body at 8
  grid points; at point t the body reads rows 5000 t .. 5000 t + 4999 of the two inputs x and a, the whole weight
  matrices W₁ and W₂ and the whole bias b, and writes rows 5000 t .. 5000 t + 4999 of the output. The blocks tile the
  40000 rows, so the output array ends as one function of the five input arrays: entry (r, f) is
  max (Σ_k x (r, k) · W₁ (k, f) + Σ_k a (r, k) · W₂ (k, f) + b f, 0).
-/
import proofs.«106592_j27015344292524_1_alg».proof.Proof.Gen.KernelIdeal.Frame
import proofs.«106592_j27015344292524_1_alg».proof.Proof.DensePayload
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The second region's output as one function of its five input arrays: entry (r, f) is
    max (Σ_k x (r, k) · W₁ (k, f) + Σ_k a (r, k) · W₂ (k, f) + b f, 0). -/
def G1 (x a : S40000x128.Idx → EReal) (W₁ W₂ : S128x128.Idx → EReal) (b : S128.Idx → EReal) : S40000x128.Idx → EReal :=
  fun i => max (((∑ k : Fin 128, x (ix2 (i 0 : Fin 40000) k) * W₁ (ix2 k (i 1 : Fin 128)))
      + (∑ k : Fin 128, a (ix2 (i 0 : Fin 40000) k) * W₂ (ix2 k (i 1 : Fin 128)))) + b (ix1 (i 1 : Fin 128))) 0

/-- Reading the function at (r, f). -/
theorem G1_apply (x a : S40000x128.Idx → EReal) (W₁ W₂ : S128x128.Idx → EReal) (b : S128.Idx → EReal)
    (r : Fin 40000) (f : Fin 128) :
    G1 x a W₁ W₂ b (ix2 r f)
      = max (((∑ k : Fin 128, x (ix2 r k) * W₁ (ix2 k f)) + (∑ k : Fin 128, a (ix2 r k) * W₂ (ix2 k f))) + b (ix1 f)) 0 := rfl

/-- The body on two blocks whose rows p are rows `row` of x and of a, beside the whole of W₁, W₂ and b, computes entry
    (row, q) of the function. -/
theorem pay1_eq_G1 (x a : S40000x128.Idx → EReal) (W₁ W₂ : S128x128.Idx → EReal) (b : S128.Idx → EReal)
    (x0 x1 : Vec Ideal S5000x128 .f32) (x2 x3 : Vec Ideal S128x128 .f32) (x4 : Vec Ideal S128 .f32)
    (row : Fin 40000) (p : Fin 5000) (q : Fin 128)
    (h0 : ∀ k : Fin 128, x0 (ix2 p k) = x (ix2 row k)) (h1 : ∀ k : Fin 128, x1 (ix2 p k) = a (ix2 row k))
    (h2 : ∀ k : Fin 128, x2 (ix2 k q) = W₁ (ix2 k q)) (h3 : ∀ k : Fin 128, x3 (ix2 k q) = W₂ (ix2 k q))
    (h4 : x4 (ix1 q) = b (ix1 q)) :
    k1_pay1 (F := Ideal) x0 x1 x2 x3 x4 (ix2 p q) = G1 x a W₁ W₂ b (ix2 row q) := by
  rw [pay1_apply, G1_apply, h4]
  refine congrArg₂ (fun y z => max ((y + z) + b (ix1 q)) 0) ?_ ?_
  · exact Finset.sum_congr rfl fun k _ => by rw [h0 k, h2 k]
  · exact Finset.sum_congr rfl fun k _ => by rw [h1 k, h3 k]

/-- The index maps over the 8 grid points: the row blocks of the two inputs and of the output move together, one block
    per point; every other block index is 0. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (1 : Fin 2) = 0
    ∧ win1_5.index t (0 : Fin 2) = t.val :=
  (by decide +kernel : ∀ t : Fin grid1.N, _)

set_option maxHeartbeats 400000 in
/-- What grid point t writes back to the output array is block t of the function of the five input arrays as the
    region finds them: the two inputs' row blocks sit where the output's does, W₁, W₂ and b are read whole. -/
theorem flushed1_eq (c : Dev nD) (t : Fin cfg1.N) :
    (dat1 (F := Ideal) V c).flushed 5 t
      = ((cfg1.win 5).blk t).view.read (Elt Ideal)
          (G1 (V c main_v0) (V c main_v22) (V c main_v23) (V c main_v24) (V c main_arg5)) := by
  show (cfg1.win 5).cut (grid1.coords t) ((dat1 V c).after 5 t) = _
  rw [after1_5]
  unfold out1_5
  rw [View.canon_unit_zero zeroOff2]
  simp only [View.ld_unit_zero (S := S5000x128) zeroOff2, View.ld_unit_zero (S := S128x128) zeroOff2,
    View.ld_unit_zero (S := S128) zeroOff1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = G1 (V c main_v0) (V c main_v22) (V c main_v23) (V c main_v24) (V c main_arg5)
        (((cfg1.win 5).blk t).view.emb (ix2 p q))
  obtain ⟨e0, e1, e2, e3, e4, e5, e6, e7, e8, e9, e10⟩ := idx_facts1 t
  have ht : t.val < 8 := lt_of_lt_of_eq t.isLt N_1
  have hp := p.isLt
  have E5 : ((cfg1.win 5).blk t).view.emb (ix2 p q) = ix2 (⟨t.val * 5000 + p.val, by omega⟩ : Fin 40000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  have E0 : ∀ k : Fin 128, ((cfg1.win 0).blk t).view.emb (ix2 p k) = ix2 (⟨t.val * 5000 + p.val, by omega⟩ : Fin 40000) k := by
    intro k; funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have E1 : ∀ k : Fin 128, ((cfg1.win 1).blk t).view.emb (ix2 p k) = ix2 (⟨t.val * 5000 + p.val, by omega⟩ : Fin 40000) k := by
    intro k; funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  have E2 : ∀ k : Fin 128, ((cfg1.win 2).blk t).view.emb (ix2 k q) = ix2 k q := by
    intro k; funext a; apply Fin.ext
    match a with
    | ⟨0, _⟩ => show win1_2.index t (0 : Fin 2) * 128 + 1 * k.val = k.val; omega
    | ⟨1, _⟩ => show win1_2.index t (1 : Fin 2) * 128 + 1 * q.val = q.val; omega
  have E3 : ∀ k : Fin 128, ((cfg1.win 3).blk t).view.emb (ix2 k q) = ix2 k q := by
    intro k; funext a; apply Fin.ext
    match a with
    | ⟨0, _⟩ => show win1_3.index t (0 : Fin 2) * 128 + 1 * k.val = k.val; omega
    | ⟨1, _⟩ => show win1_3.index t (1 : Fin 2) * 128 + 1 * q.val = q.val; omega
  have E4 : ((cfg1.win 4).blk t).view.emb (ix1 q) = ix1 q := by
    funext a; apply Fin.ext
    match a with
    | ⟨0, _⟩ => show win1_4.index t (0 : Fin 1) * 128 + 1 * q.val = q.val; omega
  rw [E5]
  exact pay1_eq_G1 _ _ _ _ _ _ _ _ _ _ _ p q (fun k => congrArg (V c main_v0) (E0 k)) (fun k => congrArg (V c main_v22) (E1 k))
    (fun k => congrArg (V c main_v23) (E2 k)) (fun k => congrArg (V c main_v24) (E3 k)) (congrArg (V c main_arg5) E4)

/-- An index of the output array is in point t's block iff each coordinate is in the block's range on its axis. -/
theorem mem_blk1 (t : Fin cfg1.N) (i : S40000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v25).slice (win1_5.rect t)).set ↔ _
  rw [View.set_slice_whole, Rect.mem_set_unit]
  exact Iff.rfl

/-- Every one of the 8 row blocks is some point's. -/
theorem idx_onto1 : ∀ (q0 : Fin 8), ∃ t : Fin cfg1.N, win1_5.index t = ![q0.val, 0] :=
  (by decide +kernel : ∀ (q0 : Fin 8), ∃ t : Fin grid1.N, win1_5.index t = ![q0.val, 0])

/-- The 8 blocks of 5000 rows tile the 40000 rows: row r is in block r / 5000. -/
theorem cover1 (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the second region's run, whatever the buffers held at entry (V): the function of the five
    input arrays as the region finds them. -/
theorem region1_array (c : Dev nD) :
    (dat1 (F := Ideal) V c).arrAt 5 cfg1.N
      = G1 (V c main_v0) (V c main_v22) (V c main_v23) (V c main_v24) (V c main_arg5) :=
  (dat1 V c).arrAt_eq_of_cover 5 _ (fun t _ => flushed1_eq V c t) (fun i => cover1 i)

/-- The same, read at (r, f) (`G1_apply` opens the right-hand side). -/
theorem region1_value (c : Dev nD) (r : Fin 40000) (f : Fin 128) :
    (dat1 (F := Ideal) V c).arrAt 5 cfg1.N (ix2 r f)
      = G1 (V c main_v0) (V c main_v22) (V c main_v23) (V c main_v24) (V c main_arg5) (ix2 r f) :=
  congrFun (region1_array V c) (ix2 r f)

end Cert.KernelIdeal.RegionValue

end
-- ==== Proof.LibAxisGather.lean ====
/-
  Row gathers along an inner axis, read at an index.

  What `x[:, idx, :]` of a rank-3 array `x : [A, N, W]` and `x[:, :, idx, :]` of a rank-4 array `x : [A, B, N, W]` at an index
  column `idx : [R, 1]` lower to: `stablehlo.gather` whose only collapsed axis is the operand's axis of extent `N`, the
  start index map that axis alone, index_vector_dim 1, every other operand axis taken whole (slice size its extent, an
  offset axis of the result in the same position) and no batching axes; the result has the operand's shape with `N`
  replaced by `R`. A result element is the operand at the row "`idx[r, 0]` read as a signed integer and clamped into
  `[0, N − 1]`" on the gathered axis and at the result's own coordinates on the other axes: on the gathered axis (in the
  start index map, collapsed) the operand index is the clamped start alone; on every other axis (not in the start index
  map, so its start is 0; an offset axis) it is the result's coordinate on the offset axis in the same position.
-/
import Idealize.ShloMosaic.PureOps.ShapeOps
import Idealize.ShloMosaic.Lib.ValueIdx

namespace Cert.AxisGather

open Idealize.ShloMosaic Idealize.ShloMosaic.ValueIdx

variable {α : Type}

/-! ## Rank 3, gathered axis 1 -/

/-- The dimension numbers of `x[:, idx, :]` for an operand `[A, N, W]`, start indices `[R, 1]` and result `[A, R, W]`;
    their conditions `wf` are decided on a program's literal shapes. -/
abbrev midDims (A N W R : Nat)
    (wf : GatherDims.WF ⟨3, ![A, N, W]⟩ ⟨2, ![R, 1]⟩ ⟨3, ![A, R, W]⟩ [0, 2] [1] [] [1] [] 1 ![A, 1, W]) :
    GatherDims ⟨3, ![A, N, W]⟩ ⟨2, ![R, 1]⟩ ⟨3, ![A, R, W]⟩ where
  offsetDims := [0, 2]
  collapsedSliceDims := [1]
  operandBatchingDims := []
  startIndicesBatchingDims := []
  startIndexMap := [1]
  indexVectorDim := 1
  sliceSizes := ![A, 1, W]
  wf := wf

/-- THE GATHER ALONG AXIS 1 READ AT `(t, r, j)`, for the record `midDims`: the operand at `(t, ·, j)` and row `idx[r, 0]`,
    read signed and clamped into `[0, N − 1]`. -/
theorem midDims_gather_apply {A N W R w : Nat} (hN : 0 < N)
    (wf : GatherDims.WF ⟨3, ![A, N, W]⟩ ⟨2, ![R, 1]⟩ ⟨3, ![A, R, W]⟩ [0, 2] [1] [] [1] [] 1 ![A, 1, W])
    (x : (⟨3, ![A, N, W]⟩ : Shape).Idx → α) (idx : IVec ⟨2, ![R, 1]⟩ w) (t : Fin A) (r : Fin R) (j : Fin W) :
    Host.gather (midDims A N W R wf) x idx (ix3 t r j)
      = x (ix3 t ⟨min (idx (ix2 r ⟨0, Nat.one_pos⟩)).toInt.toNat (N - 1), by omega⟩ j) := by
  unfold Host.gather
  congr 1
  funext a
  refine Fin.ext ?_
  match a with
  | ⟨0, _⟩ =>
    show (midDims A N W R wf).start (ix3 t r j) idx 0 + (midDims A N W R wf).batchCoord (ix3 t r j) 0
      + (midDims A N W R wf).offCoord (ix3 t r j) 0 = t.val
    have hst : (midDims A N W R wf).start (ix3 t r j) idx 0 = 0 := by
      unfold GatherDims.start
      rw [dif_neg (show ¬ (0 : Fin 3) ∈ (midDims A N W R wf).startIndexMap from
        (by decide : (0 : Fin 3) ∉ ([1] : List (Fin 3))))]
    have hk : (0 : Fin 3) ∈ (midDims A N W R wf).sKept :=
      (GatherDims.mem_sKept _ _).mpr ⟨(by decide : (0 : Fin 3) ∉ ([1] : List (Fin 3))), List.not_mem_nil⟩
    rw [hst, GatherDims.batchCoord_eq_zero _ _ _ List.not_mem_nil]
    simp only [Nat.zero_add]
    unfold GatherDims.offCoord
    rw [dif_pos hk]
    rfl
  | ⟨1, _⟩ =>
    show (midDims A N W R wf).start (ix3 t r j) idx 1 + (midDims A N W R wf).batchCoord (ix3 t r j) 1
      + (midDims A N W R wf).offCoord (ix3 t r j) 1 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (1 : Fin 3) ∈ (midDims A N W R wf).startIndexMap from List.mem_singleton.mpr rfl)]
    have hsi : (midDims A N W R wf).siIdx (ix3 t r j) ⟨List.idxOf (1 : Fin 3) (midDims A N W R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨2, _⟩ =>
    show (midDims A N W R wf).start (ix3 t r j) idx 2 + (midDims A N W R wf).batchCoord (ix3 t r j) 2
      + (midDims A N W R wf).offCoord (ix3 t r j) 2 = j.val
    have hst : (midDims A N W R wf).start (ix3 t r j) idx 2 = 0 := by
      unfold GatherDims.start
      rw [dif_neg (show ¬ (2 : Fin 3) ∈ (midDims A N W R wf).startIndexMap from
        (by decide : (2 : Fin 3) ∉ ([1] : List (Fin 3))))]
    have hk : (2 : Fin 3) ∈ (midDims A N W R wf).sKept :=
      (GatherDims.mem_sKept _ _).mpr ⟨(by decide : (2 : Fin 3) ∉ ([1] : List (Fin 3))), List.not_mem_nil⟩
    rw [hst, GatherDims.batchCoord_eq_zero _ _ _ List.not_mem_nil]
    simp only [Nat.zero_add]
    unfold GatherDims.offCoord
    rw [dif_pos hk]
    rfl

/-- THE GATHER ALONG AXIS 1 READ AT `(t, r, j)`, for any record with those dimension numbers. -/
theorem midGather_apply {A N W R w : Nat} (hN : 0 < N)
    (d : GatherDims ⟨3, ![A, N, W]⟩ ⟨2, ![R, 1]⟩ ⟨3, ![A, R, W]⟩)
    (h1 : d.offsetDims = [0, 2]) (h2 : d.collapsedSliceDims = [1]) (h3 : d.operandBatchingDims = [])
    (h4 : d.startIndicesBatchingDims = []) (h5 : d.startIndexMap = [1]) (h6 : d.indexVectorDim = 1)
    (h7 : d.sliceSizes = ![A, 1, W])
    (x : (⟨3, ![A, N, W]⟩ : Shape).Idx → α) (idx : IVec ⟨2, ![R, 1]⟩ w) (t : Fin A) (r : Fin R) (j : Fin W) :
    Host.gather d x idx (ix3 t r j)
      = x (ix3 t ⟨min (idx (ix2 r ⟨0, Nat.one_pos⟩)).toInt.toNat (N - 1), by omega⟩ j) := by
  obtain ⟨od, cd, ob, sb, sm, iv, ss, wf⟩ := d
  simp only at h1 h2 h3 h4 h5 h6 h7
  subst h1 h2 h3 h4 h5 h6 h7
  exact midDims_gather_apply hN wf x idx t r j

/-! ## Rank 4, gathered axis 2 -/

/-- The dimension numbers of `x[:, :, idx, :]` for an operand `[A, B, N, W]`, start indices `[R, 1]` and result
    `[A, B, R, W]`. -/
abbrev mid4Dims (A B N W R : Nat)
    (wf : GatherDims.WF ⟨4, ![A, B, N, W]⟩ ⟨2, ![R, 1]⟩ ⟨4, ![A, B, R, W]⟩ [0, 1, 3] [2] [] [2] [] 1 ![A, B, 1, W]) :
    GatherDims ⟨4, ![A, B, N, W]⟩ ⟨2, ![R, 1]⟩ ⟨4, ![A, B, R, W]⟩ where
  offsetDims := [0, 1, 3]
  collapsedSliceDims := [2]
  operandBatchingDims := []
  startIndicesBatchingDims := []
  startIndexMap := [2]
  indexVectorDim := 1
  sliceSizes := ![A, B, 1, W]
  wf := wf

/-- THE GATHER ALONG AXIS 2 READ AT `(s, t, r, j)`, for the record `mid4Dims`: the operand at `(s, t, ·, j)` and row
    `idx[r, 0]`, read signed and clamped into `[0, N − 1]`. -/
theorem mid4Dims_gather_apply {A B N W R w : Nat} (hN : 0 < N)
    (wf : GatherDims.WF ⟨4, ![A, B, N, W]⟩ ⟨2, ![R, 1]⟩ ⟨4, ![A, B, R, W]⟩ [0, 1, 3] [2] [] [2] [] 1 ![A, B, 1, W])
    (x : (⟨4, ![A, B, N, W]⟩ : Shape).Idx → α) (idx : IVec ⟨2, ![R, 1]⟩ w) (s : Fin A) (t : Fin B) (r : Fin R)
    (j : Fin W) :
    Host.gather (mid4Dims A B N W R wf) x idx (ix4 s t r j)
      = x (ix4 s t ⟨min (idx (ix2 r ⟨0, Nat.one_pos⟩)).toInt.toNat (N - 1), by omega⟩ j) := by
  unfold Host.gather
  congr 1
  funext a
  refine Fin.ext ?_
  match a with
  | ⟨0, _⟩ =>
    show (mid4Dims A B N W R wf).start (ix4 s t r j) idx 0 + (mid4Dims A B N W R wf).batchCoord (ix4 s t r j) 0
      + (mid4Dims A B N W R wf).offCoord (ix4 s t r j) 0 = s.val
    have hst : (mid4Dims A B N W R wf).start (ix4 s t r j) idx 0 = 0 := by
      unfold GatherDims.start
      rw [dif_neg (show ¬ (0 : Fin 4) ∈ (mid4Dims A B N W R wf).startIndexMap from
        (by decide : (0 : Fin 4) ∉ ([2] : List (Fin 4))))]
    have hk : (0 : Fin 4) ∈ (mid4Dims A B N W R wf).sKept :=
      (GatherDims.mem_sKept _ _).mpr ⟨(by decide : (0 : Fin 4) ∉ ([2] : List (Fin 4))), List.not_mem_nil⟩
    rw [hst, GatherDims.batchCoord_eq_zero _ _ _ List.not_mem_nil]
    simp only [Nat.zero_add]
    unfold GatherDims.offCoord
    rw [dif_pos hk]
    rfl
  | ⟨1, _⟩ =>
    show (mid4Dims A B N W R wf).start (ix4 s t r j) idx 1 + (mid4Dims A B N W R wf).batchCoord (ix4 s t r j) 1
      + (mid4Dims A B N W R wf).offCoord (ix4 s t r j) 1 = t.val
    have hst : (mid4Dims A B N W R wf).start (ix4 s t r j) idx 1 = 0 := by
      unfold GatherDims.start
      rw [dif_neg (show ¬ (1 : Fin 4) ∈ (mid4Dims A B N W R wf).startIndexMap from
        (by decide : (1 : Fin 4) ∉ ([2] : List (Fin 4))))]
    have hk : (1 : Fin 4) ∈ (mid4Dims A B N W R wf).sKept :=
      (GatherDims.mem_sKept _ _).mpr ⟨(by decide : (1 : Fin 4) ∉ ([2] : List (Fin 4))), List.not_mem_nil⟩
    rw [hst, GatherDims.batchCoord_eq_zero _ _ _ List.not_mem_nil]
    simp only [Nat.zero_add]
    unfold GatherDims.offCoord
    rw [dif_pos hk]
    rfl
  | ⟨2, _⟩ =>
    show (mid4Dims A B N W R wf).start (ix4 s t r j) idx 2 + (mid4Dims A B N W R wf).batchCoord (ix4 s t r j) 2
      + (mid4Dims A B N W R wf).offCoord (ix4 s t r j) 2 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (2 : Fin 4) ∈ (mid4Dims A B N W R wf).startIndexMap from List.mem_singleton.mpr rfl)]
    have hsi : (mid4Dims A B N W R wf).siIdx (ix4 s t r j) ⟨List.idxOf (2 : Fin 4) (mid4Dims A B N W R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨3, _⟩ =>
    show (mid4Dims A B N W R wf).start (ix4 s t r j) idx 3 + (mid4Dims A B N W R wf).batchCoord (ix4 s t r j) 3
      + (mid4Dims A B N W R wf).offCoord (ix4 s t r j) 3 = j.val
    have hst : (mid4Dims A B N W R wf).start (ix4 s t r j) idx 3 = 0 := by
      unfold GatherDims.start
      rw [dif_neg (show ¬ (3 : Fin 4) ∈ (mid4Dims A B N W R wf).startIndexMap from
        (by decide : (3 : Fin 4) ∉ ([2] : List (Fin 4))))]
    have hk : (3 : Fin 4) ∈ (mid4Dims A B N W R wf).sKept :=
      (GatherDims.mem_sKept _ _).mpr ⟨(by decide : (3 : Fin 4) ∉ ([2] : List (Fin 4))), List.not_mem_nil⟩
    rw [hst, GatherDims.batchCoord_eq_zero _ _ _ List.not_mem_nil]
    simp only [Nat.zero_add]
    unfold GatherDims.offCoord
    rw [dif_pos hk]
    rfl

/-- THE GATHER ALONG AXIS 2 READ AT `(s, t, r, j)`, for any record with those dimension numbers. -/
theorem mid4Gather_apply {A B N W R w : Nat} (hN : 0 < N)
    (d : GatherDims ⟨4, ![A, B, N, W]⟩ ⟨2, ![R, 1]⟩ ⟨4, ![A, B, R, W]⟩)
    (h1 : d.offsetDims = [0, 1, 3]) (h2 : d.collapsedSliceDims = [2]) (h3 : d.operandBatchingDims = [])
    (h4 : d.startIndicesBatchingDims = []) (h5 : d.startIndexMap = [2]) (h6 : d.indexVectorDim = 1)
    (h7 : d.sliceSizes = ![A, B, 1, W])
    (x : (⟨4, ![A, B, N, W]⟩ : Shape).Idx → α) (idx : IVec ⟨2, ![R, 1]⟩ w) (s : Fin A) (t : Fin B) (r : Fin R)
    (j : Fin W) :
    Host.gather d x idx (ix4 s t r j)
      = x (ix4 s t ⟨min (idx (ix2 r ⟨0, Nat.one_pos⟩)).toInt.toNat (N - 1), by omega⟩ j) := by
  obtain ⟨od, cd, ob, sb, sm, iv, ss, wf⟩ := d
  simp only at h1 h2 h3 h4 h5 h6 h7
  subst h1 h2 h3 h4 h5 h6 h7
  exact mid4Dims_gather_apply hN wf x idx s t r j

end Cert.AxisGather
-- ==== Proof.TakeStage.lean ====
import proofs.«106592_j27015344292524_1_alg».proof.Proof.Terms
import proofs.«106592_j27015344292524_1_alg».proof.Proof.LibAxisGather
import Idealize.ShloMosaic.Lib.Pipeline.Value

/-! # The gather stage `x[nbr]` of both programs, read at an index

Both programs gather one table row per edge: the kernel from its projected table `[2, 20000, 128]` along axis 1, the
reference from the features `[1, 2, 20000, 128]` along axis 2, both with the same index column (the neighbour numbers,
20000 added to the negative ones) and both guarded by the same per-edge mask "the wrapped number is a row of the
table", which selects the gathered row where it holds and a fill value where it does not.  Where the mask is all ones
the stage is the plain row read: edge `e` reads row `nbrRow nb e`, the wrapped number read signed and clamped into
`[0, 19999]`. -/

noncomputable section

open Idealize.ShloMosaic Idealize.ShloMosaic.ValueIdx

namespace Cert.GraphConv

open Cert.KernelIdeal in
/-- The table row the gather reads for edge `e`: the wrapped neighbour number read signed and clamped into
    `[0, 19999]`. -/
def nbrRow (nb : IVec S320000 32) (e : Fin 320000) : Fin 20000 :=
  Cert.IndexCol.row 20000 (by decide) (nbrCol nb) e

namespace K
open Cert.KernelIdeal Cert.KernelIdeal.Facts₀

/-- Where every wrapped neighbour number is in range, the kernel's gather stage at `(t, e, f)` is the table at
    `(t, nbrRow nb e, f)`. -/
theorem take_apply (P : FVec Ideal S2x20000x128 .f32) (nb : IVec S320000 32)
    (hin : ∀ e : Fin 320000, inRange nb (ix1 e) = 1#1) (t : Fin 2) (e : Fin 320000) (f : Fin 128) :
    K.take P nb (ix3 t e f) = P (ix3 t (nbrRow nb e) f) := by
  unfold K.take
  rw [select_apply]
  have hm : broadcastInDim S2x320000x128 ![1] bcast_S320000_S2x320000x128_1 (inRange nb) (ix3 t e f)
      = inRange nb (ix1 e) :=
    Idealize.ShloMosaic.broadcastInDim_apply _ _ _ _ (ix1 e) (fun a => by
      obtain rfl : a = 0 := Subsingleton.elim _ _
      rw [if_neg (by decide)]; rfl)
  rw [hm, hin e, select_one]
  exact Cert.AxisGather.midGather_apply (by decide) _ rfl rfl rfl rfl rfl rfl rfl P (nbrCol nb) t e f

end K

namespace R
open Cert.ReferenceIdeal Cert.ReferenceIdeal.Facts₀

/-- Where every wrapped neighbour number is in range, the reference's gather stage at `(0, t, e, d)` is the features at
    `(0, t, nbrRow nb e, d)`. -/
theorem take_apply (x : FVec Ideal S1x2x20000x128 .f32) (nb : IVec S320000 32)
    (hin : ∀ e : Fin 320000, inRange nb (ix1 e) = 1#1) (t : Fin 2) (e : Fin 320000) (d : Fin 128) :
    R.take x nb (ix4 0 t e d) = x (ix4 0 t (nbrRow nb e) d) := by
  unfold R.take
  rw [select_apply]
  have hm : broadcastInDim S1x2x320000x128 ![2] bcast_S320000_S1x2x320000x128_2 (inRange nb) (ix4 0 t e d)
      = inRange nb (ix1 e) :=
    Idealize.ShloMosaic.broadcastInDim_apply _ _ _ _ (ix1 e) (fun a => by
      obtain rfl : a = 0 := Subsingleton.elim _ _
      rw [if_neg (by decide)]; rfl)
  rw [hm, hin e, select_one]
  exact Cert.AxisGather.mid4Gather_apply (by decide) _ rfl rfl rfl rfl rfl rfl rfl x (nbrCol nb) 0 t e d

end R

end Cert.GraphConv

end
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.LibSlabScatter.lean ====
/-
  An accumulating slab scatter read at an index, over the extended reals.

  What a segment sum of the slabs of a rank-3 array `upd : [E, H, W]` (per edge, `H` heads of `W` features) into
  `x : [N, H, W]` at an index column `idx : [E, 1]` lowers to: `stablehlo.scatter` with an `add` body,
  update_window_dims `[1, 2]`, inserted_window_dims `[0]`, scatter_dims_to_operand_dims `[0]` and index_vector_dim 1.
  Update element `(e, h', j')` lands at the slab `idx[e, 0]` read as a signed integer (not clamped) and the position
  `(h', j')` inside it when that slab lies in `[0, N)`, and is dropped otherwise: on operand axis 0 (named by the
  scatter-dims map, an inserted window axis) the result index is the start alone; on operand axes 1 and 2 (not named by
  the map, so their starts are 0; the two window axes, in order) it is the update's second and third coordinate. So
  the updates landing on `(n, h, j)` are exactly the `(e, h, j)` with `idx[e, 0] = n`, and the result there is the
  operand's element plus the sum of those updates.
-/
import Idealize.ShloMosaic.PureOps.Ideal
import Idealize.ShloMosaic.Lib.ValueIdx
import proofs.«106592_j27015344292524_1_alg».proof.Proof.LibIndexSums

open scoped BigOperators

namespace Cert.SlabScatter

open Idealize.ShloMosaic Idealize.ShloMosaic.ValueIdx

/-- The update slabs whose target slab, `idx[e, 0]` read as a signed integer, is `n`. -/
def hits {N E w : Nat} (idx : IVec ⟨2, ![E, 1]⟩ w) (n : Fin N) : Finset (Fin E) :=
  Finset.univ.filter fun e => (idx (ix2 e (0 : Fin 1))).toInt = (n.val : Int)

/-- Membership in `hits`: the target slab of `e`, read signed, is `n`. -/
theorem mem_hits {N E w : Nat} (idx : IVec ⟨2, ![E, 1]⟩ w) (n : Fin N) (e : Fin E) :
    e ∈ hits idx n ↔ (idx (ix2 e (0 : Fin 1))).toInt = (n.val : Int) := by
  simp [hits]

/-- The slab scatter's dimension numbers for an operand `[N, H, W]`, scatter indices `[E, 1]` and updates
    `[E, H, W]`; their conditions `wf` are decided on a program's literal shapes. -/
abbrev slabDims (N H W E : Nat)
    (wf : ScatterDims.WF ⟨3, ![N, H, W]⟩ ⟨2, ![E, 1]⟩ ⟨3, ![E, H, W]⟩ [1, 2] [0] [0] 1) :
    ScatterDims ⟨3, ![N, H, W]⟩ ⟨2, ![E, 1]⟩ ⟨3, ![E, H, W]⟩ where
  updateWindowDims := [1, 2]
  insertedWindowDims := [0]
  scatterDimsToOperandDims := [0]
  indexVectorDim := 1
  wf := wf

/-- Where an update of the slab scatter lands: update `(e, h', j')` lands on `(n, h, j)` exactly when its target slab
    `idx[e, 0]`, read signed, is `n` and its position `(h', j')` is `(h, j)`. -/
theorem slabDims_resultIdx?_eq_some_iff {N H W E w : Nat}
    (wf : ScatterDims.WF ⟨3, ![N, H, W]⟩ ⟨2, ![E, 1]⟩ ⟨3, ![E, H, W]⟩ [1, 2] [0] [0] 1)
    (idx : IVec ⟨2, ![E, 1]⟩ w) (e : Fin E) (h' : Fin H) (j' : Fin W) (n : Fin N) (h : Fin H) (j : Fin W) :
    (slabDims N H W E wf).resultIdx? (ix3 e h' j') idx = some (ix3 n h j)
      ↔ (idx (ix2 e (0 : Fin 1))).toInt = (n.val : Int) ∧ h' = h ∧ j' = j := by
  have hs0 : (slabDims N H W E wf).start (ix3 e h' j') idx 0 = (idx (ix2 e (0 : Fin 1))).toInt := by
    unfold ScatterDims.start
    rw [dif_pos (show (0 : Fin 3) ∈ (slabDims N H W E wf).scatterDimsToOperandDims from List.mem_singleton.mpr rfl)]
    have hsi : (slabDims N H W E wf).siIdx (ix3 e h' j') ⟨List.idxOf (0 : Fin 3) (slabDims N H W E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (slabDims N H W E wf).start (ix3 e h' j') idx 1 = 0 := by
    unfold ScatterDims.start
    rw [dif_neg (show ¬ (1 : Fin 3) ∈ (slabDims N H W E wf).scatterDimsToOperandDims from
      (by decide : (1 : Fin 3) ∉ ([0] : List (Fin 3))))]
  have hs2 : (slabDims N H W E wf).start (ix3 e h' j') idx 2 = 0 := by
    unfold ScatterDims.start
    rw [dif_neg (show ¬ (2 : Fin 3) ∈ (slabDims N H W E wf).scatterDimsToOperandDims from
      (by decide : (2 : Fin 3) ∉ ([0] : List (Fin 3))))]
  have hk : (slabDims N H W E wf).sKept = [1, 2] := rfl
  have hw0 : (slabDims N H W E wf).window (ix3 e h' j') 0 = 0 := by
    unfold ScatterDims.window
    rw [dif_neg (by rw [hk]; exact (by decide : (0 : Fin 3) ∉ ([1, 2] : List (Fin 3))))]
  have hw1 : (slabDims N H W E wf).window (ix3 e h' j') 1 = h'.val := by
    unfold ScatterDims.window
    rw [dif_pos (by rw [hk]; exact (by decide : (1 : Fin 3) ∈ ([1, 2] : List (Fin 3))))]
    rfl
  have hw2 : (slabDims N H W E wf).window (ix3 e h' j') 2 = j'.val := by
    unfold ScatterDims.window
    rw [dif_pos (by rw [hk]; exact (by decide : (2 : Fin 3) ∈ ([1, 2] : List (Fin 3))))]
    rfl
  unfold ScatterDims.resultIdx?
  by_cases hb : ∀ a, 0 ≤ (slabDims N H W E wf).start (ix3 e h' j') idx a + (slabDims N H W E wf).window (ix3 e h' j') a
      ∧ (slabDims N H W E wf).start (ix3 e h' j') idx a + (slabDims N H W E wf).window (ix3 e h' j') a
        < (⟨3, ![N, H, W]⟩ : Shape).size a
  · rw [dif_pos hb, Option.some.injEq]
    have h0 := hb 0
    rw [hs0, hw0] at h0
    constructor
    · intro hf
      have e0 : ((slabDims N H W E wf).start (ix3 e h' j') idx 0 + (slabDims N H W E wf).window (ix3 e h' j') 0).toNat = n.val :=
        congrArg Fin.val (congrFun hf 0)
      have e1 : ((slabDims N H W E wf).start (ix3 e h' j') idx 1 + (slabDims N H W E wf).window (ix3 e h' j') 1).toNat = h.val :=
        congrArg Fin.val (congrFun hf 1)
      have e2 : ((slabDims N H W E wf).start (ix3 e h' j') idx 2 + (slabDims N H W E wf).window (ix3 e h' j') 2).toNat = j.val :=
        congrArg Fin.val (congrFun hf 2)
      rw [hs0, hw0] at e0
      rw [hs1, hw1] at e1
      rw [hs2, hw2] at e2
      refine ⟨by omega, Fin.ext (by omega), Fin.ext (by omega)⟩
    · rintro ⟨ht, rfl, rfl⟩
      funext a; refine Fin.ext ?_
      match a with
      | ⟨0, _⟩ =>
        show ((slabDims N H W E wf).start (ix3 e h' j') idx 0 + (slabDims N H W E wf).window (ix3 e h' j') 0).toNat = n.val
        rw [hs0, hw0]; omega
      | ⟨1, _⟩ =>
        show ((slabDims N H W E wf).start (ix3 e h' j') idx 1 + (slabDims N H W E wf).window (ix3 e h' j') 1).toNat = h'.val
        rw [hs1, hw1]; omega
      | ⟨2, _⟩ =>
        show ((slabDims N H W E wf).start (ix3 e h' j') idx 2 + (slabDims N H W E wf).window (ix3 e h' j') 2).toNat = j'.val
        rw [hs2, hw2]; omega
  · rw [dif_neg hb]
    constructor
    · intro hf; cases hf
    · rintro ⟨ht, rfl, rfl⟩
      refine absurd (fun a => ?_) hb
      match a with
      | ⟨0, _⟩ =>
        show 0 ≤ (slabDims N H W E wf).start (ix3 e h' j') idx 0 + (slabDims N H W E wf).window (ix3 e h' j') 0
          ∧ (slabDims N H W E wf).start (ix3 e h' j') idx 0 + (slabDims N H W E wf).window (ix3 e h' j') 0 < (N : Int)
        rw [hs0, hw0]; have := n.isLt; omega
      | ⟨1, _⟩ =>
        show 0 ≤ (slabDims N H W E wf).start (ix3 e h' j') idx 1 + (slabDims N H W E wf).window (ix3 e h' j') 1
          ∧ (slabDims N H W E wf).start (ix3 e h' j') idx 1 + (slabDims N H W E wf).window (ix3 e h' j') 1 < (H : Int)
        rw [hs1, hw1]; have := h'.isLt; omega
      | ⟨2, _⟩ =>
        show 0 ≤ (slabDims N H W E wf).start (ix3 e h' j') idx 2 + (slabDims N H W E wf).window (ix3 e h' j') 2
          ∧ (slabDims N H W E wf).start (ix3 e h' j') idx 2 + (slabDims N H W E wf).window (ix3 e h' j') 2 < (W : Int)
        rw [hs2, hw2]; have := j'.isLt; omega

/-- THE SLAB SCATTER READ AT `(n, h, j)`, for the record `slabDims`: the operand's element plus the sum of the updates
    `(e, h, j)` over the slabs `e` whose target slab `idx[e, 0]`, read signed, is `n`. -/
theorem slabDims_scatterAdd_apply {N H W E w : Nat} {φ : FTy}
    (wf : ScatterDims.WF ⟨3, ![N, H, W]⟩ ⟨2, ![E, 1]⟩ ⟨3, ![E, H, W]⟩ [1, 2] [0] [0] 1)
    (x : FVec Ideal ⟨3, ![N, H, W]⟩ φ) (idx : IVec ⟨2, ![E, 1]⟩ w) (upd : FVec Ideal ⟨3, ![E, H, W]⟩ φ)
    (n : Fin N) (h : Fin H) (j : Fin W) :
    Host.scatterAdd (F := Ideal) (slabDims N H W E wf) x idx upd (ix3 n h j)
      = x (ix3 n h j) + ∑ e ∈ hits idx n, upd (ix3 e h j) := by
  have hdef : Host.scatterAdd (F := Ideal) (slabDims N H W E wf) x idx upd
      = Ideal.hostScatterAdd (slabDims N H W E wf) x idx upd := rfl
  rw [hdef]
  simp only [Ideal.hostScatterAdd]
  congr 1
  rw [Finset.sum_filter, Cert.IndexSums.sum_idx3]
  unfold hits
  rw [Finset.sum_filter]
  refine Finset.sum_congr rfl fun e _ => ?_
  simp only [slabDims_resultIdx?_eq_some_iff]
  by_cases ht : (idx (ix2 e (0 : Fin 1))).toInt = (n.val : Int)
  · simp only [ht, true_and, if_true]
    rw [Finset.sum_eq_single h]
    · rw [Finset.sum_eq_single j]
      · simp
      · intro b _ hb; simp [hb]
      · intro hh; exact absurd (Finset.mem_univ _) hh
    · intro a _ ha
      refine Finset.sum_eq_zero fun b _ => ?_
      simp [ha]
    · intro hh; exact absurd (Finset.mem_univ _) hh
  · simp only [ht, false_and, if_false]
    simp

/-- THE SLAB SCATTER READ AT `(n, h, j)`, for any record with the slab scatter's dimension numbers: the operand's
    element plus the sum of the updates `(e, h, j)` over the slabs `e` whose target slab `idx[e, 0]`, read signed, is
    `n` (an update whose target slab is outside `[0, N)` is dropped). -/
theorem slabScatterAdd_apply {N H W E w : Nat} {φ : FTy}
    (d : ScatterDims ⟨3, ![N, H, W]⟩ ⟨2, ![E, 1]⟩ ⟨3, ![E, H, W]⟩)
    (h1 : d.updateWindowDims = [1, 2]) (h2 : d.insertedWindowDims = [0]) (h3 : d.scatterDimsToOperandDims = [0])
    (h4 : d.indexVectorDim = 1)
    (x : FVec Ideal ⟨3, ![N, H, W]⟩ φ) (idx : IVec ⟨2, ![E, 1]⟩ w) (upd : FVec Ideal ⟨3, ![E, H, W]⟩ φ)
    (n : Fin N) (h : Fin H) (j : Fin W) :
    Host.scatterAdd (F := Ideal) d x idx upd (ix3 n h j) = x (ix3 n h j) + ∑ e ∈ hits idx n, upd (ix3 e h j) := by
  obtain ⟨uw, iw, sd, iv, wf⟩ := d
  simp only at h1 h2 h3 h4
  subst h1 h2 h3 h4
  exact slabDims_scatterAdd_apply wf x idx upd n h j

end Cert.SlabScatter
-- ==== Proof.LibSlab4Scatter.lean ====
/-
  An accumulating scatter of rank-4 slabs read at an index, over the extended reals.

  What a segment sum of the slabs of a rank-4 array `upd : [E, A, H, W]` into `x : [N, A, H, W]` at an index column
  `idx : [E, 1]` lowers to: `stablehlo.scatter` with an `add` body, update_window_dims `[1, 2, 3]`,
  inserted_window_dims `[0]`, scatter_dims_to_operand_dims `[0]` and index_vector_dim 1. Update element
  `(e, a', h', j')` lands at the slab `idx[e, 0]` read as a signed integer (not clamped) and the position
  `(a', h', j')` inside it when that slab lies in `[0, N)`, and is dropped otherwise: on operand axis 0 (named by the
  scatter-dims map, an inserted window axis) the result index is the start alone; on operand axes 1, 2 and 3 (not named
  by the map, so their starts are 0; the three window axes, in order) it is the update's second, third and fourth
  coordinate. So the updates landing on `(n, a, h, j)` are exactly the `(e, a, h, j)` with `idx[e, 0] = n`, and the
  result there is the operand's element plus the sum of those updates.
-/
import Idealize.ShloMosaic.PureOps.Ideal
import Idealize.ShloMosaic.Lib.ValueIdx
import proofs.«106592_j27015344292524_1_alg».proof.Proof.LibIndexSums
import proofs.«106592_j27015344292524_1_alg».proof.Proof.LibSlabScatter

open scoped BigOperators

namespace Cert.Slab4Scatter

open Idealize.ShloMosaic Idealize.ShloMosaic.ValueIdx
open Cert.SlabScatter (hits mem_hits)

/-- The rank-4 slab scatter's dimension numbers for an operand `[N, A, H, W]`, scatter indices `[E, 1]` and updates
    `[E, A, H, W]`; their conditions `wf` are decided on a program's literal shapes. -/
abbrev slabDims (N A H W E : Nat)
    (wf : ScatterDims.WF ⟨4, ![N, A, H, W]⟩ ⟨2, ![E, 1]⟩ ⟨4, ![E, A, H, W]⟩ [1, 2, 3] [0] [0] 1) :
    ScatterDims ⟨4, ![N, A, H, W]⟩ ⟨2, ![E, 1]⟩ ⟨4, ![E, A, H, W]⟩ where
  updateWindowDims := [1, 2, 3]
  insertedWindowDims := [0]
  scatterDimsToOperandDims := [0]
  indexVectorDim := 1
  wf := wf

/-- Where an update of the rank-4 slab scatter lands: update `(e, a', h', j')` lands on `(n, a, h, j)` exactly when
    its target slab `idx[e, 0]`, read signed, is `n` and its position `(a', h', j')` is `(a, h, j)`. -/
theorem slabDims_resultIdx?_eq_some_iff {N A H W E w : Nat}
    (wf : ScatterDims.WF ⟨4, ![N, A, H, W]⟩ ⟨2, ![E, 1]⟩ ⟨4, ![E, A, H, W]⟩ [1, 2, 3] [0] [0] 1)
    (idx : IVec ⟨2, ![E, 1]⟩ w) (e : Fin E) (a' : Fin A) (h' : Fin H) (j' : Fin W)
    (n : Fin N) (a : Fin A) (h : Fin H) (j : Fin W) :
    (slabDims N A H W E wf).resultIdx? (ix4 e a' h' j') idx = some (ix4 n a h j)
      ↔ (idx (ix2 e (0 : Fin 1))).toInt = (n.val : Int) ∧ a' = a ∧ h' = h ∧ j' = j := by
  have hs0 : (slabDims N A H W E wf).start (ix4 e a' h' j') idx 0 = (idx (ix2 e (0 : Fin 1))).toInt := by
    unfold ScatterDims.start
    rw [dif_pos (show (0 : Fin 4) ∈ (slabDims N A H W E wf).scatterDimsToOperandDims from List.mem_singleton.mpr rfl)]
    have hsi : (slabDims N A H W E wf).siIdx (ix4 e a' h' j') ⟨List.idxOf (0 : Fin 4) (slabDims N A H W E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (slabDims N A H W E wf).start (ix4 e a' h' j') idx 1 = 0 := by
    unfold ScatterDims.start
    rw [dif_neg (show ¬ (1 : Fin 4) ∈ (slabDims N A H W E wf).scatterDimsToOperandDims from
      (by decide : (1 : Fin 4) ∉ ([0] : List (Fin 4))))]
  have hs2 : (slabDims N A H W E wf).start (ix4 e a' h' j') idx 2 = 0 := by
    unfold ScatterDims.start
    rw [dif_neg (show ¬ (2 : Fin 4) ∈ (slabDims N A H W E wf).scatterDimsToOperandDims from
      (by decide : (2 : Fin 4) ∉ ([0] : List (Fin 4))))]
  have hs3 : (slabDims N A H W E wf).start (ix4 e a' h' j') idx 3 = 0 := by
    unfold ScatterDims.start
    rw [dif_neg (show ¬ (3 : Fin 4) ∈ (slabDims N A H W E wf).scatterDimsToOperandDims from
      (by decide : (3 : Fin 4) ∉ ([0] : List (Fin 4))))]
  have hk : (slabDims N A H W E wf).sKept = [1, 2, 3] := rfl
  have hw0 : (slabDims N A H W E wf).window (ix4 e a' h' j') 0 = 0 := by
    unfold ScatterDims.window
    rw [dif_neg (by rw [hk]; exact (by decide : (0 : Fin 4) ∉ ([1, 2, 3] : List (Fin 4))))]
  have hw1 : (slabDims N A H W E wf).window (ix4 e a' h' j') 1 = a'.val := by
    unfold ScatterDims.window
    rw [dif_pos (by rw [hk]; exact (by decide : (1 : Fin 4) ∈ ([1, 2, 3] : List (Fin 4))))]
    rfl
  have hw2 : (slabDims N A H W E wf).window (ix4 e a' h' j') 2 = h'.val := by
    unfold ScatterDims.window
    rw [dif_pos (by rw [hk]; exact (by decide : (2 : Fin 4) ∈ ([1, 2, 3] : List (Fin 4))))]
    rfl
  have hw3 : (slabDims N A H W E wf).window (ix4 e a' h' j') 3 = j'.val := by
    unfold ScatterDims.window
    rw [dif_pos (by rw [hk]; exact (by decide : (3 : Fin 4) ∈ ([1, 2, 3] : List (Fin 4))))]
    rfl
  unfold ScatterDims.resultIdx?
  by_cases hb : ∀ c, 0 ≤ (slabDims N A H W E wf).start (ix4 e a' h' j') idx c + (slabDims N A H W E wf).window (ix4 e a' h' j') c
      ∧ (slabDims N A H W E wf).start (ix4 e a' h' j') idx c + (slabDims N A H W E wf).window (ix4 e a' h' j') c
        < (⟨4, ![N, A, H, W]⟩ : Shape).size c
  · rw [dif_pos hb, Option.some.injEq]
    have h0 := hb 0
    rw [hs0, hw0] at h0
    constructor
    · intro hf
      have e0 : ((slabDims N A H W E wf).start (ix4 e a' h' j') idx 0 + (slabDims N A H W E wf).window (ix4 e a' h' j') 0).toNat = n.val :=
        congrArg Fin.val (congrFun hf 0)
      have e1 : ((slabDims N A H W E wf).start (ix4 e a' h' j') idx 1 + (slabDims N A H W E wf).window (ix4 e a' h' j') 1).toNat = a.val :=
        congrArg Fin.val (congrFun hf 1)
      have e2 : ((slabDims N A H W E wf).start (ix4 e a' h' j') idx 2 + (slabDims N A H W E wf).window (ix4 e a' h' j') 2).toNat = h.val :=
        congrArg Fin.val (congrFun hf 2)
      have e3 : ((slabDims N A H W E wf).start (ix4 e a' h' j') idx 3 + (slabDims N A H W E wf).window (ix4 e a' h' j') 3).toNat = j.val :=
        congrArg Fin.val (congrFun hf 3)
      rw [hs0, hw0] at e0
      rw [hs1, hw1] at e1
      rw [hs2, hw2] at e2
      rw [hs3, hw3] at e3
      refine ⟨by omega, Fin.ext (by omega), Fin.ext (by omega), Fin.ext (by omega)⟩
    · rintro ⟨ht, rfl, rfl, rfl⟩
      funext c; refine Fin.ext ?_
      match c with
      | ⟨0, _⟩ =>
        show ((slabDims N A H W E wf).start (ix4 e a' h' j') idx 0 + (slabDims N A H W E wf).window (ix4 e a' h' j') 0).toNat = n.val
        rw [hs0, hw0]; omega
      | ⟨1, _⟩ =>
        show ((slabDims N A H W E wf).start (ix4 e a' h' j') idx 1 + (slabDims N A H W E wf).window (ix4 e a' h' j') 1).toNat = a'.val
        rw [hs1, hw1]; omega
      | ⟨2, _⟩ =>
        show ((slabDims N A H W E wf).start (ix4 e a' h' j') idx 2 + (slabDims N A H W E wf).window (ix4 e a' h' j') 2).toNat = h'.val
        rw [hs2, hw2]; omega
      | ⟨3, _⟩ =>
        show ((slabDims N A H W E wf).start (ix4 e a' h' j') idx 3 + (slabDims N A H W E wf).window (ix4 e a' h' j') 3).toNat = j'.val
        rw [hs3, hw3]; omega
  · rw [dif_neg hb]
    constructor
    · intro hf; cases hf
    · rintro ⟨ht, rfl, rfl, rfl⟩
      refine absurd (fun c => ?_) hb
      match c with
      | ⟨0, _⟩ =>
        show 0 ≤ (slabDims N A H W E wf).start (ix4 e a' h' j') idx 0 + (slabDims N A H W E wf).window (ix4 e a' h' j') 0
          ∧ (slabDims N A H W E wf).start (ix4 e a' h' j') idx 0 + (slabDims N A H W E wf).window (ix4 e a' h' j') 0 < (N : Int)
        rw [hs0, hw0]; have := n.isLt; omega
      | ⟨1, _⟩ =>
        show 0 ≤ (slabDims N A H W E wf).start (ix4 e a' h' j') idx 1 + (slabDims N A H W E wf).window (ix4 e a' h' j') 1
          ∧ (slabDims N A H W E wf).start (ix4 e a' h' j') idx 1 + (slabDims N A H W E wf).window (ix4 e a' h' j') 1 < (A : Int)
        rw [hs1, hw1]; have := a'.isLt; omega
      | ⟨2, _⟩ =>
        show 0 ≤ (slabDims N A H W E wf).start (ix4 e a' h' j') idx 2 + (slabDims N A H W E wf).window (ix4 e a' h' j') 2
          ∧ (slabDims N A H W E wf).start (ix4 e a' h' j') idx 2 + (slabDims N A H W E wf).window (ix4 e a' h' j') 2 < (H : Int)
        rw [hs2, hw2]; have := h'.isLt; omega
      | ⟨3, _⟩ =>
        show 0 ≤ (slabDims N A H W E wf).start (ix4 e a' h' j') idx 3 + (slabDims N A H W E wf).window (ix4 e a' h' j') 3
          ∧ (slabDims N A H W E wf).start (ix4 e a' h' j') idx 3 + (slabDims N A H W E wf).window (ix4 e a' h' j') 3 < (W : Int)
        rw [hs3, hw3]; have := j'.isLt; omega

/-- THE RANK-4 SLAB SCATTER READ AT `(n, a, h, j)`, for the record `slabDims`: the operand's element plus the sum of
    the updates `(e, a, h, j)` over the slabs `e` whose target slab `idx[e, 0]`, read signed, is `n`. -/
theorem slabDims_scatterAdd_apply {N A H W E w : Nat} {φ : FTy}
    (wf : ScatterDims.WF ⟨4, ![N, A, H, W]⟩ ⟨2, ![E, 1]⟩ ⟨4, ![E, A, H, W]⟩ [1, 2, 3] [0] [0] 1)
    (x : FVec Ideal ⟨4, ![N, A, H, W]⟩ φ) (idx : IVec ⟨2, ![E, 1]⟩ w) (upd : FVec Ideal ⟨4, ![E, A, H, W]⟩ φ)
    (n : Fin N) (a : Fin A) (h : Fin H) (j : Fin W) :
    Host.scatterAdd (F := Ideal) (slabDims N A H W E wf) x idx upd (ix4 n a h j)
      = x (ix4 n a h j) + ∑ e ∈ hits idx n, upd (ix4 e a h j) := by
  have hdef : Host.scatterAdd (F := Ideal) (slabDims N A H W E wf) x idx upd
      = Ideal.hostScatterAdd (slabDims N A H W E wf) x idx upd := rfl
  rw [hdef]
  simp only [Ideal.hostScatterAdd]
  congr 1
  rw [Finset.sum_filter, Cert.IndexSums.sum_idx4]
  unfold hits
  rw [Finset.sum_filter]
  refine Finset.sum_congr rfl fun e _ => ?_
  simp only [slabDims_resultIdx?_eq_some_iff]
  by_cases ht : (idx (ix2 e (0 : Fin 1))).toInt = (n.val : Int)
  · simp only [ht, true_and, if_true]
    rw [Finset.sum_eq_single a]
    · rw [Finset.sum_eq_single h]
      · rw [Finset.sum_eq_single j]
        · simp
        · intro b _ hb; simp [hb]
        · intro hh; exact absurd (Finset.mem_univ _) hh
      · intro b _ hb
        refine Finset.sum_eq_zero fun c _ => ?_
        simp [hb]
      · intro hh; exact absurd (Finset.mem_univ _) hh
    · intro b _ hb
      refine Finset.sum_eq_zero fun c _ => Finset.sum_eq_zero fun c' _ => ?_
      simp [hb]
    · intro hh; exact absurd (Finset.mem_univ _) hh
  · simp only [ht, false_and, if_false]
    simp

/-- THE RANK-4 SLAB SCATTER READ AT `(n, a, h, j)`, for any record with its dimension numbers: the operand's element
    plus the sum of the updates `(e, a, h, j)` over the slabs `e` whose target slab `idx[e, 0]`, read signed, is `n`
    (an update whose target slab is outside `[0, N)` is dropped). -/
theorem slab4ScatterAdd_apply {N A H W E w : Nat} {φ : FTy}
    (d : ScatterDims ⟨4, ![N, A, H, W]⟩ ⟨2, ![E, 1]⟩ ⟨4, ![E, A, H, W]⟩)
    (h1 : d.updateWindowDims = [1, 2, 3]) (h2 : d.insertedWindowDims = [0]) (h3 : d.scatterDimsToOperandDims = [0])
    (h4 : d.indexVectorDim = 1)
    (x : FVec Ideal ⟨4, ![N, A, H, W]⟩ φ) (idx : IVec ⟨2, ![E, 1]⟩ w) (upd : FVec Ideal ⟨4, ![E, A, H, W]⟩ φ)
    (n : Fin N) (a : Fin A) (h : Fin H) (j : Fin W) :
    Host.scatterAdd (F := Ideal) d x idx upd (ix4 n a h j)
      = x (ix4 n a h j) + ∑ e ∈ hits idx n, upd (ix4 e a h j) := by
  obtain ⟨uw, iw, sd, iv, wf⟩ := d
  simp only at h1 h2 h3 h4
  subst h1 h2 h3 h4
  exact slabDims_scatterAdd_apply wf x idx upd n a h j

end Cert.Slab4Scatter
-- ==== Proof.LibRowScatter.lean ====
/-
  An accumulating row scatter read at an index, over the extended reals.

  What a segment sum of the rows of a matrix `upd : [E, C]` into `x : [N, C]` at an index column `idx : [E, 1]` lowers
  to: `stablehlo.scatter` with an `add` body, update_window_dims `[1]`, inserted_window_dims `[0]`,
  scatter_dims_to_operand_dims `[0]` and index_vector_dim 1. Update element `(e, c')` lands at the row `idx[e, 0]
  read as a signed integer` (not clamped) and the column `c'` when that row lies in `[0, N)`, and is dropped
  otherwise: on operand axis 0 (named by the scatter-dims map, an inserted window axis) the result index is the start
  alone, on operand axis 1 (not named by the map, so its start is 0; the one window axis) it is the update's second
  coordinate. So the updates landing on `(n, c)` are exactly the `(e, c)` with `idx[e, 0] = n`, and the result there is
  the operand's element plus the sum of those updates. The same holds for a vector `upd : [E]` scattered into
  `x : [N]` (no window axis at all): the result at `n` is `x n` plus the sum of `upd e` over the `e` with
  `idx[e, 0] = n`.
-/
import Idealize.ShloMosaic.PureOps.Ideal
import Idealize.ShloMosaic.Lib.ValueIdx

open scoped BigOperators

namespace Idealize.ShloMosaic.RowScatter

open Idealize.ShloMosaic Idealize.ShloMosaic.ValueIdx

/-- The update rows whose target row, `idx[e, 0]` read as a signed integer, is `n`. -/
def hits {N E w : Nat} (idx : IVec ⟨2, ![E, 1]⟩ w) (n : Fin N) : Finset (Fin E) :=
  Finset.univ.filter fun e => (idx (ix2 e (0 : Fin 1))).toInt = (n.val : Int)

/-- Membership in `hits`: the target row of `e`, read signed, is `n`. -/
theorem mem_hits {N E w : Nat} (idx : IVec ⟨2, ![E, 1]⟩ w) (n : Fin N) (e : Fin E) :
    e ∈ hits idx n ↔ (idx (ix2 e (0 : Fin 1))).toInt = (n.val : Int) := by
  simp [hits]

/-! ## The row scatter -/

/-- The row scatter's dimension numbers for an operand `[N, C]`, scatter indices `[E, 1]` and updates `[E, C]`; their
    conditions `wf` are decided on a program's literal shapes. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an update of the row scatter lands: update `(e, c')` lands on `(n, c)` exactly when its target row
    `idx[e, 0]`, read signed, is `n` and its column `c'` is `c`. -/
theorem rowDims_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowDims N C E wf).resultIdx? (ix2 e c') idx = some (ix2 n c)
      ↔ (idx (ix2 e (0 : Fin 1))).toInt = (n.val : Int) ∧ c' = c := by
  have hs0 : (rowDims N C E wf).start (ix2 e c') idx 0 = (idx (ix2 e (0 : Fin 1))).toInt := by
    unfold ScatterDims.start
    rw [dif_pos (show (0 : Fin 2) ∈ (rowDims N C E wf).scatterDimsToOperandDims from List.mem_singleton.mpr rfl)]
    have hsi : (rowDims N C E wf).siIdx (ix2 e c') ⟨List.idxOf (0 : Fin 2) (rowDims N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowDims N C E wf).start (ix2 e c') idx 1 = 0 := by
    unfold ScatterDims.start
    rw [dif_neg (show ¬ (1 : Fin 2) ∈ (rowDims N C E wf).scatterDimsToOperandDims from
      (by decide : (1 : Fin 2) ∉ ([0] : List (Fin 2))))]
  have hk : (rowDims N C E wf).sKept = [1] := rfl
  have hw0 : (rowDims N C E wf).window (ix2 e c') 0 = 0 := by
    unfold ScatterDims.window
    rw [dif_neg (by rw [hk]; exact (by decide : (0 : Fin 2) ∉ ([1] : List (Fin 2))))]
  have hw1 : (rowDims N C E wf).window (ix2 e c') 1 = c'.val := by
    unfold ScatterDims.window
    rw [dif_pos (by rw [hk]; exact List.mem_singleton.mpr rfl)]
    rfl
  unfold ScatterDims.resultIdx?
  by_cases h : ∀ a, 0 ≤ (rowDims N C E wf).start (ix2 e c') idx a + (rowDims N C E wf).window (ix2 e c') a
      ∧ (rowDims N C E wf).start (ix2 e c') idx a + (rowDims N C E wf).window (ix2 e c') a
        < (⟨2, ![N, C]⟩ : Shape).size a
  · rw [dif_pos h, Option.some.injEq]
    have h0 := h 0
    rw [hs0, hw0] at h0
    constructor
    · intro hf
      have e0 : ((rowDims N C E wf).start (ix2 e c') idx 0 + (rowDims N C E wf).window (ix2 e c') 0).toNat = n.val :=
        congrArg Fin.val (congrFun hf 0)
      have e1 : ((rowDims N C E wf).start (ix2 e c') idx 1 + (rowDims N C E wf).window (ix2 e c') 1).toNat = c.val :=
        congrArg Fin.val (congrFun hf 1)
      rw [hs0, hw0] at e0
      rw [hs1, hw1] at e1
      refine ⟨by omega, Fin.ext (by omega)⟩
    · rintro ⟨ht, rfl⟩
      funext a; refine Fin.ext ?_
      match a with
      | ⟨0, _⟩ =>
        show ((rowDims N C E wf).start (ix2 e c') idx 0 + (rowDims N C E wf).window (ix2 e c') 0).toNat = n.val
        rw [hs0, hw0]; omega
      | ⟨1, _⟩ =>
        show ((rowDims N C E wf).start (ix2 e c') idx 1 + (rowDims N C E wf).window (ix2 e c') 1).toNat = c'.val
        rw [hs1, hw1]; omega
  · rw [dif_neg h]
    constructor
    · intro hf; cases hf
    · rintro ⟨ht, rfl⟩
      refine absurd (fun a => ?_) h
      match a with
      | ⟨0, _⟩ =>
        show 0 ≤ (rowDims N C E wf).start (ix2 e c') idx 0 + (rowDims N C E wf).window (ix2 e c') 0
          ∧ (rowDims N C E wf).start (ix2 e c') idx 0 + (rowDims N C E wf).window (ix2 e c') 0 < (N : Int)
        rw [hs0, hw0]; have := n.isLt; omega
      | ⟨1, _⟩ =>
        show 0 ≤ (rowDims N C E wf).start (ix2 e c') idx 1 + (rowDims N C E wf).window (ix2 e c') 1
          ∧ (rowDims N C E wf).start (ix2 e c') idx 1 + (rowDims N C E wf).window (ix2 e c') 1 < (C : Int)
        rw [hs1, hw1]; have := c'.isLt; omega

/-- THE ROW SCATTER READ AT `(n, c)`, for the record `rowDims`: the operand's element plus the sum of the updates
    `(e, c)` over the rows `e` whose target row `idx[e, 0]`, read signed, is `n`. -/
theorem rowDims_scatterAdd_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) (rowDims N C E wf) x idx upd (ix2 n c)
      = x (ix2 n c) + ∑ e ∈ hits idx n, upd (ix2 e c) := by
  have hdef : Host.scatterAdd (F := Ideal) (rowDims N C E wf) x idx upd
      = Ideal.hostScatterAdd (rowDims N C E wf) x idx upd := rfl
  rw [hdef]
  simp only [Ideal.hostScatterAdd]
  congr 1
  rw [Finset.sum_filter, sum_idx2]
  unfold hits
  rw [Finset.sum_filter]
  refine Finset.sum_congr rfl fun e _ => ?_
  simp only [rowDims_resultIdx?_eq_some_iff]
  by_cases ht : (idx (ix2 e (0 : Fin 1))).toInt = (n.val : Int)
  · simp only [ht, true_and, if_true]
    rw [Finset.sum_ite_eq' Finset.univ c (fun b => upd (ix2 e b)), if_pos (Finset.mem_univ c)]
  · simp only [ht, false_and, if_false]
    exact Finset.sum_const_zero

/-- THE ROW SCATTER READ AT `(n, c)`, for any record with the row scatter's dimension numbers: the operand's element
    plus the sum of the updates `(e, c)` over the rows `e` whose target row `idx[e, 0]`, read signed, is `n`
    (an update whose target row is outside `[0, N)` is dropped). -/
theorem rowScatterAdd_apply {N C E w : Nat} {φ : FTy}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) = x (ix2 n c) + ∑ e ∈ hits idx n, upd (ix2 e c) := by
  obtain ⟨uw, iw, sd, iv, wf⟩ := d
  simp only at h1 h2 h3 h4
  subst h1 h2 h3 h4
  exact rowDims_scatterAdd_apply wf x idx upd n c

/-! ## The vector scatter -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]` (no window
    axis); their conditions `wf` are decided on a program's literal shapes. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where an update of the vector scatter lands: update `e` lands on `n` exactly when its target `idx[e, 0]`, read
    signed, is `n`. -/
theorem vecDims_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecDims N E wf).sKept = [] := rfl
  have hw0 : (vecDims N E wf).window (ix1 e) 0 = 0 := by
    unfold ScatterDims.window
    rw [dif_neg (by rw [hk]; exact List.not_mem_nil)]
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < (⟨1, ![N]⟩ : Shape).size a
  · rw [dif_pos h, Option.some.injEq]
    have h0 := h 0
    rw [hs0, hw0] at h0
    constructor
    · intro hf
      have e0 : ((vecDims N E wf).start (ix1 e) idx 0 + (vecDims N E wf).window (ix1 e) 0).toNat = n.val :=
        congrArg Fin.val (congrFun hf 0)
      rw [hs0, hw0] at e0
      omega
    · intro ht
      funext a; refine Fin.ext ?_
      match a with
      | ⟨0, _⟩ =>
        show ((vecDims N E wf).start (ix1 e) idx 0 + (vecDims N E wf).window (ix1 e) 0).toNat = n.val
        rw [hs0, hw0]; omega
  · rw [dif_neg h]
    constructor
    · intro hf; cases hf
    · intro ht
      refine absurd (fun a => ?_) h
      match a with
      | ⟨0, _⟩ =>
        show 0 ≤ (vecDims N E wf).start (ix1 e) idx 0 + (vecDims N E wf).window (ix1 e) 0
          ∧ (vecDims N E wf).start (ix1 e) idx 0 + (vecDims N E wf).window (ix1 e) 0 < (N : Int)
        rw [hs0, hw0]; have := n.isLt; omega

/-- THE VECTOR SCATTER READ AT `n`, for the record `vecDims`: the operand's element plus the sum of the updates `e`
    whose target `idx[e, 0]`, read signed, is `n`. -/
theorem vecDims_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n)
      = x (ix1 n) + ∑ e ∈ hits idx n, upd (ix1 e) := by
  have hdef : Host.scatterAdd (F := Ideal) (vecDims N E wf) x idx upd
      = Ideal.hostScatterAdd (vecDims N E wf) x idx upd := rfl
  rw [hdef]
  simp only [Ideal.hostScatterAdd]
  congr 1
  rw [Finset.sum_filter, sum_idx1]
  unfold hits
  rw [Finset.sum_filter]
  refine Finset.sum_congr rfl fun e _ => ?_
  simp only [vecDims_resultIdx?_eq_some_iff]

/-- THE VECTOR SCATTER READ AT `n`, for any record with the vector scatter's dimension numbers: the operand's element
    plus the sum of the updates `e` whose target `idx[e, 0]`, read signed, is `n` (an update whose target is outside
    `[0, N)` is dropped). With every update equal to one this counts the rows aimed at `n`. -/
theorem vecScatterAdd_apply {N E w : Nat} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n) = x (ix1 n) + ∑ e ∈ hits idx n, upd (ix1 e) := by
  obtain ⟨uw, iw, sd, iv, wf⟩ := d
  simp only at h1 h2 h3 h4
  subst h1 h2 h3 h4
  exact vecDims_scatterAdd_apply wf x idx upd n

end Idealize.ShloMosaic.RowScatter
-- ==== Proof.LibSlabLayout.lean ====
/-
  Host-side broadcasts of a per-slab vector and of a per-feature vector, read at an index, and the host's quotient at
  an index.

  A per-slab vector `[N]` meets an `[N, H, W]` (or `[N, A, H, W]`) array on the host after two broadcasts: to an
  `[N, 1, 1]` (or `[N, 1, 1, 1]`) column of unit slabs, then across every slab. A per-feature vector `[W]` meets a
  `[B, A, N, W]` array after a broadcast to `[1, 1, 1, W]`, then across the three leading axes.
-/
import Idealize.ShloMosaic.Lib.Pipeline.Value
import Idealize.ShloMosaic.Lib.ValueIdx
import Idealize.ShloMosaic.PureOps.Ideal

namespace Cert.SlabLayout

open Idealize.ShloMosaic Idealize.ShloMosaic.ValueIdx

variable {α : Type}

/-- An `[N]` vector stood up as an `[N, 1, 1]` column of unit slabs reads, at `(n, u, u')`, the vector's entry `n`. -/
theorem vec_to_unit3_apply {N : Nat} (v : (⟨1, ![N]⟩ : Shape).Idx → α)
    (h : (⟨1, ![N]⟩ : Shape).BroadcastsInDim ⟨3, ![N, 1, 1]⟩ ![0]) (n : Fin N) (u u' : Fin 1) :
    broadcastInDim ⟨3, ![N, 1, 1]⟩ ![0] h v (ix3 n u u') = v (ix1 n) := by
  refine broadcastInDim_apply ![0] h v (ix3 n u u') (ix1 n) fun ax => ?_
  match ax with
  | ⟨0, _⟩ =>
    show n.val = if N = 1 then 0 else n.val
    split
    · have := n.isLt; omega
    · rfl

/-- An `[N, 1, 1]` column of unit slabs broadcast across `[N, H, W]` reads, at `(n, h, j)`, the column's entry `n`. -/
theorem unit3_to_slab_apply {N H W : Nat} (v : (⟨3, ![N, 1, 1]⟩ : Shape).Idx → α)
    (h : (⟨3, ![N, 1, 1]⟩ : Shape).BroadcastsInDim ⟨3, ![N, H, W]⟩ ![0, 1, 2]) (n : Fin N) (a : Fin H) (j : Fin W) :
    broadcastInDim ⟨3, ![N, H, W]⟩ ![0, 1, 2] h v (ix3 n a j) = v (ix3 n (0 : Fin 1) (0 : Fin 1)) := by
  refine broadcastInDim_apply ![0, 1, 2] h v (ix3 n a j) (ix3 n (0 : Fin 1) (0 : Fin 1)) fun ax => ?_
  match ax with
  | ⟨0, _⟩ =>
    show n.val = if N = 1 then 0 else n.val
    split
    · have := n.isLt; omega
    · rfl
  | ⟨1, _⟩ => rfl
  | ⟨2, _⟩ => rfl

/-- An `[N]` vector stood up as an `[N, 1, 1, 1]` column of unit slabs reads, at `(n, u, u', u'')`, the vector's
    entry `n`. -/
theorem vec_to_unit4_apply {N : Nat} (v : (⟨1, ![N]⟩ : Shape).Idx → α)
    (h : (⟨1, ![N]⟩ : Shape).BroadcastsInDim ⟨4, ![N, 1, 1, 1]⟩ ![0]) (n : Fin N) (u u' u'' : Fin 1) :
    broadcastInDim ⟨4, ![N, 1, 1, 1]⟩ ![0] h v (ix4 n u u' u'') = v (ix1 n) := by
  refine broadcastInDim_apply ![0] h v (ix4 n u u' u'') (ix1 n) fun ax => ?_
  match ax with
  | ⟨0, _⟩ =>
    show n.val = if N = 1 then 0 else n.val
    split
    · have := n.isLt; omega
    · rfl

/-- An `[N, 1, 1, 1]` column of unit slabs broadcast across `[N, A, H, W]` reads, at `(n, a, h, j)`, the column's
    entry `n`. -/
theorem unit4_to_slab_apply {N A H W : Nat} (v : (⟨4, ![N, 1, 1, 1]⟩ : Shape).Idx → α)
    (h : (⟨4, ![N, 1, 1, 1]⟩ : Shape).BroadcastsInDim ⟨4, ![N, A, H, W]⟩ ![0, 1, 2, 3]) (n : Fin N) (a : Fin A)
    (b : Fin H) (j : Fin W) :
    broadcastInDim ⟨4, ![N, A, H, W]⟩ ![0, 1, 2, 3] h v (ix4 n a b j)
      = v (ix4 n (0 : Fin 1) (0 : Fin 1) (0 : Fin 1)) := by
  refine broadcastInDim_apply ![0, 1, 2, 3] h v (ix4 n a b j) (ix4 n (0 : Fin 1) (0 : Fin 1) (0 : Fin 1))
    fun ax => ?_
  match ax with
  | ⟨0, _⟩ =>
    show n.val = if N = 1 then 0 else n.val
    split
    · have := n.isLt; omega
    · rfl
  | ⟨1, _⟩ => rfl
  | ⟨2, _⟩ => rfl
  | ⟨3, _⟩ => rfl

/-- A `[W]` vector laid as a `[1, 1, 1, W]` row reads, at `(u, u', u'', j)`, the vector's entry `j`. -/
theorem vec_to_row4_apply {W : Nat} (v : (⟨1, ![W]⟩ : Shape).Idx → α)
    (h : (⟨1, ![W]⟩ : Shape).BroadcastsInDim ⟨4, ![1, 1, 1, W]⟩ ![3]) (u u' u'' : Fin 1) (j : Fin W) :
    broadcastInDim ⟨4, ![1, 1, 1, W]⟩ ![3] h v (ix4 u u' u'' j) = v (ix1 j) := by
  refine broadcastInDim_apply ![3] h v (ix4 u u' u'' j) (ix1 j) fun ax => ?_
  match ax with
  | ⟨0, _⟩ =>
    show j.val = if W = 1 then 0 else j.val
    split
    · have := j.isLt; omega
    · rfl

/-- A `[1, 1, 1, W]` row broadcast across `[B, A, N, W]` reads, at `(b, a, n, j)`, the row's entry `j`. -/
theorem row4_to_array_apply {B A N W : Nat} (v : (⟨4, ![1, 1, 1, W]⟩ : Shape).Idx → α)
    (h : (⟨4, ![1, 1, 1, W]⟩ : Shape).BroadcastsInDim ⟨4, ![B, A, N, W]⟩ ![0, 1, 2, 3]) (b : Fin B) (a : Fin A)
    (n : Fin N) (j : Fin W) :
    broadcastInDim ⟨4, ![B, A, N, W]⟩ ![0, 1, 2, 3] h v (ix4 b a n j)
      = v (ix4 (0 : Fin 1) (0 : Fin 1) (0 : Fin 1) j) := by
  refine broadcastInDim_apply ![0, 1, 2, 3] h v (ix4 b a n j) (ix4 (0 : Fin 1) (0 : Fin 1) (0 : Fin 1) j)
    fun ax => ?_
  match ax with
  | ⟨0, _⟩ => rfl
  | ⟨1, _⟩ => rfl
  | ⟨2, _⟩ => rfl
  | ⟨3, _⟩ =>
    show j.val = if W = 1 then 0 else j.val
    split
    · have := j.isLt; omega
    · rfl

/-- The host's quotient of two arrays over the extended reals, at an index, is the quotient of the entries. -/
theorem hostDivf_apply {s : Shape} {φ : FTy} (x y : FVec Ideal s φ) (i : s.Idx) :
    Host.divf x y i = Ideal.div (x i) (y i) := rfl

end Cert.SlabLayout
-- ==== Proof.MeanStage.lean ====
/-
  The segment-mean stage of both programs, read at an index over the extended reals.

  With `hitsOf nd n` the edges whose target node is `n`, the accumulating scatter from the zero array gives
  `0 + Σ_{e ∈ hitsOf nd n} g(e, ·)`, the clipped degree is `max (0 + Σ_{e ∈ hitsOf nd n} 1) 1`, and the mean is their
  quotient. The transposes and the reshape around them only rename coordinates: row `t * 20000 + n` of the
  `[40000, 128]` table is the pair `(t, n)`.
-/
import proofs.«106592_j27015344292524_1_alg».proof.Proof.Terms
import proofs.«106592_j27015344292524_1_alg».proof.Proof.LibSlabScatter
import proofs.«106592_j27015344292524_1_alg».proof.Proof.LibSlab4Scatter
import proofs.«106592_j27015344292524_1_alg».proof.Proof.LibRowScatter
import proofs.«106592_j27015344292524_1_alg».proof.Proof.LibSlabLayout
import Idealize.ShloMosaic.Lib.IdealHost
import Idealize.ShloMosaic.Lib.Pipeline.Value

noncomputable section

open scoped BigOperators

open Idealize.ShloMosaic Idealize.ShloMosaic.ValueIdx

namespace Cert.GraphConv

section Shared
open Cert.KernelIdeal Cert.KernelIdeal.Facts₀

/-- The edges whose target node, read signed, is `n`. -/
abbrev hitsOf (nd : IVec S320000 32) (n : Fin 20000) : Finset (Fin 320000) :=
  Cert.SlabScatter.hits (nodeCol nd) n

end Shared

namespace K
open Cert.KernelIdeal Cert.KernelIdeal.Facts₀

/-- The clipped degree of node `n`: the number of edges aimed at it, counted from zero, and at least one. -/
theorem degree_apply (nd : IVec S320000 32) (n : Fin 20000) :
    K.degree nd (ix1 n) = max (0 + ∑ _e ∈ hitsOf nd n, (1 : EReal)) 1 := by
  unfold K.degree
  rw [maximumf_apply, Idealize.ShloMosaic.RowScatter.vecScatterAdd_apply _ rfl rfl rfl rfl]
  rw [broadcastInDim_scalar_apply, broadcastInDim_scalar_apply, constant_apply, constant_apply, Ideal.ofBits_zero_f32,
    Ideal.ofBits_one_f32]
  have hh : Idealize.ShloMosaic.RowScatter.hits (nodeCol nd) n = hitsOf nd n := rfl
  rw [hh]
  refine congrArg (fun s => max (0 + s) (1 : EReal)) (Finset.sum_congr rfl fun e _ => ?_)
  rw [broadcastInDim_scalar_apply, constant_apply, Ideal.ofBits_one_f32]

/-- The per-node sum at `(n, t, f)`: from zero, the sum of the rows `g(t, e, f)` over the edges aimed at `n`. -/
theorem segSum_apply (g : FVec Ideal S2x320000x128 .f32) (nd : IVec S320000 32) (n : Fin 20000) (t : Fin 2)
    (f : Fin 128) :
    K.segSum g nd (ix3 n t f) = 0 + ∑ e ∈ hitsOf nd n, g (ix3 t e f) := by
  unfold K.segSum
  rw [Cert.SlabScatter.slabScatterAdd_apply _ rfl rfl rfl rfl]
  rw [broadcastInDim_scalar_apply, constant_apply, Ideal.ofBits_zero_f32]
  refine congrArg _ (Finset.sum_congr rfl fun e _ => ?_)
  refine Idealize.ShloMosaic.transpose_apply [1, 0, 2] g _ (ix3 e t f) (ix3 t e f) fun b => ?_
  match b with
  | ⟨0, _⟩ => rfl
  | ⟨1, _⟩ => rfl
  | ⟨2, _⟩ => rfl

/-- The divisor array at `(n, t, f)`: the clipped degree of node `n`, whatever the slice and the feature. -/
theorem degreeBcast_apply (nd : IVec S320000 32) (n : Fin 20000) (t : Fin 2) (f : Fin 128) :
    broadcastInDim S20000x2x128 ![0, 1, 2] bcast_S20000x1x1_S20000x2x128_0_1_2
        (broadcastInDim S20000x1x1 ![0] bcast_S20000_S20000x1x1_0 (K.degree nd)) (ix3 n t f)
      = max (0 + ∑ _e ∈ hitsOf nd n, (1 : EReal)) 1 := by
  refine (Cert.SlabLayout.unit3_to_slab_apply _ bcast_S20000x1x1_S20000x2x128_0_1_2 n t f).trans ?_
  refine (Cert.SlabLayout.vec_to_unit3_apply _ bcast_S20000_S20000x1x1_0 n 0 0).trans ?_
  exact degree_apply nd n

/-- THE KERNEL'S MEAN AT ROW `t * 20000 + n`, COLUMN `f`: the sum of the rows `g(t, e, f)` over the edges aimed at
    node `n`, divided by the node's clipped degree. -/
theorem mean_apply (g : FVec Ideal S2x320000x128 .f32) (nd : IVec S320000 32) (t : Fin 2) (n : Fin 20000)
    (f : Fin 128) :
    K.mean g nd (ix2 ⟨t.val * 20000 + n.val, by omega⟩ f)
      = Ideal.div (0 + ∑ e ∈ hitsOf nd n, g (ix3 t e f)) (max (0 + ∑ _e ∈ hitsOf nd n, (1 : EReal)) 1) := by
  unfold K.mean
  refine (shapeCast_apply _ shapeCasts_S2x20000x128_S40000x128 _ (ix3 t n f) ?_).trans ?_
  · rw [Shape.rowMajor_val_three, Shape.rowMajor_val_two]
    rfl
  refine (Idealize.ShloMosaic.transpose_apply [1, 0, 2] _ transposes_S20000x2x128_S2x20000x128_1_0_2 (ix3 t n f)
    (ix3 n t f) fun b => ?_).trans ?_
  · match b with
    | ⟨0, _⟩ => rfl
    | ⟨1, _⟩ => rfl
    | ⟨2, _⟩ => rfl
  rw [Cert.SlabLayout.hostDivf_apply, segSum_apply, degreeBcast_apply]

end K

namespace R
open Cert.ReferenceIdeal Cert.ReferenceIdeal.Facts₀

/-- The clipped degree of node `n`: the number of edges aimed at it, counted from zero, and at least one. -/
theorem degree_apply (nd : IVec S320000 32) (n : Fin 20000) :
    R.degree nd (ix1 n) = max (0 + ∑ _e ∈ hitsOf nd n, (1 : EReal)) 1 := by
  unfold R.degree
  rw [maximumf_apply, Idealize.ShloMosaic.RowScatter.vecScatterAdd_apply _ rfl rfl rfl rfl]
  rw [broadcastInDim_scalar_apply, broadcastInDim_scalar_apply, constant_apply, constant_apply, Ideal.ofBits_zero_f32,
    Ideal.ofBits_one_f32]
  have hh : Idealize.ShloMosaic.RowScatter.hits (nodeCol nd) n = hitsOf nd n := rfl
  rw [hh]
  refine congrArg (fun s => max (0 + s) (1 : EReal)) (Finset.sum_congr rfl fun e _ => ?_)
  rw [broadcastInDim_scalar_apply, constant_apply, Ideal.ofBits_one_f32]

/-- The per-node sum at `(n, 0, t, f)`: from zero, the sum of the rows `g(0, t, e, f)` over the edges aimed at `n`. -/
theorem segSum_apply (g : FVec Ideal S1x2x320000x128 .f32) (nd : IVec S320000 32) (n : Fin 20000) (t : Fin 2)
    (f : Fin 128) :
    R.segSum g nd (ix4 n (0 : Fin 1) t f) = 0 + ∑ e ∈ hitsOf nd n, g (ix4 (0 : Fin 1) t e f) := by
  unfold R.segSum
  rw [Cert.Slab4Scatter.slab4ScatterAdd_apply _ rfl rfl rfl rfl]
  rw [broadcastInDim_scalar_apply, constant_apply, Ideal.ofBits_zero_f32]
  refine congrArg _ (Finset.sum_congr rfl fun e _ => ?_)
  refine Idealize.ShloMosaic.transpose_apply [2, 0, 1, 3] g _ (ix4 e (0 : Fin 1) t f) (ix4 (0 : Fin 1) t e f)
    fun b => ?_
  match b with
  | ⟨0, _⟩ => rfl
  | ⟨1, _⟩ => rfl
  | ⟨2, _⟩ => rfl
  | ⟨3, _⟩ => rfl

/-- The divisor array at `(n, 0, t, f)`: the clipped degree of node `n`, whatever the slice and the feature. -/
theorem degreeBcast_apply (nd : IVec S320000 32) (n : Fin 20000) (t : Fin 2) (f : Fin 128) :
    broadcastInDim S20000x1x2x128 ![0, 1, 2, 3] bcast_S20000x1x1x1_S20000x1x2x128_0_1_2_3
        (broadcastInDim S20000x1x1x1 ![0] bcast_S20000_S20000x1x1x1_0 (R.degree nd)) (ix4 n (0 : Fin 1) t f)
      = max (0 + ∑ _e ∈ hitsOf nd n, (1 : EReal)) 1 := by
  refine (Cert.SlabLayout.unit4_to_slab_apply _ bcast_S20000x1x1x1_S20000x1x2x128_0_1_2_3 n 0 t f).trans ?_
  refine (Cert.SlabLayout.vec_to_unit4_apply _ bcast_S20000_S20000x1x1x1_0 n 0 0 0).trans ?_
  exact degree_apply nd n

/-- THE REFERENCE'S MEAN AT `(0, t, n, f)`: the sum of the rows `g(0, t, e, f)` over the edges aimed at node `n`,
    divided by the node's clipped degree. -/
theorem mean_apply (g : FVec Ideal S1x2x320000x128 .f32) (nd : IVec S320000 32) (t : Fin 2) (n : Fin 20000)
    (f : Fin 128) :
    R.mean g nd (ix4 (0 : Fin 1) t n f)
      = Ideal.div (0 + ∑ e ∈ hitsOf nd n, g (ix4 (0 : Fin 1) t e f))
          (max (0 + ∑ _e ∈ hitsOf nd n, (1 : EReal)) 1) := by
  unfold R.mean
  refine (Idealize.ShloMosaic.transpose_apply [1, 2, 0, 3] _ transposes_S20000x1x2x128_S1x2x20000x128_1_2_0_3
    (ix4 (0 : Fin 1) t n f) (ix4 n (0 : Fin 1) t f) fun b => ?_).trans ?_
  · match b with
    | ⟨0, _⟩ => rfl
    | ⟨1, _⟩ => rfl
    | ⟨2, _⟩ => rfl
    | ⟨3, _⟩ => rfl
  rw [Cert.SlabLayout.hostDivf_apply, segSum_apply, degreeBcast_apply]

end R

end Cert.GraphConv

end
-- ==== Proof.Relayout.lean ====
import Idealize.ShloMosaic.Lib.Pipeline.Value
import Idealize.ShloMosaic.Lib.ValueIdx

/-! # Re-laid arrays read at an index

The features `[1, 2, 20000, 128]` are also handled as a table of 40000 rows, row `20000·t + n` being node `n` of time
slice `t`, and as `[2, 20000, 128]`; the second layer's weight matrix `[256, 128]` is cut into its upper and lower
halves.  A reshape keeps the row-major position of every entry and a slice shifts it by its offset; these lemmas say so
at explicit coordinates. -/

namespace Cert.Relayout

open Idealize.ShloMosaic Idealize.ShloMosaic.ValueIdx

variable {α : Type}

/-- Row `20000·t + n` of the row table is node `n` of slice `t`. -/
abbrev rowOf (t : Fin 2) (n : Fin 20000) : Fin 40000 := ⟨t.val * 20000 + n.val, by have := t.isLt; have := n.isLt; omega⟩

/-- The features as a row table. -/
theorem rows_of_features (x : (⟨4, ![1, 2, 20000, 128]⟩ : Shape).Idx → α)
    (h : (⟨4, ![1, 2, 20000, 128]⟩ : Shape).ShapeCasts ⟨2, ![40000, 128]⟩) (t : Fin 2) (n : Fin 20000) (k : Fin 128) :
    shapeCast ⟨2, ![40000, 128]⟩ x h (ix2 (rowOf t n) k) = x (ix4 (0 : Fin 1) t n k) := by
  refine shapeCast_apply x h _ _ ?_
  rw [Shape.rowMajor_val_four, Shape.rowMajor_val_two]
  show ((0 * 2 + t.val) * 20000 + n.val) * 128 + k.val = (t.val * 20000 + n.val) * 128 + k.val
  omega

/-- A row table as `[2, 20000, 128]`. -/
theorem slices_of_rows (y : (⟨2, ![40000, 128]⟩ : Shape).Idx → α)
    (h : (⟨2, ![40000, 128]⟩ : Shape).ShapeCasts ⟨3, ![2, 20000, 128]⟩) (t : Fin 2) (n : Fin 20000) (f : Fin 128) :
    shapeCast ⟨3, ![2, 20000, 128]⟩ y h (ix3 t n f) = y (ix2 (rowOf t n) f) := by
  refine shapeCast_apply y h _ _ ?_
  rw [Shape.rowMajor_val_three, Shape.rowMajor_val_two]
  show (t.val * 20000 + n.val) * 128 + f.val = (t.val * 20000 + n.val) * 128 + f.val
  rfl

/-- `[2, 20000, 128]` as a row table. -/
theorem rows_of_slices (y : (⟨3, ![2, 20000, 128]⟩ : Shape).Idx → α)
    (h : (⟨3, ![2, 20000, 128]⟩ : Shape).ShapeCasts ⟨2, ![40000, 128]⟩) (t : Fin 2) (n : Fin 20000) (f : Fin 128) :
    shapeCast ⟨2, ![40000, 128]⟩ y h (ix2 (rowOf t n) f) = y (ix3 t n f) := by
  refine shapeCast_apply y h _ _ ?_
  rw [Shape.rowMajor_val_three, Shape.rowMajor_val_two]
  show (t.val * 20000 + n.val) * 128 + f.val = (t.val * 20000 + n.val) * 128 + f.val
  rfl

/-- A row table in the features' layout. -/
theorem features_of_rows (y : (⟨2, ![40000, 128]⟩ : Shape).Idx → α)
    (h : (⟨2, ![40000, 128]⟩ : Shape).ShapeCasts ⟨4, ![1, 2, 20000, 128]⟩) (t : Fin 2) (n : Fin 20000) (f : Fin 128) :
    shapeCast ⟨4, ![1, 2, 20000, 128]⟩ y h (ix4 (0 : Fin 1) t n f) = y (ix2 (rowOf t n) f) := by
  refine shapeCast_apply y h _ _ ?_
  rw [Shape.rowMajor_val_four, Shape.rowMajor_val_two]
  show (t.val * 20000 + n.val) * 128 + f.val = ((0 * 2 + t.val) * 20000 + n.val) * 128 + f.val
  omega

/-- Row `k` of the weight matrix's upper half. -/
abbrev upper (k : Fin 128) : Fin 256 := ⟨k.val, by have := k.isLt; omega⟩
/-- Row `k` of its lower half. -/
abbrev lower (k : Fin 128) : Fin 256 := ⟨128 + k.val, by have := k.isLt; omega⟩

/-- The upper half of a `[256, 128]` matrix. -/
theorem upper_half (W : (⟨2, ![256, 128]⟩ : Shape).Idx → α)
    (h : (⟨2, ![256, 128]⟩ : Shape).Slices ![0, 0] ⟨2, ![128, 128]⟩) (k f : Fin 128) :
    extractStridedSlice ⟨2, ![128, 128]⟩ ![0, 0] W h (ix2 k f) = W (ix2 (upper k) f) := by
  refine extractStridedSlice_apply _ W h _ _ fun a => ?_
  match a with
  | ⟨0, _⟩ => show k.val = 0 + k.val; omega
  | ⟨1, _⟩ => show f.val = 0 + f.val; omega

/-- The lower half of a `[256, 128]` matrix. -/
theorem lower_half (W : (⟨2, ![256, 128]⟩ : Shape).Idx → α)
    (h : (⟨2, ![256, 128]⟩ : Shape).Slices ![128, 0] ⟨2, ![128, 128]⟩) (k f : Fin 128) :
    extractStridedSlice ⟨2, ![128, 128]⟩ ![128, 0] W h (ix2 k f) = W (ix2 (lower k) f) := by
  refine extractStridedSlice_apply _ W h _ _ fun a => ?_
  match a with
  | ⟨0, _⟩ => show 128 + k.val = 128 + k.val; rfl
  | ⟨1, _⟩ => show f.val = 0 + f.val; omega

end Cert.Relayout
-- ==== Proof.Layer.lean ====
import proofs.«106592_j27015344292524_1_alg».proof.Proof.Terms
import proofs.«106592_j27015344292524_1_alg».proof.Proof.TakeStage
import proofs.«106592_j27015344292524_1_alg».proof.Proof.MeanStage
import proofs.«106592_j27015344292524_1_alg».proof.Proof.Relayout

/-! # The layer as one function of the arguments

Over the extended reals, for time slice `t`, node `n` and output feature `f`:

* `prep t n f  = max (Σ_d x[t,n,d] · Wp[d,f] + bp[f], 0)` — the first dense layer and its rectifier on a node's row;
* `agg t n k   = (0 + Σ_{j → n} prep t (nbr j) k) / max (0 + Σ_{j → n} 1, 1)` — the mean, over the edges `j` whose
  target node is `n`, of the prepared row of the edge's neighbour (the row the gather reads for `j`), the divisor the
  node's in-degree clipped below by one;
* `layer t n f = max (Σ_k x[t,n,k] · Wu[k,f] + Σ_k agg t n k · Wu[128+k,f] + bu[f], 0)` — the second dense layer on the
  node's own row joined with that mean.

The kernel program computes `prep` for every node once and gathers from it; the reference gathers rows of `x` and
computes `prep` per edge.  Gathering a row and applying a row-wise function commute, so both end at `layer`; no sum is
regrouped beyond cutting the 256 joined columns into their two halves, so nothing here needs the inputs to be finite. -/

noncomputable section

open Idealize.ShloMosaic Idealize.ShloMosaic.ValueIdx

namespace Cert.GraphConv

open Cert.KernelIdeal Cert.Relayout

/-- The first dense layer and its rectifier on node `n` of slice `t`. -/
def prep (x : FVec Ideal S1x2x20000x128 .f32) (Wp : FVec Ideal S128x128 .f32) (bp : FVec Ideal S128 .f32)
    (t : Fin 2) (n : Fin 20000) (f : Fin 128) : EReal :=
  max ((∑ d : Fin 128, x (ix4 (0 : Fin 1) t n d) * Wp (ix2 d f)) + bp (ix1 f)) 0

/-- The mean of the neighbours' prepared rows over the edges into node `n`. -/
def agg (x : FVec Ideal S1x2x20000x128 .f32) (e : IVec S2x320000 32) (Wp : FVec Ideal S128x128 .f32)
    (bp : FVec Ideal S128 .f32) (t : Fin 2) (n : Fin 20000) (k : Fin 128) : EReal :=
  Ideal.div (0 + ∑ j ∈ hitsOf (nodeIds e) n, prep x Wp bp t (nbrRow (nbrIds e) j) k)
    (max (0 + ∑ _j ∈ hitsOf (nodeIds e) n, (1 : EReal)) 1)

/-- The layer's result at slice `t`, node `n`, feature `f`. -/
def layer (x : FVec Ideal S1x2x20000x128 .f32) (e : IVec S2x320000 32) (Wp : FVec Ideal S128x128 .f32)
    (bp : FVec Ideal S128 .f32) (Wu : FVec Ideal S256x128 .f32) (bu : FVec Ideal S128 .f32)
    (t : Fin 2) (n : Fin 20000) (f : Fin 128) : EReal :=
  max (((∑ k : Fin 128, x (ix4 (0 : Fin 1) t n k) * Wu (ix2 (upper k) f))
      + (∑ k : Fin 128, agg x e Wp bp t n k * Wu (ix2 (lower k) f))) + bu (ix1 f)) 0

end Cert.GraphConv

end
-- ==== Proof.KernelValue.lean ====
import proofs.«106592_j27015344292524_1_alg».proof.Proof.KernelEntry
import proofs.«106592_j27015344292524_1_alg».proof.Proof.Region0Value
import proofs.«106592_j27015344292524_1_alg».proof.Proof.Region1Value
import proofs.«106592_j27015344292524_1_alg».proof.Proof.Layer

/-! # The kernel program's result is the layer

The first pipelined layer leaves `prep` of every node row in its output table.  The gather then reads, for every edge,
the prepared row of the edge's neighbour (every neighbour number being a row of the table, the fill value is never
selected), the per-node mean of those rows is `agg`, and the second pipelined layer — two matrix products, one with
each half of the weight matrix, added — is `layer`. -/

set_option maxRecDepth 16384

noncomputable section

namespace Cert.KernelIdeal.Fold

open Cert.KernelIdeal Cert.KernelIdeal.Gen Cert.KernelIdeal.RegionValue Cert.GraphConv Cert.Relayout
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-- The features as the table of 40000 rows both layers read. -/
abbrev rows : FVec Ideal S40000x128 .f32 :=
  shapeCast S40000x128 (m ((c : Thread nD τ).loc main_arg0)) shapeCasts_S1x2x20000x128_S40000x128

/-- The first layer's output table is the dense layer with its rectifier on every row. -/
theorem firstOut_eq : firstOut m ρ c
    = G0 (rows m c) (m ((c : Thread nD τ).loc main_arg2)) (m ((c : Thread nD τ).loc main_arg3)) :=
  (region0_array (V1 m ρ) c).trans (by rw [V1_v0 m ρ c, V1_arg2 m ρ c, V1_arg3 m ρ c])

/-- The first layer's output table at the row of node `n`, slice `t`. -/
theorem firstOut_apply (t : Fin 2) (n : Fin 20000) (f : Fin 128) :
    firstOut m ρ c (ix2 (rowOf t n) f)
      = prep (m ((c : Thread nD τ).loc main_arg0)) (m ((c : Thread nD τ).loc main_arg2))
          (m ((c : Thread nD τ).loc main_arg3)) t n f := by
  refine (congrFun (firstOut_eq m ρ c) (ix2 (rowOf t n) f)).trans ?_
  rw [G0_apply]
  unfold prep
  simp only [rows_of_features]

/-- The mean table the second layer reads. -/
abbrev meanRows : FVec Ideal S40000x128 .f32 :=
  K.mean (K.take (shapeCast S2x20000x128 (firstOut m ρ c) shapeCasts_S40000x128_S2x20000x128)
    (nbrIds (m ((c : Thread nD τ).loc main_arg1)))) (nodeIds (m ((c : Thread nD τ).loc main_arg1)))

/-- The result buffer: the second layer's output table in the features' layout. -/
theorem W7_eq : W7 m ρ c (Proc.devRef .tc main_v26)
    = shapeCast S1x2x20000x128
        (G1 (rows m c) (meanRows m ρ c)
          (extractStridedSlice S128x128 ![0, 0] (m ((c : Thread nD τ).loc main_arg4)) slices_S256x128_S128x128_0_0)
          (extractStridedSlice S128x128 ![128, 0] (m ((c : Thread nD τ).loc main_arg4)) slices_S256x128_S128x128_128_0)
          (m ((c : Thread nD τ).loc main_arg5)))
        shapeCasts_S40000x128_S1x2x20000x128 :=
  (W7_v26 m ρ c).trans (congrArg (fun a => shapeCast S1x2x20000x128 a shapeCasts_S40000x128_S1x2x20000x128)
    ((region1_array (V5 m ρ) c).trans
      (by rw [V5_v0 m ρ c, V5_v22 m ρ c, V5_v23 m ρ c, V5_v24 m ρ c, V5_arg5 m ρ c])))

/-- The mean table at the row of node `n`, slice `t`, when every neighbour number is a row. -/
theorem meanRows_apply
    (hin : ∀ j : Fin 320000, inRange (nbrIds (m ((c : Thread nD τ).loc main_arg1))) (ix1 j) = 1#1)
    (t : Fin 2) (n : Fin 20000) (k : Fin 128) :
    meanRows m ρ c (ix2 (rowOf t n) k)
      = agg (m ((c : Thread nD τ).loc main_arg0)) (m ((c : Thread nD τ).loc main_arg1))
          (m ((c : Thread nD τ).loc main_arg2)) (m ((c : Thread nD τ).loc main_arg3)) t n k := by
  show K.mean _ _ (ix2 (⟨t.val * 20000 + n.val, by omega⟩ : Fin 40000) k) = _
  rw [K.mean_apply]
  unfold agg
  refine congrArg (fun s : EReal => Ideal.div (0 + s)
      (max (0 + ∑ _j ∈ hitsOf (nodeIds (m ((c : Thread nD τ).loc main_arg1))) n, (1 : EReal)) 1))
    (Finset.sum_congr rfl fun j _ => ?_)
  rw [K.take_apply _ _ hin, slices_of_rows, firstOut_apply]

/-- The kernel program's result at slice `t`, node `n`, feature `f`, when every neighbour number is a row. -/
theorem out_apply
    (hin : ∀ j : Fin 320000, inRange (nbrIds (m ((c : Thread nD τ).loc main_arg1))) (ix1 j) = 1#1)
    (t : Fin 2) (n : Fin 20000) (f : Fin 128) :
    W7 m ρ c (Proc.devRef .tc main_v26) (ix4 (0 : Fin 1) t n f)
      = layer (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) t n f := by
  refine (congrFun (W7_eq m ρ c) (ix4 (0 : Fin 1) t n f)).trans ?_
  rw [features_of_rows, G1_apply]
  unfold layer
  simp only [rows_of_features, upper_half, lower_half, meanRows_apply m ρ c hin]

end Cert.KernelIdeal.Fold

end
-- ==== Proof.LibDense4.lean ====
/-
  A dense layer applied along the last axis of a rank-4 array, read at an index, at the ideal values.

  The host's product of `X : [B, A, N, K]` with `W : [K, M]`, contracting `X`'s last axis with `W`'s first (no batch
  axis; the result's axes are `X`'s three leading axes, then `W`'s columns), reads at `(b, a, n, m)` the sum over `c`
  of `X (b, a, n, c) · W (c, m)`. Two arrays joined along the last axis read the first on its columns and the second,
  shifted, past them.
-/
import Idealize.ShloMosaic.Lib.Pipeline.Value
import Idealize.ShloMosaic.Lib.ValueIdx
import Idealize.ShloMosaic.PureOps.Ideal.Laws

open scoped BigOperators

namespace Cert.Dense4

open Idealize.ShloMosaic Idealize.ShloMosaic.ValueIdx

variable {B A N K M : Nat} {φ₁ φ₂ : FTy}

/-- The operand indices of the last-axis contraction at output (b, a, n, m) and contraction coordinate c are
    (b, a, n, c) on the left … -/
theorem lhsIdx_last (w : DotDims.WF ⟨4, ![B, A, N, K]⟩ ⟨2, ![K, M]⟩ ⟨4, ![B, A, N, M]⟩ [3] [0] [0, 1, 2] [1] [] [])
    (b : Fin B) (a : Fin A) (n : Fin N) (m : Fin M) (c : Fin K) :
    (⟨[3], [0], [0, 1, 2], [1], [], [], w⟩ : DotDims ⟨4, ![B, A, N, K]⟩ ⟨2, ![K, M]⟩ ⟨4, ![B, A, N, M]⟩).lhsIdx
        (ix4 b a n m)
      ((contrEquiv1 (⟨[3], [0], [0, 1, 2], [1], [], [], w⟩ :
          DotDims ⟨4, ![B, A, N, K]⟩ ⟨2, ![K, M]⟩ ⟨4, ![B, A, N, M]⟩) K rfl rfl).symm c)
      = ix4 b a n c := by
  have c2 := contrEquiv1_symm_val
    (⟨[3], [0], [0, 1, 2], [1], [], [], w⟩ : DotDims ⟨4, ![B, A, N, K]⟩ ⟨2, ![K, M]⟩ ⟨4, ![B, A, N, M]⟩) K rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; rfl
  | ⟨3, _⟩ => simp [DotDims.lhsIdx]; exact c2

/-- … and (c, m) on the right. -/
theorem rhsIdx_last (w : DotDims.WF ⟨4, ![B, A, N, K]⟩ ⟨2, ![K, M]⟩ ⟨4, ![B, A, N, M]⟩ [3] [0] [0, 1, 2] [1] [] [])
    (b : Fin B) (a : Fin A) (n : Fin N) (m : Fin M) (c : Fin K) :
    (⟨[3], [0], [0, 1, 2], [1], [], [], w⟩ : DotDims ⟨4, ![B, A, N, K]⟩ ⟨2, ![K, M]⟩ ⟨4, ![B, A, N, M]⟩).rhsIdx
        (ix4 b a n m)
      ((contrEquiv1 (⟨[3], [0], [0, 1, 2], [1], [], [], w⟩ :
          DotDims ⟨4, ![B, A, N, K]⟩ ⟨2, ![K, M]⟩ ⟨4, ![B, A, N, M]⟩) K rfl rfl).symm c)
      = ix2 c m := by
  have c2 := contrEquiv1_symm_val
    (⟨[3], [0], [0, 1, 2], [1], [], [], w⟩ : DotDims ⟨4, ![B, A, N, K]⟩ ⟨2, ![K, M]⟩ ⟨4, ![B, A, N, M]⟩) K rfl rfl c
  funext ax; apply Fin.ext
  match ax with
  | ⟨0, _⟩ => simp [DotDims.rhsIdx]; exact c2
  | ⟨1, _⟩ => simp [DotDims.rhsIdx]; rfl

/-- The host's last-axis product, read at (b, a, n, m): the sum over c of X (b, a, n, c) · W (c, m). -/
theorem dotGeneral_last_apply
    (w : DotDims.WF ⟨4, ![B, A, N, K]⟩ ⟨2, ![K, M]⟩ ⟨4, ![B, A, N, M]⟩ [3] [0] [0, 1, 2] [1] [] [])
    (prec : Option ContractPrecision) (X : FVec Ideal ⟨4, ![B, A, N, K]⟩ φ₁) (W : FVec Ideal ⟨2, ![K, M]⟩ φ₂)
    (b : Fin B) (a : Fin A) (n : Fin N) (m : Fin M) :
    Host.dotGeneral (⟨[3], [0], [0, 1, 2], [1], [], [], w⟩ :
        DotDims ⟨4, ![B, A, N, K]⟩ ⟨2, ![K, M]⟩ ⟨4, ![B, A, N, M]⟩) prec X W (ix4 b a n m)
      = ∑ c : Fin K, X (ix4 b a n c) * W (ix2 c m) := by
  show FloatOps.dotGeneral _ prec _ X W (ix4 b a n m) = _
  rw [Ideal.dotGeneral_apply,
    ← Equiv.sum_comp (contrEquiv1 (⟨[3], [0], [0, 1, 2], [1], [], [], w⟩ :
        DotDims ⟨4, ![B, A, N, K]⟩ ⟨2, ![K, M]⟩ ⟨4, ![B, A, N, M]⟩) K rfl rfl).symm]
  refine Finset.sum_congr rfl fun c _ => ?_
  rw [lhsIdx_last, rhsIdx_last]

/-- The same for any record with the last-axis contraction's dimension numbers. -/
theorem dotGeneral_apply (d : DotDims ⟨4, ![B, A, N, K]⟩ ⟨2, ![K, M]⟩ ⟨4, ![B, A, N, M]⟩)
    (h1 : d.lhsContracting = [3]) (h2 : d.rhsContracting = [0]) (h3 : d.lhsNonContracting = [0, 1, 2])
    (h4 : d.rhsNonContracting = [1]) (h5 : d.lhsBatch = []) (h6 : d.rhsBatch = [])
    (prec : Option ContractPrecision) (X : FVec Ideal ⟨4, ![B, A, N, K]⟩ φ₁) (W : FVec Ideal ⟨2, ![K, M]⟩ φ₂)
    (b : Fin B) (a : Fin A) (n : Fin N) (m : Fin M) :
    Host.dotGeneral d prec X W (ix4 b a n m) = ∑ c : Fin K, X (ix4 b a n c) * W (ix2 c m) := by
  obtain ⟨lc, rc, ln, rn, lb, rb, wf⟩ := d
  simp only at h1 h2 h3 h4 h5 h6
  subst h1 h2 h3 h4 h5 h6
  exact dotGeneral_last_apply wf prec X W b a n m

variable {α : Type}

/-- Entry (b, a, n, c) of two arrays joined along the last axis, for a column c that falls in the first: it is the
    first array's entry (b, a, n, c). -/
theorem join_last_left {K₁ K₂ : Nat} (u : (⟨4, ![B, A, N, K₁]⟩ : Shape).Idx → α)
    (v : (⟨4, ![B, A, N, K₂]⟩ : Shape).Idx → α)
    (h : Shape.Concatenates [(⟨4, ![B, A, N, K₁]⟩ : Shape), ⟨4, ![B, A, N, K₂]⟩] ⟨4, ![B, A, N, K]⟩ 3)
    (b : Fin B) (a : Fin A) (n : Fin N) (c : Fin K) (d : Fin K₁) (hc : c.val = d.val) :
    concatenate (⟨4, ![B, A, N, K]⟩ : Shape) 3 [⟨⟨4, ![B, A, N, K₁]⟩, u⟩, ⟨⟨4, ![B, A, N, K₂]⟩, v⟩] h (ix4 b a n c)
      = u (ix4 b a n d) :=
  concatenate_pair_apply_left 3 u v h (ix4 b a n c) rfl (ix4 b a n d) (fun x => match x with
    | ⟨0, _⟩ => rfl
    | ⟨1, _⟩ => rfl
    | ⟨2, _⟩ => rfl
    | ⟨3, _⟩ => hc.symm)

/-- Entry (b, a, n, c) of two arrays joined along the last axis, for a column c past the first array's K₁ columns: it
    is the second array's entry (b, a, n, c − K₁). -/
theorem join_last_right {K₁ K₂ : Nat} (u : (⟨4, ![B, A, N, K₁]⟩ : Shape).Idx → α)
    (v : (⟨4, ![B, A, N, K₂]⟩ : Shape).Idx → α)
    (h : Shape.Concatenates [(⟨4, ![B, A, N, K₁]⟩ : Shape), ⟨4, ![B, A, N, K₂]⟩] ⟨4, ![B, A, N, K]⟩ 3)
    (b : Fin B) (a : Fin A) (n : Fin N) (c : Fin K) (d : Fin K₂) (hc : c.val = K₁ + d.val) :
    concatenate (⟨4, ![B, A, N, K]⟩ : Shape) 3 [⟨⟨4, ![B, A, N, K₁]⟩, u⟩, ⟨⟨4, ![B, A, N, K₂]⟩, v⟩] h (ix4 b a n c)
      = v (ix4 b a n d) :=
  concatenate_pair_apply_right 3 u v h (ix4 b a n c) rfl rfl (ix4 b a n d) (fun x hx => match x, hx with
    | ⟨0, _⟩, _ => rfl
    | ⟨1, _⟩, _ => rfl
    | ⟨2, _⟩, _ => rfl
    | ⟨3, _⟩, hx => absurd rfl hx)
    (by show d.val + K₁ = c.val; omega)

end Cert.Dense4
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.RefDense.lean ====
/-
  The reference's two dense layers, read at an index over the extended reals.

  The messages are the first dense layer and its rectifier on the gathered rows: at `(0, t, e, f)` the sum over `d` of
  the gathered entry `(0, t, e, d)` times `Wp (d, f)`, plus the bias `bp f`, clipped below by zero. The result is the
  second dense layer and its rectifier on the features joined with the mean along the last axis: the sum over the 256
  joined columns splits into the sum over the node's own 128 features against the first 128 rows of `Wu` and the sum
  over the 128 mean entries against its last 128 rows.
-/
import proofs.«106592_j27015344292524_1_alg».proof.Proof.Terms
import proofs.«106592_j27015344292524_1_alg».proof.Proof.LibDense
import proofs.«106592_j27015344292524_1_alg».proof.Proof.LibDense4
import proofs.«106592_j27015344292524_1_alg».proof.Proof.LibSlabLayout
import proofs.«106592_j27015344292524_1_alg».proof.Proof.LibColumnJoin

noncomputable section

open scoped BigOperators

open Idealize.ShloMosaic Idealize.ShloMosaic.ValueIdx

namespace Cert.GraphConv

namespace R
open Cert.ReferenceIdeal Cert.ReferenceIdeal.Facts₀

/-- THE MESSAGES AT `(0, t, e, f)`: the first dense layer on the gathered row of edge `e`, clipped below by zero. -/
theorem msgs_apply (x : FVec Ideal S1x2x20000x128 .f32) (nb : IVec S320000 32) (Wp : FVec Ideal S128x128 .f32)
    (bp : FVec Ideal S128 .f32) (t : Fin 2) (e : Fin 320000) (f : Fin 128) :
    R.msgs x nb Wp bp (ix4 (0 : Fin 1) t e f)
      = max ((∑ d : Fin 128, R.take x nb (ix4 (0 : Fin 1) t e d) * Wp (ix2 d f)) + bp (ix1 f)) 0 := by
  unfold R.msgs
  rw [Cert.Dense.hostRelu_apply, addf_apply, Cert.Dense4.dotGeneral_apply _ rfl rfl rfl rfl rfl rfl,
    Cert.SlabLayout.row4_to_array_apply, Cert.SlabLayout.vec_to_row4_apply]

/-- THE REFERENCE'S RESULT AT `(0, t, n, f)`: the second dense layer on node `n`'s own features (against the first 128
    rows of `Wu`) joined with its mean message (against the last 128 rows), clipped below by zero. -/
theorem out_apply (x : FVec Ideal S1x2x20000x128 .f32) (e : IVec S2x320000 32) (Wp : FVec Ideal S128x128 .f32)
    (bp : FVec Ideal S128 .f32) (Wu : FVec Ideal S256x128 .f32) (bu : FVec Ideal S128 .f32) (t : Fin 2)
    (n : Fin 20000) (f : Fin 128) :
    R.out x e Wp bp Wu bu (ix4 (0 : Fin 1) t n f)
      = max (((∑ k : Fin 128, x (ix4 (0 : Fin 1) t n k) * Wu (ix2 ⟨k.val, by omega⟩ f))
            + (∑ k : Fin 128, R.mean (R.msgs x (nbrIds e) Wp bp) (nodeIds e) (ix4 (0 : Fin 1) t n k)
                * Wu (ix2 ⟨128 + k.val, by omega⟩ f)))
          + bu (ix1 f)) 0 := by
  unfold R.out
  rw [Cert.Dense.hostRelu_apply, addf_apply, Cert.Dense4.dotGeneral_apply _ rfl rfl rfl rfl rfl rfl,
    Cert.SlabLayout.row4_to_array_apply, Cert.SlabLayout.vec_to_row4_apply,
    Idealize.ShloMosaic.ColumnJoin.sum_fin_split 128 128 rfl]
  refine congrArg (fun s => max (s + bu (ix1 f)) (0 : EReal)) ?_
  refine congrArg₂ (· + ·) (Finset.sum_congr rfl fun k _ => ?_) (Finset.sum_congr rfl fun k _ => ?_)
  · rw [Cert.Dense4.join_last_left (K := 256) _ _ _ (0 : Fin 1) t n ⟨k.val, by omega⟩ k rfl]
  · rw [Cert.Dense4.join_last_right (K := 256) _ _ _ (0 : Fin 1) t n ⟨128 + k.val, by omega⟩ k rfl]

end R

end Cert.GraphConv

end
-- ==== Proof.RefValue.lean ====
import proofs.«106592_j27015344292524_1_alg».proof.Proof.RefDense
import proofs.«106592_j27015344292524_1_alg».proof.Proof.Layer

/-! # The reference's result is the layer

The reference gathers, for every edge, the feature row of the edge's neighbour (every neighbour number being a row, the
fill value is never selected), applies the first dense layer and its rectifier to that row — which is `prep` of the
neighbour —, takes the per-node mean, `agg`, joins it to the node's own row and applies the second dense layer: the
sum over the 256 joined columns is the sum over the node's own 128 plus the sum over the mean's 128. -/

noncomputable section

open Idealize.ShloMosaic Idealize.ShloMosaic.ValueIdx

namespace Cert.GraphConv

open Cert.KernelIdeal Cert.Relayout

theorem R.out_eq_layer (x : FVec Ideal S1x2x20000x128 .f32) (e : IVec S2x320000 32) (Wp : FVec Ideal S128x128 .f32)
    (bp : FVec Ideal S128 .f32) (Wu : FVec Ideal S256x128 .f32) (bu : FVec Ideal S128 .f32)
    (hin : ∀ j : Fin 320000, inRange (nbrIds e) (ix1 j) = 1#1) (t : Fin 2) (n : Fin 20000) (f : Fin 128) :
    R.out x e Wp bp Wu bu (ix4 (0 : Fin 1) t n f) = layer x e Wp bp Wu bu t n f := by
  rw [R.out_apply]
  unfold layer
  refine congrArg (fun s => max (((∑ k : Fin 128, x (ix4 (0 : Fin 1) t n k) * Wu (ix2 (upper k) f)) + s) + bu (ix1 f)) 0)
    (Finset.sum_congr rfl fun k _ => ?_)
  refine congrArg (· * Wu (ix2 (lower k) f)) ?_
  rw [R.mean_apply]
  unfold agg
  refine congrArg (fun s => Ideal.div (0 + s) (max (0 + ∑ _j ∈ hitsOf (nodeIds e) n, (1 : EReal)) 1))
    (Finset.sum_congr rfl fun j _ => ?_)
  rw [R.msgs_apply]
  unfold prep
  refine congrArg (fun s => max (s + bp (ix1 k)) 0) (Finset.sum_congr rfl fun d _ => ?_)
  rw [R.take_apply x (nbrIds e) hin]

end Cert.GraphConv

end
-- ==== Proof.InRange.lean ====
import proofs.«106592_j27015344292524_1_alg».proof.Proof.Terms
import Idealize.ShloMosaic.Lib.ReduceAll
import Idealize.ShloMosaic.Lib.Pipeline.Value

/-! # Neighbour numbers inside the table make the range mask all ones

The gather stage guards each edge by "the wrapped neighbour number is a row of the table": with `v` the edge's
neighbour number read signed, the wrapped number is `v + 20000` where `v < 0` and `v` elsewhere, and the mask asks
`0 ≤ · ≤ 19999` of it (a conjunction reduced over the column's unit axis from the bit 1).  For `0 ≤ v < 20000` the
wrap keeps `v` and both comparisons hold, so the mask is 1 at every edge. -/

noncomputable section

open Idealize.ShloMosaic Idealize.ShloMosaic.ValueIdx

namespace Cert.GraphConv

/-- A left fold by `and` over one-bit words that starts at 1 and meets only 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduction by `and` from the bit 1 of an array of 1s is 1 at every index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ (fun i _ => hx i)

section
open Cert.KernelIdeal Cert.KernelIdeal.Facts₀

/-- The wrapped column at edge `e`: the neighbour number, 20000 added where it reads negative. -/
theorem nbrCol_apply (nb : IVec S320000 32) (e : Fin 320000) (c : Fin 1) :
    nbrCol nb (ix2 e c)
      = Scalar.select (IntOp.cmpi .slt (nb (ix1 e)) 0#32) (IntOp.addi (nb (ix1 e)) 20000#32) (nb (ix1 e)) := by
  unfold nbrCol Cert.IndexCol.wrapCol Cert.IndexCol.col
  rw [Idealize.ShloMosaic.broadcastInDim_apply _ _ _ _ (ix1 e) (fun a => by
    obtain rfl : a = 0 := Subsingleton.elim _ _
    rw [if_neg (by decide)]; rfl)]
  rfl

/-- A neighbour number in `[0, 20000)` is its own wrapped number. -/
theorem nbrCol_of_bounds (nb : IVec S320000 32) (e : Fin 320000) (c : Fin 1)
    (h : 0 ≤ (nb (ix1 e)).toInt ∧ (nb (ix1 e)).toInt < 20000) : nbrCol nb (ix2 e c) = nb (ix1 e) := by
  rw [nbrCol_apply]
  have h0 : IntOp.cmpi .slt (nb (ix1 e)) 0#32 = 0#1 := by
    refine eq_zero_of_ne_one (fun hc => ?_)
    have := IntOp.cmpi_slt.1 hc
    have hz : (0#32 : BitVec 32).toInt = 0 := by decide
    omega
  rw [h0, select_zero]

/-- Neighbour numbers in `[0, 20000)` make the range mask 1 at every edge. -/
theorem inRange_of_bounds (nb : IVec S320000 32)
    (h : ∀ e : Fin 320000, 0 ≤ (nb (ix1 e)).toInt ∧ (nb (ix1 e)).toInt < 20000) :
    ∀ e : Fin 320000, inRange nb (ix1 e) = 1#1 := by
  intro e
  unfold inRange
  refine reduce_andi_of_all _ _ _ _ (fun _ => rfl) (fun i => ?_) _
  rw [eq_ix2 i]
  show IntOp.andi (IntOp.cmpi .sge (nbrCol nb (ix2 (i 0) (i 1))) 0#32)
    (IntOp.cmpi .sle (nbrCol nb (ix2 (i 0) (i 1))) 19999#32) = 1#1
  rw [nbrCol_of_bounds nb (i 0) (i 1) (h (i 0))]
  have hz : (0#32 : BitVec 32).toInt = 0 := by decide
  have hm : (19999#32 : BitVec 32).toInt = 19999 := by decide
  have hb := h (i 0)
  exact IntOp.andi_eq_one.2 ⟨IntOp.cmpi_sge.2 (by omega), IntOp.cmpi_sle.2 (by omega)⟩

end

end Cert.GraphConv

end
-- ==== Proof.PreDomain.lean ====
import proofs.«106592_j27015344292524_1_alg».proof.Proof.Terms
import proofs.«106592_j27015344292524_1_alg».proof.Proof.Gen.Pre_finite_inputs
import Idealize.ShloMosaic.Lib.ReduceAll

/-! # From the precondition to the neighbour numbers' range

The claim's precondition is a conjunction of "all entries" tests; its last conjunct asks, of row 1 of the edge table
(each edge's neighbour number, read signed), `0 ≤ ·` and `· < 20000` at every edge.  Read back: the conjunction is 1,
so its last conjunct is 1; that conjunct is a reduction by `and` into one value, so every entry of the reduced array is
1; an entry is the `and` of the two comparisons, so both hold of the edge's neighbour number. -/

noncomputable section

open Idealize.ShloMosaic Idealize.ShloMosaic.ValueIdx

namespace Cert.GraphConv

open Cert.KernelIdeal

/-- The rank-zero shape has one index. -/
instance : Subsingleton (⟨0, ![]⟩ : Shape).Idx := ⟨fun a b => funext fun d => d.elim0⟩

/-- Under the precondition every edge's neighbour number is in `[0, 20000)`. -/
theorem nbr_bounds_of_pre (x : FVec Ideal S1x2x20000x128 .f32) (e : IVec S2x320000 32) (Wp : FVec Ideal S128x128 .f32)
    (bp : FVec Ideal S128 .f32) (Wu : FVec Ideal S256x128 .f32) (bu : FVec Ideal S128 .f32)
    (h : Cert.Pre_finite_inputs.fn (F := Ideal) x e Wp bp Wu bu = fun _ => 1#1) :
    ∀ k : Fin 320000, 0 ≤ (nbrIds e (ix1 k)).toInt ∧ (nbrIds e (ix1 k)).toInt < 20000 := by
  intro k
  have h0 := congrFun h ix0
  dsimp only [Cert.Pre_finite_inputs.fn, Cert.Pre_finite_inputs.fn_part1] at h0
  obtain ⟨_, h33⟩ := IntOp.andi_eq_one.1 h0
  have hk := Host.reduce_andi_all _ _ _ _ _ h33 (ix1 k)
  obtain ⟨hge, hlt⟩ := IntOp.andi_eq_one.1 hk
  have h1 : (0#32 : BitVec 32).toInt ≤ (nbrIds e (ix1 k)).toInt := IntOp.cmpi_sge.1 hge
  have h2 : (nbrIds e (ix1 k)).toInt < (20000#32 : BitVec 32).toInt := IntOp.cmpi_slt.1 hlt
  have hz : (0#32 : BitVec 32).toInt = 0 := by decide
  have hm : (20000#32 : BitVec 32).toInt = 20000 := by decide
  omega

end Cert.GraphConv

end
-- ==== Proof.Bridge.lean ====
import proofs.«106592_j27015344292524_1_alg».proof.Proof.KernelValue
import proofs.«106592_j27015344292524_1_alg».proof.Proof.RefValue
import proofs.«106592_j27015344292524_1_alg».proof.Proof.InRange
import proofs.«106592_j27015344292524_1_alg».proof.Proof.PreDomain

/-! # The two results are one array

Under the precondition every neighbour number is a row of the feature table, so both programs' results are `layer` of
the arguments at every index; an index of the result is a slice, a node and a feature (its leading coordinate ranges
over one value). -/

set_option maxRecDepth 16384

noncomputable section

namespace Cert.KernelIdeal.Fold

open Cert.KernelIdeal Cert.KernelIdeal.Gen Cert.GraphConv
open Idealize.ShloMosaic Idealize.ShloMosaic.TcCoe Idealize.SL.Sem Idealize.ShloMosaic.ValueIdx

/-- From the precondition on one device's arguments: every edge's neighbour number is in range. -/
theorem inRange_of_pre (x : FVec Ideal S1x2x20000x128 .f32) (e : IVec S2x320000 32) (Wp : FVec Ideal S128x128 .f32)
    (bp : FVec Ideal S128 .f32) (Wu : FVec Ideal S256x128 .f32) (bu : FVec Ideal S128 .f32)
    (h : Cert.Pre_finite_inputs.fn (F := Ideal) x e Wp bp Wu bu = fun _ => 1#1) :
    ∀ j : Fin 320000, inRange (nbrIds e) (ix1 j) = 1#1 :=
  inRange_of_bounds (nbrIds e) (nbr_bounds_of_pre x e Wp bp Wu bu h)

/-- The kernel program's result buffer holds the reference's result term of the same arguments. -/
theorem result_eq (m : (ℓ : Loc nD τ sig) → Buf (Elt Ideal) ℓ) (ρ : Dev nD → PrngReg) (c : Dev nD)
    (h : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    W7 m ρ c (Proc.devRef .tc main_v26)
      = R.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have hin := inRange_of_pre _ _ _ _ _ _ h
  funext i
  obtain ⟨a, t, n, f, rfl⟩ : ∃ (a : Fin 1) (t : Fin 2) (n : Fin 20000) (f : Fin 128), i = ix4 a t n f :=
    ⟨i 0, i 1, i 2, i 3, eq_ix4 i⟩
  obtain rfl : a = 0 := Subsingleton.elim _ _
  rw [out_apply m ρ c hin t n f, R.out_eq_layer _ _ _ _ _ _ hin t n f]

end Cert.KernelIdeal.Fold

end
-- ==== Proof.lean ====
/- The proof of `Cert.Claim` for a graph-convolution layer: two pipelined dense layers around a gather of neighbour
   rows and a per-node mean, against the plain reference that gathers feature rows first.

   The three frames: the two kernel programs' are their generated frame certificates; the reference has no kernel, and
   its frame is its run with the result dropped.  The idealization rewrote nothing, so `preserves` is `True`.
   `algebraic`: both runs are stated with the result buffer named — the kernel program's at the last boundary's
   contents of its frame certificate, the reference's at the composed term of its host operations — and the two are
   one array: at every slice, node and feature both are `Cert.GraphConv.layer` of the arguments (Proof/Layer.lean says
   what that is and why gathering a row commutes with the first dense layer), given that every neighbour number is a
   row of the feature table, which is what the precondition's last conjunct says. -/
import proofs.«106592_j27015344292524_1_alg».proof.Defs
import proofs.«106592_j27015344292524_1_alg».proof.Proof.Gen.Kernel
import proofs.«106592_j27015344292524_1_alg».proof.Proof.Gen.Kernel.Frame
import proofs.«106592_j27015344292524_1_alg».proof.Proof.Gen.KernelIdeal
import proofs.«106592_j27015344292524_1_alg».proof.Proof.Gen.KernelIdeal.Frame
import proofs.«106592_j27015344292524_1_alg».proof.Proof.Gen.ReferenceIdeal
import proofs.«106592_j27015344292524_1_alg».proof.Proof.Gen.Pre_finite_inputs
import proofs.«106592_j27015344292524_1_alg».proof.Proof.KernelRun
import proofs.«106592_j27015344292524_1_alg».proof.Proof.RefRun
import proofs.«106592_j27015344292524_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.HandRun.run m ρ)

/-- Both programs end with the same array: the kernel program's result buffer holds the reference's result term of
    the (agreeing) arguments. -/
theorem algebraic : Cert.algebraic_KernelIdeal_ReferenceIdeal := by
  intro m ρ m' ρ' hpre hagree
  refine ⟨fun c => Cert.KernelIdeal.Gen.W7 m ρ c (Proc.devRef .tc Cert.KernelIdeal.main_v26),
    Cert.KernelIdeal.HandRun.run_out (F := Ideal) m ρ, ?_⟩
  refine (θ_run Cert.ReferenceIdeal.defs _ _).mono (fun r h c => ⟨?_, (h c).2⟩)
    (Cert.ReferenceIdeal.HandRun.run m' ρ')
  rw [(h c).1, (hagree c).1, (hagree c).2.1, (hagree c).2.2.1, (hagree c).2.2.2.1, (hagree c).2.2.2.2.1,
    (hagree c).2.2.2.2.2]
  exact (Cert.KernelIdeal.Fold.result_eq m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
